-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S2048x2048 : Shape := ⟨2, ![2048, 2048]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x1024 .f32) (main_arg1 : FVec F S8x2048x1024 .f32) (main_arg2 : FVec F S8x2048x1024 .f32) (main_arg3 : FVec F S2048x2048 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_v13 main_v16
-- ==== Kernel.lean ====
abbrev S8x2048x1024 : Shape := ⟨3, ![8, 2048, 1024]⟩
abbrev S2048x2048 : Shape := ⟨2, ![2048, 2048]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1x512x1 : Shape := ⟨3, ![1, 512, 1]⟩
abbrev S1x512 : Shape := ⟨2, ![1, 512]⟩

abbrev nBuf : Space → Nat
  | .hbm => 21
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S2048x2048, .bf16⟩
  | .hbm, ⟨14, _⟩ => ⟨S16384x1024, .f32⟩
  | .hbm, ⟨15, _⟩ => ⟨S16384x1024, .bf16⟩
  | .hbm, ⟨16, _⟩ => ⟨S8x2048x1024, .bf16⟩
  | .hbm, ⟨17, _⟩ => ⟨S16384x1024, .f32⟩
  | .hbm, ⟨18, _⟩ => ⟨S16384x1024, .bf16⟩
  | .hbm, ⟨19, _⟩ => ⟨S8x2048x1024, .bf16⟩
  | .hbm, ⟨20, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .bf16⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1024x1024, .bf16⟩
  | .local _ .vmem, ⟨15, _⟩ => ⟨S1024, .f32⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S512x1024, .bf16⟩
  | .local _ .vmem, ⟨21, _⟩ => ⟨S512x1024, .bf16⟩
  | .local _ .vmem, ⟨22, _⟩ => ⟨S1x512x1024, .f32⟩
  | .local _ .vmem, ⟨23, _⟩ => ⟨S1x512x1024, .f32⟩
  | .local _ .vmem, ⟨24, _⟩ => ⟨S1x512x1024, .bf16⟩
  | .local _ .vmem, ⟨25, _⟩ => ⟨S1x512x1, .f32⟩
  | .local _ .vmem, ⟨26, _⟩ => ⟨S1x512x1, .f32⟩
  | .local _ .vmem, ⟨27, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc2_scratch0 : Ref sig .tc := ⟨.vmem, 24, rfl⟩
abbrev cc2_scratch1 : Ref sig .tc := ⟨.vmem, 25, rfl⟩
abbrev cc2_scratch2 : Ref sig .tc := ⟨.vmem, 26, rfl⟩
abbrev cc2_scratch3 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![8, 4, 2], ![false, false, false]⟩

def k2_cond2 (i : grid2.Coords) : BitVec 1 :=
  let arg2 : BitVec 32 := BitVec.ofNat 32 (i 2).val
  let c1_i32 : BitVec 32 := 1#32
  let v45 : BitVec 1 := Scalar.cmpi .eq arg2 c1_i32
  let v46 : BitVec 32 := Scalar.extui v45
  let c0_i32_33 : BitVec 32 := 0#32
  let v47 : BitVec 1 := Scalar.cmpi .ne v46 c0_i32_33
  v47

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1x1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true, true]

abbrev stage2_6 : Fin 2 → Memref sig .tc .vmem S1x512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

class Facts₀ : Prop where
  bitsLt_bf16_f32 : FTy.bits .bf16 < FTy.bits .f32
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S16384x1024_S8x2048x1024 : S16384x1024.ShapeCasts S8x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  shapeCasts_S1x512x1024_S1x512x1024 : S1x512x1024.ShapeCasts S1x512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1x512x1024_S1x512 : S1x512x1024.Reduces [2] S1x512
  shapeCasts_S1x512_S1x512x1 : S1x512.ShapeCasts S1x512x1
  broadcasts_S1x512x1_S1x512x1024 : S1x512x1.Broadcasts S1x512x1024
  dot_S1024x1024_S1024x1024_S1024x1024_1_1_0_0_n_n_wf : DotDims.WF S1024x1024 S1024x1024 S1024x1024 [1] [1] [0] [0] [] []
  dot_S512x1024_S1024x1024_S512x1024_1_1_0_0_n_n_wf : DotDims.WF S512x1024 S1024x1024 S512x1024 [1] [1] [0] [0] [] []
  dot_S1x512x1024_S1x1024x1024_S1x512x1024_2_2_1_1_0_0_wf : DotDims.WF S1x512x1024 S1x1024x1024 S1x512x1024 [2] [2] [1] [1] [0] [0]
  dot_S1x512x1024_S1x1024x1024_S1x512x1024_2_1_1_2_0_0_wf : DotDims.WF S1x512x1024 S1x1024x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x1024.size a
  hwx1_3 : ∀ i : grid1.Coords, EltTy.bits .bf16 = 32 ∨ (Rect.block (s := S16384x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S8x2048x1024.size a
  hwx2_0 : ∀ i : grid2.Coords, EltTy.bits .f32 = 32 ∨ (Rect.block (s := S8x2048x1024) S1x512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S8x2048x1024.size a
  hwx2_3 : ∀ i : grid2.Coords, EltTy.bits .bf16 = 32 ∨ (Rect.block (s := S8x2048x1024) S1x1024x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x1024.size a ≤ S8x2048x1024.size a
  hwx2_4 : ∀ i : grid2.Coords, EltTy.bits .bf16 = 32 ∨ (Rect.block (s := S8x2048x1024) S1x1024x1024.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S2048x2048.size a
  hwx2_5 : ∀ i : grid2.Coords, EltTy.bits .bf16 = 32 ∨ (Rect.block (s := S2048x2048) S512x1024.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x1024.size a ≤ S8x2048x1024.size a
  hwx2_6 : ∀ i : grid2.Coords, EltTy.bits .f32 = 32 ∨ (Rect.block (s := S8x2048x1024) S1x512x1024.size (cc2_transform_6 i) (hinb2_6 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1x512x1024_S1x1024x1024_S1x512x1024_2_2_1_1_0_0 : DotDims S1x512x1024 S1x1024x1024 S1x512x1024 where
  lhsContracting := [2]
  rhsContracting := [2]
  lhsNonContracting := [1]
  rhsNonContracting := [1]
  lhsBatch := [0]
  rhsBatch := [0]
  wf := dot_S1x512x1024_S1x1024x1024_S1x512x1024_2_2_1_1_0_0_wf
def dot_S1x512x1024_S1x1024x1024_S1x512x1024_2_1_1_2_0_0 : DotDims S1x512x1024 S1x1024x1024 S1x512x1024 where
  lhsContracting := [2]
  rhsContracting := [1]
  lhsNonContracting := [1]
  rhsNonContracting := [2]
  lhsBatch := [0]
  rhsBatch := [0]
  wf := dot_S1x512x1024_S1x1024x1024_S1x512x1024_2_1_1_2_0_0_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x1024x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v3) S512x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1x512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S2048x2048 : Shape := ⟨2, ![2048, 2048]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8x2048x1024, .f32⟩
  | .hbm, ⟨11, _⟩ => ⟨S1x1x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S1x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Proj.lean ====
import proofs.«170906_j52518860096512_2_alg».proof.Proof.Gen.KernelIdeal.Launch
import proofs.«170906_j52518860096512_2_alg».proof.Proof.Gen.KernelIdeal.Skeleton
import proofs.«170906_j52518860096512_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two projection regions, at the buffer contents a region is entered with

Each of the two regions runs, over a grid of 16 points, a body that loads a block of 1024 rows of `x`, the whole
weight matrix and the whole bias vector, and stores `x · Wᵀ + b` (rounded to the output's element type) into the
output block. Window 0 (rows of `x`) moves with the point; windows 1 and 2 (weights, bias) have a constant block
index, so they are fetched at the first point only and stay in their buffers; window 3 is the output, written
back at every point.

Everything is stated at a parameter `V`, the contents of the core's buffers when the region is entered, and for
any float semantics `F`. Per region: the windows' blocks read off `V`; what the one store leaves in the output's
staging buffer, as a function of the three loaded blocks; the body's triple; the proof data of the pipeline; and the
body obligation of the pipeline at every point. -/

-- membership in a rectangle of extent 1024 per axis: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when a region is entered: every statement below is at this parameter
variable (V : (c : Dev nD) → (b : Ref sig .tc) → Buf (Elt F) ((c : Thread nD τ).loc b))

/-! # Region 0: the projection body `cc0_proj_kernel` over pipeline 0, at the entry contents `V` -/

/-! ## The windows' blocks -/

/-- Window `w`'s block at point `t`: its array, as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of `x`) holds its block at every point, for any proof data whose array is `V`'s and whose
    body leaves the block in place. The window is fetched at every point; the general lemma also covers a point
    where it is not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights) holds its block at every point: it is fetched at the first point only, and at a
    later point its block index has not moved, so the buffer still holds the block, which the body leaves in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 1024 × 1024 buffer, as the rectangle every two-dimensional load and the store go through. -/
abbrev r0_0 : Rect S1024x1024 := Rect.unit (s := S1024x1024) ![0, 0] S1024x1024.size inb_S1024x1024_S1024x1024_0_0
/-- The whole of the bias buffer. -/
abbrev r0_1 : Rect S1024 := Rect.unit (s := S1024) ![0] S1024.size inb_S1024_S1024_0

/-! ## What the body leaves in the output window's buffer -/

/-- Window 3's staging buffer after the body, from the three input blocks: the one store, of the payload computed from
    the three loads, covers the buffer. -/
def out0_3 (x0 : Vec F S1024x1024 .f32) (x1 : Vec F S1024x1024 .bf16) (x2 : Vec F S1024 .f32) : Vec F S1024x1024 .bf16 :=
  View.canon [⟨r0_0, k0_pay1 (View.ld x0 r0_0) (View.ld x1 r0_0) (View.ld x2 r0_1)⟩]

/-- The store's rectangle is the whole buffer, so it covers it. -/
theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The body on whole staging memrefs — the three inputs' at read contents `x0 x1 x2`, the output's at anything — runs to
    the continuation holding the inputs' as they were and the output's at `out0_3 x0 x1 x2`. The body also loads the
    output's buffer before storing into it; the value read is not used. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_proj_kernel i arg1 harg1 arg2 harg2 arg3 harg3 arg4 harg4) K := by
  simp only [cc0_proj_kernel_eq_skeleton]; unfold cc0_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the three input blocks; the invariant is the rest of
    the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the projection body `cc1_proj_kernel` over pipeline 1, at the entry contents `V` -/

/-! ## The windows' blocks -/

/-- Window `w`'s block at point `t`: its array, as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows of `x`) holds its block at every point, for any proof data whose array is `V`'s and whose
    body leaves the block in place. The window is fetched at every point; the general lemma also covers a point
    where it is not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weights) holds its block at every point: it is fetched at the first point only, and at a
    later point its block index has not moved, so the buffer still holds the block, which the body leaves in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a 1024 × 1024 buffer, as the rectangle every two-dimensional load and the store go through. -/
abbrev r1_0 : Rect S1024x1024 := Rect.unit (s := S1024x1024) ![0, 0] S1024x1024.size inb_S1024x1024_S1024x1024_0_0
/-- The whole of the bias buffer. -/
abbrev r1_1 : Rect S1024 := Rect.unit (s := S1024) ![0] S1024.size inb_S1024_S1024_0

/-! ## What the body leaves in the output window's buffer -/

/-- Window 3's staging buffer after the body, from the three input blocks: the one store, of the payload computed from
    the three loads, covers the buffer. -/
def out1_3 (x0 : Vec F S1024x1024 .f32) (x1 : Vec F S1024x1024 .bf16) (x2 : Vec F S1024 .f32) : Vec F S1024x1024 .bf16 :=
  View.canon [⟨r1_0, k1_pay1 (View.ld x0 r1_0) (View.ld x1 r1_0) (View.ld x2 r1_1)⟩]

/-- The store's rectangle is the whole buffer, so it covers it. -/
theorem cover1_3 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

/-! ## The body's triple -/

set_option maxHeartbeats 1000000 in
/-- The body on whole staging memrefs — the three inputs' at read contents `x0 x1 x2`, the output's at anything — runs to
    the continuation holding the inputs' as they were and the output's at `out1_3 x0 x1 x2`. The body also loads the
    output's buffer before storing into it; the value read is not used. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_proj_kernel i arg1 harg1 arg2 harg2 arg3 harg3 arg4 harg4) K := by
  simp only [cc1_proj_kernel_eq_skeleton]; unfold cc1_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the three input blocks; the invariant is the rest of
    the core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FlashDefs.lean ====
import proofs.«170906_j52518860096512_2_alg».proof.Proof.Gen.KernelIdeal.Launch
import proofs.«170906_j52518860096512_2_alg».proof.Proof.Gen.KernelIdeal.Skeleton
import proofs.«170906_j52518860096512_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (the third call): what its two cases' runs and its proof data share

The grid is (batch, query tile, key tile) = (8, 4, 2), 64 points in row-major order, so point `t` has key tile
`t % 2`. Everything is stated at a PARAMETER `V`: the TensorCore's buffer contents when the region is entered. -/

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (when it is not
    fetched its block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (when it is not
    fetched its block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (when it is not
    fetched its block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (when it is not
    fetched its block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (when it is not
    fetched its block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (when it is not
    fetched its block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's two branch conditions, in closed form -/

/-- The first conditional's condition (key tile = 0: project the query tile, reset the running statistics), as the
    body computes it from the grid coordinates. -/
abbrev cond2_0 (i : grid2.Coords) : Prop := (Scalar.cmpi .ne (Scalar.extui (Scalar.cmpi .eq (BitVec.ofNat 32 (i 2).val) 0#32)) 0#32) = 1#1
/-- It holds exactly at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- The second conditional's condition (key tile = 1, the last: normalise and store the output block). -/
abbrev cond2_1 (i : grid2.Coords) : Prop := k2_cond2 i = 1#1
/-- It holds exactly at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- At the even points (case A) the output window is idle: the body stores nothing into it, -/
theorem idleAt2_6_A : ∀ t : Fin cfg2.N, cond2_0 (grid2.coords t) → ¬cond2_1 (grid2.coords t) → cfg2.idle 6 (grid2.coords t) = true := by decide +kernel
/-- and the pipeline does not write its block back there. -/
theorem noFlush2_6_A : ∀ t : Fin cfg2.N, cond2_0 (grid2.coords t) → ¬cond2_1 (grid2.coords t) → (cfg2.win 6).flush t = false := by decide +kernel
/-- At the odd points (case B) the output window is live: the body stores its whole block. -/
theorem liveAt2_6_B : ∀ t : Fin cfg2.N, ¬cond2_0 (grid2.coords t) → cond2_1 (grid2.coords t) → cfg2.idle 6 (grid2.coords t) = false := by decide +kernel

/-! ## The memrefs the body is called with -/

/-- One staging buffer of the output window, through which its contents are stated (the choice does not matter). -/
abbrev VO2_6 : View sig .tc .vmem S1x512x1024 .f32 := (Memref.whole cc2_stg6_0 : Memref sig .tc .vmem S1x512x1024 .f32).view
abbrev ms2_0 (t : Fin cfg2.N) : Memref sig .tc .vmem S1x512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1024 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x512x1024 .f32 := win2_6.stage (cfg2.slots t 6)
abbrev hs2_6 (t : Fin cfg2.N) : (ms2_6 t).IsWhole := hstage2_6 ((cfg2.slots t 6).cast nbuf2_6)
/-- The four scratch operands, whole scoped buffers of the kernel's own: the projected query tile, the running row
    maximum, the running row sum and the running weighted sum of value rows. -/
abbrev scM2_0 : Memref sig .tc .vmem S1x512x1024 .bf16 := Memref.whole cc2_scratch0
abbrev VS2_0 : View sig .tc .vmem S1x512x1024 .bf16 := scM2_0.view
abbrev scM2_1 : Memref sig .tc .vmem S1x512x1 .f32 := Memref.whole cc2_scratch1
abbrev VS2_1 : View sig .tc .vmem S1x512x1 .f32 := scM2_1.view
abbrev scM2_2 : Memref sig .tc .vmem S1x512x1 .f32 := Memref.whole cc2_scratch2
abbrev VS2_2 : View sig .tc .vmem S1x512x1 .f32 := scM2_2.view
abbrev scM2_3 : Memref sig .tc .vmem S1x512x1024 .f32 := Memref.whole cc2_scratch3
abbrev VS2_3 : View sig .tc .vmem S1x512x1024 .f32 := scM2_3.view

/-! ## The region invariant, with the scratch as owned memrefs -/

/-- The staging buffers of the two projection calls: scoped buffers this region never touches, each whole at some contents. -/
def stgRest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant spelled out: the scoped buffers that are no staging buffer of this region — the projection
    calls' staging buffers and the four scratch, each at some contents — and the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ (∃ r, prngReg c r)) := by
  unfold Pipeline.ΦA; rw [scopedRest2_eq]; simp only [scM2_0, scM2_1, scM2_2, scM2_3, owns_whole]; try rfl

/-- The same with the untouched staging buffers gathered in one conjunct: taken apart, -/
theorem PhiA2_split (c : Dev nD) :
    (Pipeline.ΦA spec2 c : sProp 𝕄)
      ⊢ iprop(iprop(stgRest2 c ∗ (∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ (∃ r, prngReg c r)) := by
  rw [PhiA2_eq]; unfold stgRest2
  iintro ⟨⟨G0, G1, G2, G3, G4, G5, G6, G7, G8, G9, G10, G11, HS0, HS1, HS2, HS3⟩, Hg⟩
  isplitr [Hg]; swap; · iexact Hg
  isplitl [G0 G1 G2 G3 G4 G5 G6 G7 G8 G9 G10 G11]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    iexact G11
  isplitl [HS0]; · iexact HS0
  isplitl [HS1]; · iexact HS1
  isplitl [HS2]; · iexact HS2
  iexact HS3

/-- and put back together. -/
theorem PhiA2_join (c : Dev nD) :
    iprop(iprop(stgRest2 c ∗ (∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ (∃ r, prngReg c r))
      ⊢ (Pipeline.ΦA spec2 c : sProp 𝕄) := by
  rw [PhiA2_eq]; unfold stgRest2
  iintro ⟨⟨⟨G0, G1, G2, G3, G4, G5, G6, G7, G8, G9, G10, G11⟩, HS0, HS1, HS2, HS3⟩, Hg⟩
  isplitr [Hg]; swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [HS0]; · iexact HS0
  isplitl [HS1]; · iexact HS1
  isplitl [HS2]; · iexact HS2
  iexact HS3

end Cert.KernelIdeal.Hand

end
-- ==== Proof.FlashRunA.lean ====
import proofs.«170906_j52518860096512_2_alg».proof.Proof.FlashDefs

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- CASE A (key tile 0: the first conditional taken, the second not). What the body's stores leave in each scratch, as
    pieces (last first), WITH the proof that on whole memrefs — the six inputs' at their contents, the output's at
    contents `xi6` handed back untouched (no store: the window is idle here), the four scratch at anything — the body
    runs to the continuation holding the inputs' and the output's as they were and each scratch with its pieces
    written: the projected query tile stored into the first, the running maximum, sum and weighted sum reset and then
    advanced by this key tile. The pieces are the witness the run finds. -/
noncomputable def kernelRun2_A (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) :
    Σ' (L6 : List (View.Piece (Elt F) S1x512x1024 .f32)) (LS0 : List (View.Piece (Elt F) S1x512x1024 .bf16)) (LS1 : List (View.Piece (Elt F) S1x512x1 .f32)) (LS2 : List (View.Piece (Elt F) S1x512x1 .f32)), { LS3 : List (View.Piece (Elt F) S1x512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2_flash_kernel i arg3 harg3 arg4 harg4 arg5 harg5 arg6 harg6 arg7 harg7 arg8 harg8 arg9 harg9 arg10 harg10 arg11 harg11 arg12 harg12 arg13 harg13) K } := by
  refine ⟨[], ?_, ?_, ?_, ?_, fun xi6 E K => ?run⟩
  case run =>
    simp only [cc2_flash_kernel_eq_skeleton]; unfold cc2_flash_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    isplitl [HS2]; · iexists _; iexact HS2
    iexists _; iexact HS3

end Cert.KernelIdeal.Hand

end
-- ==== Proof.FlashRunB.lean ====
import proofs.«170906_j52518860096512_2_alg».proof.Proof.FlashRunA

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- CASE B (key tile 1, the last: the first conditional not taken, the second taken). What the body's stores leave in
    the output's staging memref and in the three statistics scratch, as pieces (last first), WITH the proof that on
    whole memrefs — the six inputs' at their contents, the output's at anything, the four scratch at the contents
    `xs·` the point before left — the body runs to the continuation holding the inputs' and the projected query tile
    (only read here) as they were and the output's and each statistics scratch with its pieces written: the
    statistics advanced by this key tile, and the output block the weighted sum divided by the row sum. The pieces
    are the witness the run finds. -/
noncomputable def kernelRun2_B (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) :
    Σ' (L6 : List (View.Piece (Elt F) S1x512x1024 .f32)) (LS1 : List (View.Piece (Elt F) S1x512x1 .f32)) (LS2 : List (View.Piece (Elt F) S1x512x1 .f32)), { LS3 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2_flash_kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2_flash_kernel_eq_skeleton]; unfold cc2_flash_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _; isplitr; · ipureintro; exact harg10.read_unread _
      iexact HS0
    isplitl [HS1]; · iexists _; iexact HS1
    isplitl [HS2]; · iexists _; iexact HS2
    iexists _; iexact HS3

end Cert.KernelIdeal.Hand

end
-- ==== Proof.Flash.lean ====
import proofs.«170906_j52518860096512_2_alg».proof.Proof.FlashRunB

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what each case leaves, point by point; the proof data; the body obligation

Case A is a point with key tile 0 (an even point), case B one with key tile 1 (an odd point); every odd point follows
the even point of the same batch and query tile. -/

/-! ## What each case leaves in each buffer -/

/-- Case A stores nothing into the output window (idle at its points and not written back there): no pieces — a
    placeholder (junk read back) that nothing consults. -/
def out2_A_6 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) : Vec F S1x512x1024 .f32 :=
  VO2_6.read (Elt F) (VO2_6.writes (Elt F) VO2_6.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).1)

/-- Case A's pieces for the projected query tile (scratch 0) tile the buffer, so they cover it. -/
theorem scover2_A_0 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (y : S1x512x1024.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1 S1x512x1024.size (by sl_kernel_rfl) y

/-- What case A leaves in scratch 0: its pieces read back over junk. -/
def sout2_A_0 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) : Vec F S1x512x1024 .bf16 :=
  VS2_0.read (Elt F) (VS2_0.writes (Elt F) VS2_0.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1)

/-- Case A's pieces for the running row maximum (scratch 1) tile the buffer, so they cover it. -/
theorem scover2_A_1 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (y : S1x512x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1 S1x512x1.size (by sl_kernel_rfl) y

/-- What case A leaves in scratch 1: its pieces read back over junk. -/
def sout2_A_1 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) : Vec F S1x512x1 .f32 :=
  VS2_1.read (Elt F) (VS2_1.writes (Elt F) VS2_1.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1)

/-- Case A's pieces for the running row sum (scratch 2) tile the buffer, so they cover it. -/
theorem scover2_A_2 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (y : S1x512x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1 S1x512x1.size (by sl_kernel_rfl) y

/-- What case A leaves in scratch 2: its pieces read back over junk. -/
def sout2_A_2 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) : Vec F S1x512x1 .f32 :=
  VS2_2.read (Elt F) (VS2_2.writes (Elt F) VS2_2.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1)

/-- Case A's pieces for the running weighted sum of value rows (scratch 3) tile the buffer, so they cover it. -/
theorem scover2_A_3 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (y : S1x512x1024.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1 S1x512x1024.size (by sl_kernel_rfl) y

/-- What case A leaves in scratch 3: its pieces read back over junk. -/
def sout2_A_3 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) : Vec F S1x512x1024 .f32 :=
  VS2_3.read (Elt F) (VS2_3.writes (Elt F) VS2_3.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1)

/-- Case B's one store into the output window is of its whole block, so its pieces cover it. -/
theorem cover2_B_6 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) (y : S1x512x1024.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 S1x512x1024.size (by sl_kernel_rfl) y

/-- What case B leaves in the output window's staging buffer: its pieces read back over junk. -/
def out2_B_6 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) : Vec F S1x512x1024 .f32 :=
  VO2_6.read (Elt F) (VO2_6.writes (Elt F) VO2_6.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1)

/-- Case B's pieces for the running row maximum (scratch 1) tile the buffer, so they cover it. -/
theorem scover2_B_1 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) (y : S1x512x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 S1x512x1.size (by sl_kernel_rfl) y

/-- What case B leaves in scratch 1: its pieces read back over junk. -/
def sout2_B_1 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) : Vec F S1x512x1 .f32 :=
  VS2_1.read (Elt F) (VS2_1.writes (Elt F) VS2_1.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1)

/-- Case B's pieces for the running row sum (scratch 2) tile the buffer, so they cover it. -/
theorem scover2_B_2 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) (y : S1x512x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 S1x512x1.size (by sl_kernel_rfl) y

/-- What case B leaves in scratch 2: its pieces read back over junk. -/
def sout2_B_2 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) : Vec F S1x512x1 .f32 :=
  VS2_2.read (Elt F) (VS2_2.writes (Elt F) VS2_2.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1)

/-- Case B's pieces for the running weighted sum of value rows (scratch 3) tile the buffer, so they cover it. -/
theorem scover2_B_3 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) (y : S1x512x1024.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 S1x512x1024.size (by sl_kernel_rfl) y

/-- What case B leaves in scratch 3: its pieces read back over junk. -/
def sout2_B_3 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) : Vec F S1x512x1024 .f32 :=
  VS2_3.read (Elt F) (VS2_3.writes (Elt F) VS2_3.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1)

/-! ## The conditions at a point, from its parity -/

theorem hc0_of_even (t : Fin cfg2.N) (h0 : t.val % 2 = 0) : cond2_0 (grid2.coords t) := (hcond2_0 t).mpr h0
theorem hc1_of_even (t : Fin cfg2.N) (h0 : t.val % 2 = 0) : ¬cond2_1 (grid2.coords t) := fun h => by
  have h1 := (hcond2_1 t).mp h; omega
theorem hc0_of_odd (t : Fin cfg2.N) (h0 : ¬t.val % 2 = 0) : ¬cond2_0 (grid2.coords t) := fun h => h0 ((hcond2_0 t).mp h)
theorem hc1_of_odd (t : Fin cfg2.N) (h0 : ¬t.val % 2 = 0) : cond2_1 (grid2.coords t) := (hcond2_1 t).mpr (by omega)

section Region2
variable (V : (c : Dev nD) → (b : Ref sig .tc) → Buf (Elt F) ((c : Thread nD τ).loc b))

/-! ## What the output window and the four scratch hold after each point -/

/-- What the output window's staging buffer and the four scratch hold after a point (the output first, then the scratch
    in order). -/
abbrev Outs2 (F : FTy → Type) : Type := Vec F S1x512x1024 .f32 × Vec F S1x512x1024 .bf16 × Vec F S1x512x1 .f32 × Vec F S1x512x1 .f32 × Vec F S1x512x1024 .f32

/-- THE ACCUMULATION. What the output window's staging buffer and the four scratch hold after the body at position `n`:
    at an even point case A's contents, run at the point's memrefs and input blocks (it reads nothing the point before
    left: all four scratch are stored whole before they are read); at an odd point case B's, over the four scratch as
    the point before left them — the projected query tile, only read there, stays as it was. -/
def outsAt2 (c : Dev nD) : (n : ℕ) → n < cfg2.N → Outs2 F
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) scM2_3 (Memref.isWhole_whole _) (hc0_of_even ⟨0, hn⟩ (Nat.zero_mod _)) (hc1_of_even ⟨0, hn⟩ (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
        sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) scM2_3 (Memref.isWhole_whole _) (hc0_of_even ⟨0, hn⟩ (Nat.zero_mod _)) (hc1_of_even ⟨0, hn⟩ (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
        sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) scM2_3 (Memref.isWhole_whole _) (hc0_of_even ⟨0, hn⟩ (Nat.zero_mod _)) (hc1_of_even ⟨0, hn⟩ (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
        sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) scM2_3 (Memref.isWhole_whole _) (hc0_of_even ⟨0, hn⟩ (Nat.zero_mod _)) (hc1_of_even ⟨0, hn⟩ (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
        sout2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) scM2_3 (Memref.isWhole_whole _) (hc0_of_even ⟨0, hn⟩ (Nat.zero_mod _)) (hc1_of_even ⟨0, hn⟩ (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 2 = 0 then
      (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_even ⟨n + 1, hn⟩ h0) (hc1_of_even ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
        sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_even ⟨n + 1, hn⟩ h0) (hc1_of_even ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
        sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_even ⟨n + 1, hn⟩ h0) (hc1_of_even ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
        sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_even ⟨n + 1, hn⟩ h0) (hc1_of_even ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
        sout2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_even ⟨n + 1, hn⟩ h0) (hc1_of_even ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_odd ⟨n + 1, hn⟩ h0) (hc1_of_odd ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
        (outsAt2 c n (Nat.lt_of_succ_lt hn)).2.1,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_odd ⟨n + 1, hn⟩ h0) (hc1_of_odd ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
        sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_odd ⟨n + 1, hn⟩ h0) (hc1_of_odd ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
        sout2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_odd ⟨n + 1, hn⟩ h0) (hc1_of_odd ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2)

/-- `outsAt2` at an even point: case A's contents. -/
theorem outsAt2_A (c : Dev nD) (t : Fin cfg2.N) (h0 : t.val % 2 = 0) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_even t h0) (hc1_of_even t h0) (iblk2 V c 0 t) (iblk2 V c 1 t) (iblk2 V c 2 t) (iblk2 V c 3 t) (iblk2 V c 4 t) (iblk2 V c 5 t),
        sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_even t h0) (hc1_of_even t h0) (iblk2 V c 0 t) (iblk2 V c 1 t) (iblk2 V c 2 t) (iblk2 V c 3 t) (iblk2 V c 4 t) (iblk2 V c 5 t),
        sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_even t h0) (hc1_of_even t h0) (iblk2 V c 0 t) (iblk2 V c 1 t) (iblk2 V c 2 t) (iblk2 V c 3 t) (iblk2 V c 4 t) (iblk2 V c 5 t),
        sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_even t h0) (hc1_of_even t h0) (iblk2 V c 0 t) (iblk2 V c 1 t) (iblk2 V c 2 t) (iblk2 V c 3 t) (iblk2 V c 4 t) (iblk2 V c 5 t),
        sout2_A_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_even t h0) (hc1_of_even t h0) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans rfl

/-- `outsAt2` at an odd point: case B's contents, over what the point before left. -/
theorem outsAt2_B (c : Dev nD) (t : Fin cfg2.N) (h0 : ¬t.val % 2 = 0) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_odd t h0) (hc1_of_odd t h0) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
        (outsAt2 V c (t.val - 1) (Nat.lt_of_le_of_lt (Nat.sub_le _ _) t.isLt)).2.1,
        sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_odd t h0) (hc1_of_odd t h0) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
        sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_odd t h0) (hc1_of_odd t h0) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
        sout2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_odd t h0) (hc1_of_odd t h0) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The region invariant -/

/-- The region invariant before position `n`: before the first point the class's (every scoped buffer that is no
    staging buffer of this region at anything, the generator register at some state); afterwards the same with the four
    scratch at what the point before left in them. -/
def PhiS2 (c : Dev nD) : (n : ℕ) → n ≤ cfg2.N → sProp 𝕄
  | 0, _ => Pipeline.ΦA spec2 c
  | n + 1, hn => iprop(iprop(stgRest2 c ∗ owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2.1) ∗ owns (c : Thread nD τ) scM2_3 fullShare ((outsAt2 V c n hn).2.2.2.2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch at that point's contents. -/
theorem PhiS2_succ (c : Dev nD) (n : ℕ) (hn : n < cfg2.N) :
    PhiS2 V c (n + 1) hn = iprop(iprop(stgRest2 c ∗ owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2.1) ∗ owns (c : Thread nD τ) scM2_3 fullShare ((outsAt2 V c n hn).2.2.2.2)) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(stgRest2 c ∗ owns (c : Thread nD τ) scM2_0 fullShare ((outsAt2 V c (n - 1) (by omega)).2.1) ∗ owns (c : Thread nD τ) scM2_1 fullShare ((outsAt2 V c (n - 1) (by omega)).2.2.1) ∗ owns (c : Thread nD τ) scM2_2 fullShare ((outsAt2 V c (n - 1) (by omega)).2.2.2.1) ∗ owns (c : Thread nD τ) scM2_3 fullShare ((outsAt2 V c (n - 1) (by omega)).2.2.2.2)) ∗ (∃ r, prngReg c r)) := by
  cases n with
  | zero => exact absurd rfl hz
  | succ n => rfl

/-! ## The pipeline's proof data -/

/-- The proof data of the attention call's pipeline on core `c`: the arrays as the region finds them (`V`); after the
    body at point `t` each input's buffer at its block and the output's at `outsAt2`'s first component; the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the point's parity says which case it is in, so that
    case's run applies; the invariant hands the body the four scratch — at anything at an even point, which stores each
    whole before reading it, and at what the point before left at an odd point — and takes them back at this point's
    contents; the untouched staging buffers of the other calls, the generator register and the core's debts pass
    through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 2 = 0
  · rw [Dat.leavesExact_idle (dat2 V c) 6 t (idleAt2_6_A t (hc0_of_even t h0) (hc1_of_even t h0)) (noFlush2_6_A t (hc0_of_even t h0) (hc1_of_even t h0))]
    rw [outsAt2_A V c t h0]
    unfold sout2_A_0 sout2_A_1 sout2_A_2 sout2_A_3; (try dsimp only)
    by_cases hz : t.val = 0
    · rw [PhiS2_castSucc V c t, PhiS2_zero V c _ _ hz]
      refine BIBase.Entails.trans (sep_mono_left (PhiA2_split c)) ?_
      iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ _ _ _ _ _ _ (hc0_of_even t h0) (hc1_of_even t h0) (iblk2 V c 0 t) (iblk2 V c 1 t) (iblk2 V c 2 t) (iblk2 V c 3 t) (iblk2 V c 4 t) (iblk2 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HR HS0 HS1 HS2 HS3 Hg]
      · isplitr [Hg]; swap; · iexact Hg
        isplitl [HR]; · iexact HR
        isplitl [HS0]
        · unfold owns; iexists _; isplitr
          swap; · iexact HS0
          ipureintro; exact View.read_writes_of_cover _ _ _ _ _ (scover2_A_0 _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 _ _ _ _ _ _ _ _ _ _ _ _ _ _ _ _ _ _ _ _ _ _ _ _ _ _ _ _ _ _ _ _)
        unfold owns; iexists _; isplitr
        swap; · iexact HS3
        ipureintro; exact View.read_writes_of_cover _ _ _ _ _ (scover2_A_3 _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ _ _ _ _ _ _ (hc0_of_even t h0) (hc1_of_even t h0) (iblk2 V c 0 t) (iblk2 V c 1 t) (iblk2 V c 2 t) (iblk2 V c 3 t) (iblk2 V c 4 t) (iblk2 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [HR HS0 HS1 HS2 HS3 Hg]
      · isplitr [Hg]; swap; · iexact Hg
        isplitl [HR]; · iexact HR
        isplitl [HS0]
        · unfold owns; iexists _; isplitr
          swap; · iexact HS0
          ipureintro; exact View.read_writes_of_cover _ _ _ _ _ (scover2_A_0 _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 _ _ _ _ _ _ _ _ _ _ _ _ _ _ _ _ _ _ _ _ _ _ _ _ _ _ _ _ _ _ _ _)
        unfold owns; iexists _; isplitr
        swap; · iexact HS3
        ipureintro; exact View.read_writes_of_cover _ _ _ _ _ (scover2_A_3 _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · rw [show (dat2 V c).leavesExact 6 t = owns (c : Thread nD τ) (ms2_6 t) fullShare ((dat2 V c).after 6 t) from by
      unfold Dat.leavesExact; rw [liveAt2_6_B t (hc0_of_odd t h0) (hc1_of_odd t h0)], after2_6]
    rw [outsAt2_B V c t h0]
    unfold out2_B_6 sout2_B_1 sout2_B_2 sout2_B_3; (try dsimp only)
    have hz : t.val ≠ 0 := fun hz => h0 (by rw [hz])
    rw [PhiS2_castSucc V c t, PhiS2_pos V c _ _ hz]
    iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_B c (grid2.coords t) _ _ _ _ _ _ _ _ _ _ _ _ _ _ _ _ _ _ _ _ _ _ (hc0_of_odd t h0) (hc1_of_odd t h0) (iblk2 V c 0 t) (iblk2 V c 1 t) (iblk2 V c 2 t) (iblk2 V c 3 t) (iblk2 V c 4 t) (iblk2 V c 5 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%e6, H6⟩, HS0, ⟨%es1, HS1⟩, ⟨%es2, HS2⟩, ⟨%es3, HS3⟩⟩
    isplitl [HR HS0 HS1 HS2 HS3 Hg]
    · isplitr [Hg]; swap; · iexact Hg
      isplitl [HR]; · iexact HR
      isplitl [HS0]; · iexact HS0
      isplitl [HS1]
      · unfold owns; iexists _; isplitr
        swap; · iexact HS1
        ipureintro; exact View.read_writes_of_cover _ _ _ _ _ (scover2_B_1 _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover2_B_2 _ _ _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover2_B_3 _ _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover2_B_6 _ _ _ _ _ _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine BIBase.Entails.trans ?_ (PhiA2_join c)
  iintro ⟨⟨HR, HS0, HS1, HS2, HS3⟩, Hg⟩
  isplitr [Hg]; swap; · iexact Hg
  isplitl [HR]; · iexact HR
  isplitl [HS0]; · iexists _; iexact HS0
  isplitl [HS1]; · iexists _; iexact HS1
  isplitl [HS2]; · iexists _; iexact HS2
  iexists _; iexact HS3

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region2

end Cert.KernelIdeal.Hand

end
-- ==== Proof.Run.lean ====
/-
  The run of @main: host stretch, projection region, host stretch, projection region, host stretch, attention region.
  The buffers' contents at each boundary are a fold from the launch memory: a host stretch applies its operations,
  a region replaces its windows' arrays by what its write-backs leave and keeps every other buffer. Each argument
  array is written by no stretch and is at most an input of a region, so the fold at an argument walks back to the
  launch contents; the result buffer holds what the attention region's output window was written back to.
-/
import proofs.«170906_j52518860096512_2_alg».proof.Proof.Gen.KernelIdeal.Regions
import proofs.«170906_j52518860096512_2_alg».proof.Proof.Proj
import proofs.«170906_j52518860096512_2_alg».proof.Proof.Flash

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the weight and mask conversions, the key rows flattened). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- What region 0 leaves: its arrays at what the write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the projected keys unflattened, the value rows flattened). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- What region 1 leaves: its arrays at what the write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the projected values unflattened). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- What region 2 leaves: its arrays at what the write-backs fold to, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## Each argument ends as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_arr m ρ c 0).trans (((dat2 (V5 m ρ) c).arrAt_in 0 rfl _).trans (A_eq2 (V5 m ρ) c 0))
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_arr m ρ c 2).trans (((dat2 (V5 m ρ) c).arrAt_in 2 rfl _).trans (A_eq2 (V5 m ρ) c 2))
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := (W2_arr m ρ c 2).trans (((dat0 (V1 m ρ) c).arrAt_in 2 rfl _).trans (A_eq0 (V1 m ρ) c 2))
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := (W4_arr m ρ c 2).trans (((dat1 (V3 m ρ) c).arrAt_in 2 rfl _).trans (A_eq1 (V3 m ρ) c 2))
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-- The result buffer ends at what the attention region's output window was written back to. -/
theorem W6_main_v10 (c : Dev nD) : W6 m ρ c (Proc.devRef .tc main_v10) = (dat2 (V5 m ρ) c).arrAt 6 cfg2.N :=
  W6_arr m ρ c 6

/-! ## The proof data family and the thread state -/

abbrev adm : (p : Fin 3) → (pcfgs (F := F) p).Adm := fun p => (cfgs p).toPCfg_adm
/-- Every region's proof data at its entry contents, as a literal match on the region. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at the contents the
    write-backs leave; the generator register rides through the region's invariant. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at the contents the
    write-backs leave; the generator register rides through the region's invariant. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers at entry and put back at the contents the
    write-backs leave; the generator register rides through the region's invariant. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest (Pipeline.pin (pcfgs (F := F)) adm 2).spec c) : sProp 𝕄) ⊢ Pipeline.ΦA spec2 c := by
      unfold Pipeline.ΦA
      iintro ⟨Hp, -, Hr⟩
      isplitl [Hr]; · iexact Hr
      iexact Hp
    exact h.trans (hin2 (V5 m ρ) c)
  hout c := by
    rw [Pipeline.ownSems0_none]
    have h : (Pipeline.ΦA spec2 c : sProp 𝕄) ⊢ iprop((∃ r, prngReg c r) ∗ BI.emp
        ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (V5 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The run's post read at the arguments and at the result: the arguments as launched, the result at what the
    attention region's output window was written back to. -/
theorem run_result : θ_run defs (onTc (τ := τ) (main (F := F))) ⟨m, fun _ => 0, ρ⟩ (fun r => ∀ c : Dev nD,
      r.2.mem ((c.tc : Thread nD τ).loc main_v10) = (dat2 (V5 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v10 (by decide))).trans (W6_main_v10 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩)
    (run_main m ρ)

end Cert.KernelIdeal.Hand

end
-- ==== Proof.KProj.lean ====
import proofs.«170906_j52518860096512_2_alg».proof.Proof.Gen.Kernel.Launch
import proofs.«170906_j52518860096512_2_alg».proof.Proof.Gen.Kernel.Skeleton
import proofs.«170906_j52518860096512_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two projection regions, at the buffer contents a region is entered with

Each of the two regions runs, over a grid of 16 points, a body that loads a block of 1024 rows of `x`, the whole
weight matrix and the whole bias vector, and stores `x · Wᵀ + b` (rounded to the output's element type) into the
output block. Window 0 (rows of `x`) moves with the point; windows 1 and 2 (weights, bias) have a constant block
index, so they are fetched at the first point only and stay in their buffers; window 3 is the output, written
back at every point.

Everything is stated at a parameter `V`, the contents of the core's buffers when the region is entered, and for
any float semantics `F`. Per region: the windows' blocks read off `V`; what the one store leaves in the output's
staging buffer, as a function of the three loaded blocks; the body's triple; the proof data of the pipeline; and the
body obligation of the pipeline at every point. -/

-- membership in a rectangle of extent 1024 per axis: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when a region is entered: every statement below is at this parameter
variable (V : (c : Dev nD) → (b : Ref sig .tc) → Buf (Elt F) ((c : Thread nD τ).loc b))

/-! # Region 0: the projection body `cc0_proj_kernel` over pipeline 0, at the entry contents `V` -/

/-! ## The windows' blocks -/

/-- Window `w`'s block at point `t`: its array, as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of `x`) holds its block at every point, for any proof data whose array is `V`'s and whose
    body leaves the block in place. The window is fetched at every point; the general lemma also covers a point
    where it is not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights) holds its block at every point: it is fetched at the first point only, and at a
    later point its block index has not moved, so the buffer still holds the block, which the body leaves in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 1024 × 1024 buffer, as the rectangle every two-dimensional load and the store go through. -/
abbrev r0_0 : Rect S1024x1024 := Rect.unit (s := S1024x1024) ![0, 0] S1024x1024.size inb_S1024x1024_S1024x1024_0_0
/-- The whole of the bias buffer. -/
abbrev r0_1 : Rect S1024 := Rect.unit (s := S1024) ![0] S1024.size inb_S1024_S1024_0

/-! ## What the body leaves in the output window's buffer -/

/-- Window 3's staging buffer after the body, from the three input blocks: the one store, of the payload computed from
    the three loads, covers the buffer. -/
def out0_3 (x0 : Vec F S1024x1024 .f32) (x1 : Vec F S1024x1024 .bf16) (x2 : Vec F S1024 .f32) : Vec F S1024x1024 .bf16 :=
  View.canon [⟨r0_0, k0_pay1 (View.ld x0 r0_0) (View.ld x1 r0_0) (View.ld x2 r0_1)⟩]

/-- The store's rectangle is the whole buffer, so it covers it. -/
theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The body on whole staging memrefs — the three inputs' at read contents `x0 x1 x2`, the output's at anything — runs to
    the continuation holding the inputs' as they were and the output's at `out0_3 x0 x1 x2`. The body also loads the
    output's buffer before storing into it; the value read is not used. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_proj_kernel i arg1 harg1 arg2 harg2 arg3 harg3 arg4 harg4) K := by
  simp only [cc0_proj_kernel_eq_skeleton]; unfold cc0_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the three input blocks; the invariant is the rest of
    the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the projection body `cc1_proj_kernel` over pipeline 1, at the entry contents `V` -/

/-! ## The windows' blocks -/

/-- Window `w`'s block at point `t`: its array, as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows of `x`) holds its block at every point, for any proof data whose array is `V`'s and whose
    body leaves the block in place. The window is fetched at every point; the general lemma also covers a point
    where it is not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weights) holds its block at every point: it is fetched at the first point only, and at a
    later point its block index has not moved, so the buffer still holds the block, which the body leaves in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a 1024 × 1024 buffer, as the rectangle every two-dimensional load and the store go through. -/
abbrev r1_0 : Rect S1024x1024 := Rect.unit (s := S1024x1024) ![0, 0] S1024x1024.size inb_S1024x1024_S1024x1024_0_0
/-- The whole of the bias buffer. -/
abbrev r1_1 : Rect S1024 := Rect.unit (s := S1024) ![0] S1024.size inb_S1024_S1024_0

/-! ## What the body leaves in the output window's buffer -/

/-- Window 3's staging buffer after the body, from the three input blocks: the one store, of the payload computed from
    the three loads, covers the buffer. -/
def out1_3 (x0 : Vec F S1024x1024 .f32) (x1 : Vec F S1024x1024 .bf16) (x2 : Vec F S1024 .f32) : Vec F S1024x1024 .bf16 :=
  View.canon [⟨r1_0, k1_pay1 (View.ld x0 r1_0) (View.ld x1 r1_0) (View.ld x2 r1_1)⟩]

/-- The store's rectangle is the whole buffer, so it covers it. -/
theorem cover1_3 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

/-! ## The body's triple -/

set_option maxHeartbeats 1000000 in
/-- The body on whole staging memrefs — the three inputs' at read contents `x0 x1 x2`, the output's at anything — runs to
    the continuation holding the inputs' as they were and the output's at `out1_3 x0 x1 x2`. The body also loads the
    output's buffer before storing into it; the value read is not used. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (x0 : Vec F S1024x1024 .f32) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_proj_kernel i arg1 harg1 arg2 harg2 arg3 harg3 arg4 harg4) K := by
  simp only [cc1_proj_kernel_eq_skeleton]; unfold cc1_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the three input blocks; the invariant is the rest of
    the core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFlashDefs.lean ====
import proofs.«170906_j52518860096512_2_alg».proof.Proof.Gen.Kernel.Launch
import proofs.«170906_j52518860096512_2_alg».proof.Proof.Gen.Kernel.Skeleton
import proofs.«170906_j52518860096512_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (the third call): what its two cases' runs and its proof data share

The grid is (batch, query tile, key tile) = (8, 4, 2), 64 points in row-major order, so point `t` has key tile
`t % 2`. Everything is stated at a PARAMETER `V`: the TensorCore's buffer contents when the region is entered. -/

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (when it is not
    fetched its block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (when it is not
    fetched its block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (when it is not
    fetched its block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (when it is not
    fetched its block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (when it is not
    fetched its block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (when it is not
    fetched its block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's two branch conditions, in closed form -/

/-- The first conditional's condition (key tile = 0: project the query tile, reset the running statistics), as the
    body computes it from the grid coordinates. -/
abbrev cond2_0 (i : grid2.Coords) : Prop := (Scalar.cmpi .ne (Scalar.extui (Scalar.cmpi .eq (BitVec.ofNat 32 (i 2).val) 0#32)) 0#32) = 1#1
/-- It holds exactly at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- The second conditional's condition (key tile = 1, the last: normalise and store the output block). -/
abbrev cond2_1 (i : grid2.Coords) : Prop := k2_cond2 i = 1#1
/-- It holds exactly at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- At the even points (case A) the output window is idle: the body stores nothing into it, -/
theorem idleAt2_6_A : ∀ t : Fin cfg2.N, cond2_0 (grid2.coords t) → ¬cond2_1 (grid2.coords t) → cfg2.idle 6 (grid2.coords t) = true := by decide +kernel
/-- and the pipeline does not write its block back there. -/
theorem noFlush2_6_A : ∀ t : Fin cfg2.N, cond2_0 (grid2.coords t) → ¬cond2_1 (grid2.coords t) → (cfg2.win 6).flush t = false := by decide +kernel
/-- At the odd points (case B) the output window is live: the body stores its whole block. -/
theorem liveAt2_6_B : ∀ t : Fin cfg2.N, ¬cond2_0 (grid2.coords t) → cond2_1 (grid2.coords t) → cfg2.idle 6 (grid2.coords t) = false := by decide +kernel

/-! ## The memrefs the body is called with -/

/-- One staging buffer of the output window, through which its contents are stated (the choice does not matter). -/
abbrev VO2_6 : View sig .tc .vmem S1x512x1024 .f32 := (Memref.whole cc2_stg6_0 : Memref sig .tc .vmem S1x512x1024 .f32).view
abbrev ms2_0 (t : Fin cfg2.N) : Memref sig .tc .vmem S1x512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1024 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x512x1024 .f32 := win2_6.stage (cfg2.slots t 6)
abbrev hs2_6 (t : Fin cfg2.N) : (ms2_6 t).IsWhole := hstage2_6 ((cfg2.slots t 6).cast nbuf2_6)
/-- The four scratch operands, whole scoped buffers of the kernel's own: the projected query tile, the running row
    maximum, the running row sum and the running weighted sum of value rows. -/
abbrev scM2_0 : Memref sig .tc .vmem S1x512x1024 .bf16 := Memref.whole cc2_scratch0
abbrev VS2_0 : View sig .tc .vmem S1x512x1024 .bf16 := scM2_0.view
abbrev scM2_1 : Memref sig .tc .vmem S1x512x1 .f32 := Memref.whole cc2_scratch1
abbrev VS2_1 : View sig .tc .vmem S1x512x1 .f32 := scM2_1.view
abbrev scM2_2 : Memref sig .tc .vmem S1x512x1 .f32 := Memref.whole cc2_scratch2
abbrev VS2_2 : View sig .tc .vmem S1x512x1 .f32 := scM2_2.view
abbrev scM2_3 : Memref sig .tc .vmem S1x512x1024 .f32 := Memref.whole cc2_scratch3
abbrev VS2_3 : View sig .tc .vmem S1x512x1024 .f32 := scM2_3.view

/-! ## The region invariant, with the scratch as owned memrefs -/

/-- The staging buffers of the two projection calls: scoped buffers this region never touches, each whole at some contents. -/
def stgRest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant spelled out: the scoped buffers that are no staging buffer of this region — the projection
    calls' staging buffers and the four scratch, each at some contents — and the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ (∃ r, prngReg c r)) := by
  unfold Pipeline.ΦA; rw [scopedRest2_eq]; simp only [scM2_0, scM2_1, scM2_2, scM2_3, owns_whole]; try rfl

/-- The same with the untouched staging buffers gathered in one conjunct: taken apart, -/
theorem PhiA2_split (c : Dev nD) :
    (Pipeline.ΦA spec2 c : sProp 𝕄)
      ⊢ iprop(iprop(stgRest2 c ∗ (∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ (∃ r, prngReg c r)) := by
  rw [PhiA2_eq]; unfold stgRest2
  iintro ⟨⟨G0, G1, G2, G3, G4, G5, G6, G7, G8, G9, G10, G11, HS0, HS1, HS2, HS3⟩, Hg⟩
  isplitr [Hg]; swap; · iexact Hg
  isplitl [G0 G1 G2 G3 G4 G5 G6 G7 G8 G9 G10 G11]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    iexact G11
  isplitl [HS0]; · iexact HS0
  isplitl [HS1]; · iexact HS1
  isplitl [HS2]; · iexact HS2
  iexact HS3

/-- and put back together. -/
theorem PhiA2_join (c : Dev nD) :
    iprop(iprop(stgRest2 c ∗ (∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ (∃ r, prngReg c r))
      ⊢ (Pipeline.ΦA spec2 c : sProp 𝕄) := by
  rw [PhiA2_eq]; unfold stgRest2
  iintro ⟨⟨⟨G0, G1, G2, G3, G4, G5, G6, G7, G8, G9, G10, G11⟩, HS0, HS1, HS2, HS3⟩, Hg⟩
  isplitr [Hg]; swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [HS0]; · iexact HS0
  isplitl [HS1]; · iexact HS1
  isplitl [HS2]; · iexact HS2
  iexact HS3

end Cert.Kernel.Hand

end
-- ==== Proof.KFlashRunA.lean ====
import proofs.«170906_j52518860096512_2_alg».proof.Proof.KFlashDefs

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- CASE A (key tile 0: the first conditional taken, the second not). What the body's stores leave in each scratch, as
    pieces (last first), WITH the proof that on whole memrefs — the six inputs' at their contents, the output's at
    contents `xi6` handed back untouched (no store: the window is idle here), the four scratch at anything — the body
    runs to the continuation holding the inputs' and the output's as they were and each scratch with its pieces
    written: the projected query tile stored into the first, the running maximum, sum and weighted sum reset and then
    advanced by this key tile. The pieces are the witness the run finds. -/
noncomputable def kernelRun2_A (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) :
    Σ' (L6 : List (View.Piece (Elt F) S1x512x1024 .f32)) (LS0 : List (View.Piece (Elt F) S1x512x1024 .bf16)) (LS1 : List (View.Piece (Elt F) S1x512x1 .f32)) (LS2 : List (View.Piece (Elt F) S1x512x1 .f32)), { LS3 : List (View.Piece (Elt F) S1x512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2_flash_kernel i arg3 harg3 arg4 harg4 arg5 harg5 arg6 harg6 arg7 harg7 arg8 harg8 arg9 harg9 arg10 harg10 arg11 harg11 arg12 harg12 arg13 harg13) K } := by
  refine ⟨[], ?_, ?_, ?_, ?_, fun xi6 E K => ?run⟩
  case run =>
    simp only [cc2_flash_kernel_eq_skeleton]; unfold cc2_flash_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    isplitl [HS2]; · iexists _; iexact HS2
    iexists _; iexact HS3

end Cert.Kernel.Hand

end
-- ==== Proof.KFlashRunB.lean ====
import proofs.«170906_j52518860096512_2_alg».proof.Proof.KFlashRunA

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- CASE B (key tile 1, the last: the first conditional not taken, the second taken). What the body's stores leave in
    the output's staging memref and in the three statistics scratch, as pieces (last first), WITH the proof that on
    whole memrefs — the six inputs' at their contents, the output's at anything, the four scratch at the contents
    `xs·` the point before left — the body runs to the continuation holding the inputs' and the projected query tile
    (only read here) as they were and the output's and each statistics scratch with its pieces written: the
    statistics advanced by this key tile, and the output block the weighted sum divided by the row sum. The pieces
    are the witness the run finds. -/
noncomputable def kernelRun2_B (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) :
    Σ' (L6 : List (View.Piece (Elt F) S1x512x1024 .f32)) (LS1 : List (View.Piece (Elt F) S1x512x1 .f32)) (LS2 : List (View.Piece (Elt F) S1x512x1 .f32)), { LS3 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2_flash_kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2_flash_kernel_eq_skeleton]; unfold cc2_flash_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _; isplitr; · ipureintro; exact harg10.read_unread _
      iexact HS0
    isplitl [HS1]; · iexists _; iexact HS1
    isplitl [HS2]; · iexists _; iexact HS2
    iexists _; iexact HS3

end Cert.Kernel.Hand

end
-- ==== Proof.KFlash.lean ====
import proofs.«170906_j52518860096512_2_alg».proof.Proof.KFlashRunB

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what each case leaves, point by point; the proof data; the body obligation

Case A is a point with key tile 0 (an even point), case B one with key tile 1 (an odd point); every odd point follows
the even point of the same batch and query tile. -/

/-! ## What each case leaves in each buffer -/

/-- Case A stores nothing into the output window (idle at its points and not written back there): no pieces — a
    placeholder (junk read back) that nothing consults. -/
def out2_A_6 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) : Vec F S1x512x1024 .f32 :=
  VO2_6.read (Elt F) (VO2_6.writes (Elt F) VO2_6.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).1)

/-- Case A's pieces for the projected query tile (scratch 0) tile the buffer, so they cover it. -/
theorem scover2_A_0 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (y : S1x512x1024.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1 S1x512x1024.size (by sl_kernel_rfl) y

/-- What case A leaves in scratch 0: its pieces read back over junk. -/
def sout2_A_0 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) : Vec F S1x512x1024 .bf16 :=
  VS2_0.read (Elt F) (VS2_0.writes (Elt F) VS2_0.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1)

/-- Case A's pieces for the running row maximum (scratch 1) tile the buffer, so they cover it. -/
theorem scover2_A_1 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (y : S1x512x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1 S1x512x1.size (by sl_kernel_rfl) y

/-- What case A leaves in scratch 1: its pieces read back over junk. -/
def sout2_A_1 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) : Vec F S1x512x1 .f32 :=
  VS2_1.read (Elt F) (VS2_1.writes (Elt F) VS2_1.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1)

/-- Case A's pieces for the running row sum (scratch 2) tile the buffer, so they cover it. -/
theorem scover2_A_2 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (y : S1x512x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1 S1x512x1.size (by sl_kernel_rfl) y

/-- What case A leaves in scratch 2: its pieces read back over junk. -/
def sout2_A_2 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) : Vec F S1x512x1 .f32 :=
  VS2_2.read (Elt F) (VS2_2.writes (Elt F) VS2_2.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1)

/-- Case A's pieces for the running weighted sum of value rows (scratch 3) tile the buffer, so they cover it. -/
theorem scover2_A_3 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (y : S1x512x1024.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1 S1x512x1024.size (by sl_kernel_rfl) y

/-- What case A leaves in scratch 3: its pieces read back over junk. -/
def sout2_A_3 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) : Vec F S1x512x1024 .f32 :=
  VS2_3.read (Elt F) (VS2_3.writes (Elt F) VS2_3.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1)

/-- Case B's one store into the output window is of its whole block, so its pieces cover it. -/
theorem cover2_B_6 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) (y : S1x512x1024.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 S1x512x1024.size (by sl_kernel_rfl) y

/-- What case B leaves in the output window's staging buffer: its pieces read back over junk. -/
def out2_B_6 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) : Vec F S1x512x1024 .f32 :=
  VO2_6.read (Elt F) (VO2_6.writes (Elt F) VO2_6.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1)

/-- Case B's pieces for the running row maximum (scratch 1) tile the buffer, so they cover it. -/
theorem scover2_B_1 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) (y : S1x512x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 S1x512x1.size (by sl_kernel_rfl) y

/-- What case B leaves in scratch 1: its pieces read back over junk. -/
def sout2_B_1 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) : Vec F S1x512x1 .f32 :=
  VS2_1.read (Elt F) (VS2_1.writes (Elt F) VS2_1.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1)

/-- Case B's pieces for the running row sum (scratch 2) tile the buffer, so they cover it. -/
theorem scover2_B_2 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) (y : S1x512x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 S1x512x1.size (by sl_kernel_rfl) y

/-- What case B leaves in scratch 2: its pieces read back over junk. -/
def sout2_B_2 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) : Vec F S1x512x1 .f32 :=
  VS2_2.read (Elt F) (VS2_2.writes (Elt F) VS2_2.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1)

/-- Case B's pieces for the running weighted sum of value rows (scratch 3) tile the buffer, so they cover it. -/
theorem scover2_B_3 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) (y : S1x512x1024.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 S1x512x1024.size (by sl_kernel_rfl) y

/-- What case B leaves in scratch 3: its pieces read back over junk. -/
def sout2_B_3 (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) : Vec F S1x512x1024 .f32 :=
  VS2_3.read (Elt F) (VS2_3.writes (Elt F) VS2_3.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1)

/-! ## The conditions at a point, from its parity -/

theorem hc0_of_even (t : Fin cfg2.N) (h0 : t.val % 2 = 0) : cond2_0 (grid2.coords t) := (hcond2_0 t).mpr h0
theorem hc1_of_even (t : Fin cfg2.N) (h0 : t.val % 2 = 0) : ¬cond2_1 (grid2.coords t) := fun h => by
  have h1 := (hcond2_1 t).mp h; omega
theorem hc0_of_odd (t : Fin cfg2.N) (h0 : ¬t.val % 2 = 0) : ¬cond2_0 (grid2.coords t) := fun h => h0 ((hcond2_0 t).mp h)
theorem hc1_of_odd (t : Fin cfg2.N) (h0 : ¬t.val % 2 = 0) : cond2_1 (grid2.coords t) := (hcond2_1 t).mpr (by omega)

section Region2
variable (V : (c : Dev nD) → (b : Ref sig .tc) → Buf (Elt F) ((c : Thread nD τ).loc b))

/-! ## What the output window and the four scratch hold after each point -/

/-- What the output window's staging buffer and the four scratch hold after a point (the output first, then the scratch
    in order). -/
abbrev Outs2 (F : FTy → Type) : Type := Vec F S1x512x1024 .f32 × Vec F S1x512x1024 .bf16 × Vec F S1x512x1 .f32 × Vec F S1x512x1 .f32 × Vec F S1x512x1024 .f32

/-- THE ACCUMULATION. What the output window's staging buffer and the four scratch hold after the body at position `n`:
    at an even point case A's contents, run at the point's memrefs and input blocks (it reads nothing the point before
    left: all four scratch are stored whole before they are read); at an odd point case B's, over the four scratch as
    the point before left them — the projected query tile, only read there, stays as it was. -/
def outsAt2 (c : Dev nD) : (n : ℕ) → n < cfg2.N → Outs2 F
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) scM2_3 (Memref.isWhole_whole _) (hc0_of_even ⟨0, hn⟩ (Nat.zero_mod _)) (hc1_of_even ⟨0, hn⟩ (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
        sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) scM2_3 (Memref.isWhole_whole _) (hc0_of_even ⟨0, hn⟩ (Nat.zero_mod _)) (hc1_of_even ⟨0, hn⟩ (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
        sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) scM2_3 (Memref.isWhole_whole _) (hc0_of_even ⟨0, hn⟩ (Nat.zero_mod _)) (hc1_of_even ⟨0, hn⟩ (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
        sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) scM2_3 (Memref.isWhole_whole _) (hc0_of_even ⟨0, hn⟩ (Nat.zero_mod _)) (hc1_of_even ⟨0, hn⟩ (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
        sout2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) scM2_3 (Memref.isWhole_whole _) (hc0_of_even ⟨0, hn⟩ (Nat.zero_mod _)) (hc1_of_even ⟨0, hn⟩ (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 2 = 0 then
      (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_even ⟨n + 1, hn⟩ h0) (hc1_of_even ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
        sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_even ⟨n + 1, hn⟩ h0) (hc1_of_even ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
        sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_even ⟨n + 1, hn⟩ h0) (hc1_of_even ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
        sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_even ⟨n + 1, hn⟩ h0) (hc1_of_even ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
        sout2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_even ⟨n + 1, hn⟩ h0) (hc1_of_even ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_odd ⟨n + 1, hn⟩ h0) (hc1_of_odd ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
        (outsAt2 c n (Nat.lt_of_succ_lt hn)).2.1,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_odd ⟨n + 1, hn⟩ h0) (hc1_of_odd ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
        sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_odd ⟨n + 1, hn⟩ h0) (hc1_of_odd ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2,
        sout2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) scM2_3 (Memref.isWhole_whole _) (hc0_of_odd ⟨n + 1, hn⟩ h0) (hc1_of_odd ⟨n + 1, hn⟩ h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2)

/-- `outsAt2` at an even point: case A's contents. -/
theorem outsAt2_A (c : Dev nD) (t : Fin cfg2.N) (h0 : t.val % 2 = 0) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_even t h0) (hc1_of_even t h0) (iblk2 V c 0 t) (iblk2 V c 1 t) (iblk2 V c 2 t) (iblk2 V c 3 t) (iblk2 V c 4 t) (iblk2 V c 5 t),
        sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_even t h0) (hc1_of_even t h0) (iblk2 V c 0 t) (iblk2 V c 1 t) (iblk2 V c 2 t) (iblk2 V c 3 t) (iblk2 V c 4 t) (iblk2 V c 5 t),
        sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_even t h0) (hc1_of_even t h0) (iblk2 V c 0 t) (iblk2 V c 1 t) (iblk2 V c 2 t) (iblk2 V c 3 t) (iblk2 V c 4 t) (iblk2 V c 5 t),
        sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_even t h0) (hc1_of_even t h0) (iblk2 V c 0 t) (iblk2 V c 1 t) (iblk2 V c 2 t) (iblk2 V c 3 t) (iblk2 V c 4 t) (iblk2 V c 5 t),
        sout2_A_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_even t h0) (hc1_of_even t h0) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans rfl

/-- `outsAt2` at an odd point: case B's contents, over what the point before left. -/
theorem outsAt2_B (c : Dev nD) (t : Fin cfg2.N) (h0 : ¬t.val % 2 = 0) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_odd t h0) (hc1_of_odd t h0) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
        (outsAt2 V c (t.val - 1) (Nat.lt_of_le_of_lt (Nat.sub_le _ _) t.isLt)).2.1,
        sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_odd t h0) (hc1_of_odd t h0) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
        sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_odd t h0) (hc1_of_odd t h0) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2,
        sout2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (hc0_of_odd t h0) (hc1_of_odd t h0) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The region invariant -/

/-- The region invariant before position `n`: before the first point the class's (every scoped buffer that is no
    staging buffer of this region at anything, the generator register at some state); afterwards the same with the four
    scratch at what the point before left in them. -/
def PhiS2 (c : Dev nD) : (n : ℕ) → n ≤ cfg2.N → sProp 𝕄
  | 0, _ => Pipeline.ΦA spec2 c
  | n + 1, hn => iprop(iprop(stgRest2 c ∗ owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2.1) ∗ owns (c : Thread nD τ) scM2_3 fullShare ((outsAt2 V c n hn).2.2.2.2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch at that point's contents. -/
theorem PhiS2_succ (c : Dev nD) (n : ℕ) (hn : n < cfg2.N) :
    PhiS2 V c (n + 1) hn = iprop(iprop(stgRest2 c ∗ owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2.1) ∗ owns (c : Thread nD τ) scM2_3 fullShare ((outsAt2 V c n hn).2.2.2.2)) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(stgRest2 c ∗ owns (c : Thread nD τ) scM2_0 fullShare ((outsAt2 V c (n - 1) (by omega)).2.1) ∗ owns (c : Thread nD τ) scM2_1 fullShare ((outsAt2 V c (n - 1) (by omega)).2.2.1) ∗ owns (c : Thread nD τ) scM2_2 fullShare ((outsAt2 V c (n - 1) (by omega)).2.2.2.1) ∗ owns (c : Thread nD τ) scM2_3 fullShare ((outsAt2 V c (n - 1) (by omega)).2.2.2.2)) ∗ (∃ r, prngReg c r)) := by
  cases n with
  | zero => exact absurd rfl hz
  | succ n => rfl

/-! ## The pipeline's proof data -/

/-- The proof data of the attention call's pipeline on core `c`: the arrays as the region finds them (`V`); after the
    body at point `t` each input's buffer at its block and the output's at `outsAt2`'s first component; the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the point's parity says which case it is in, so that
    case's run applies; the invariant hands the body the four scratch — at anything at an even point, which stores each
    whole before reading it, and at what the point before left at an odd point — and takes them back at this point's
    contents; the untouched staging buffers of the other calls, the generator register and the core's debts pass
    through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 2 = 0
  · rw [Dat.leavesExact_idle (dat2 V c) 6 t (idleAt2_6_A t (hc0_of_even t h0) (hc1_of_even t h0)) (noFlush2_6_A t (hc0_of_even t h0) (hc1_of_even t h0))]
    rw [outsAt2_A V c t h0]
    unfold sout2_A_0 sout2_A_1 sout2_A_2 sout2_A_3; (try dsimp only)
    by_cases hz : t.val = 0
    · rw [PhiS2_castSucc V c t, PhiS2_zero V c _ _ hz]
      refine BIBase.Entails.trans (sep_mono_left (PhiA2_split c)) ?_
      iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ _ _ _ _ _ _ (hc0_of_even t h0) (hc1_of_even t h0) (iblk2 V c 0 t) (iblk2 V c 1 t) (iblk2 V c 2 t) (iblk2 V c 3 t) (iblk2 V c 4 t) (iblk2 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HR HS0 HS1 HS2 HS3 Hg]
      · isplitr [Hg]; swap; · iexact Hg
        isplitl [HR]; · iexact HR
        isplitl [HS0]
        · unfold owns; iexists _; isplitr
          swap; · iexact HS0
          ipureintro; exact View.read_writes_of_cover _ _ _ _ _ (scover2_A_0 _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 _ _ _ _ _ _ _ _ _ _ _ _ _ _ _ _ _ _ _ _ _ _ _ _ _ _ _ _ _ _ _ _)
        unfold owns; iexists _; isplitr
        swap; · iexact HS3
        ipureintro; exact View.read_writes_of_cover _ _ _ _ _ (scover2_A_3 _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ _ _ _ _ _ _ (hc0_of_even t h0) (hc1_of_even t h0) (iblk2 V c 0 t) (iblk2 V c 1 t) (iblk2 V c 2 t) (iblk2 V c 3 t) (iblk2 V c 4 t) (iblk2 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [HR HS0 HS1 HS2 HS3 Hg]
      · isplitr [Hg]; swap; · iexact Hg
        isplitl [HR]; · iexact HR
        isplitl [HS0]
        · unfold owns; iexists _; isplitr
          swap; · iexact HS0
          ipureintro; exact View.read_writes_of_cover _ _ _ _ _ (scover2_A_0 _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 _ _ _ _ _ _ _ _ _ _ _ _ _ _ _ _ _ _ _ _ _ _ _ _ _ _ _ _ _ _ _ _)
        unfold owns; iexists _; isplitr
        swap; · iexact HS3
        ipureintro; exact View.read_writes_of_cover _ _ _ _ _ (scover2_A_3 _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · rw [show (dat2 V c).leavesExact 6 t = owns (c : Thread nD τ) (ms2_6 t) fullShare ((dat2 V c).after 6 t) from by
      unfold Dat.leavesExact; rw [liveAt2_6_B t (hc0_of_odd t h0) (hc1_of_odd t h0)], after2_6]
    rw [outsAt2_B V c t h0]
    unfold out2_B_6 sout2_B_1 sout2_B_2 sout2_B_3; (try dsimp only)
    have hz : t.val ≠ 0 := fun hz => h0 (by rw [hz])
    rw [PhiS2_castSucc V c t, PhiS2_pos V c _ _ hz]
    iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_B c (grid2.coords t) _ _ _ _ _ _ _ _ _ _ _ _ _ _ _ _ _ _ _ _ _ _ (hc0_of_odd t h0) (hc1_of_odd t h0) (iblk2 V c 0 t) (iblk2 V c 1 t) (iblk2 V c 2 t) (iblk2 V c 3 t) (iblk2 V c 4 t) (iblk2 V c 5 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%e6, H6⟩, HS0, ⟨%es1, HS1⟩, ⟨%es2, HS2⟩, ⟨%es3, HS3⟩⟩
    isplitl [HR HS0 HS1 HS2 HS3 Hg]
    · isplitr [Hg]; swap; · iexact Hg
      isplitl [HR]; · iexact HR
      isplitl [HS0]; · iexact HS0
      isplitl [HS1]
      · unfold owns; iexists _; isplitr
        swap; · iexact HS1
        ipureintro; exact View.read_writes_of_cover _ _ _ _ _ (scover2_B_1 _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover2_B_2 _ _ _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover2_B_3 _ _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover2_B_6 _ _ _ _ _ _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine BIBase.Entails.trans ?_ (PhiA2_join c)
  iintro ⟨⟨HR, HS0, HS1, HS2, HS3⟩, Hg⟩
  isplitr [Hg]; swap; · iexact Hg
  isplitl [HR]; · iexact HR
  isplitl [HS0]; · iexists _; iexact HS0
  isplitl [HS1]; · iexists _; iexact HS1
  isplitl [HS2]; · iexists _; iexact HS2
  iexists _; iexact HS3

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region2

end Cert.Kernel.Hand

end
-- ==== Proof.KRun.lean ====
/-
  The run of @main: host stretch, projection region, host stretch, projection region, host stretch, attention region.
  The buffers' contents at each boundary are a fold from the launch memory: a host stretch applies its operations,
  a region replaces its windows' arrays by what its write-backs leave and keeps every other buffer. Each argument
  array is written by no stretch and is at most an input of a region, so the fold at an argument walks back to the
  launch contents; the result buffer holds what the attention region's output window was written back to.
-/
import proofs.«170906_j52518860096512_2_alg».proof.Proof.Gen.Kernel.Regions
import proofs.«170906_j52518860096512_2_alg».proof.Proof.KProj
import proofs.«170906_j52518860096512_2_alg».proof.Proof.KFlash

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the weight and mask conversions, the key rows flattened). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- What region 0 leaves: its arrays at what the write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the projected keys unflattened, the value rows flattened). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- What region 1 leaves: its arrays at what the write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the projected values unflattened). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- What region 2 leaves: its arrays at what the write-backs fold to, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## Each argument ends as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_arr m ρ c 0).trans (((dat2 (V5 m ρ) c).arrAt_in 0 rfl _).trans (A_eq2 (V5 m ρ) c 0))
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_arr m ρ c 2).trans (((dat2 (V5 m ρ) c).arrAt_in 2 rfl _).trans (A_eq2 (V5 m ρ) c 2))
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := (W2_arr m ρ c 2).trans (((dat0 (V1 m ρ) c).arrAt_in 2 rfl _).trans (A_eq0 (V1 m ρ) c 2))
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := (W4_arr m ρ c 2).trans (((dat1 (V3 m ρ) c).arrAt_in 2 rfl _).trans (A_eq1 (V3 m ρ) c 2))
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-- The result buffer ends at what the attention region's output window was written back to. -/
theorem W6_main_v10 (c : Dev nD) : W6 m ρ c (Proc.devRef .tc main_v10) = (dat2 (V5 m ρ) c).arrAt 6 cfg2.N :=
  W6_arr m ρ c 6

/-! ## The proof data family and the thread state -/

abbrev adm : (p : Fin 3) → (pcfgs (F := F) p).Adm := fun p => (cfgs p).toPCfg_adm
/-- Every region's proof data at its entry contents, as a literal match on the region. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at the contents the
    write-backs leave; the generator register rides through the region's invariant. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at the contents the
    write-backs leave; the generator register rides through the region's invariant. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers at entry and put back at the contents the
    write-backs leave; the generator register rides through the region's invariant. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest (Pipeline.pin (pcfgs (F := F)) adm 2).spec c) : sProp 𝕄) ⊢ Pipeline.ΦA spec2 c := by
      unfold Pipeline.ΦA
      iintro ⟨Hp, -, Hr⟩
      isplitl [Hr]; · iexact Hr
      iexact Hp
    exact h.trans (hin2 (V5 m ρ) c)
  hout c := by
    rw [Pipeline.ownSems0_none]
    have h : (Pipeline.ΦA spec2 c : sProp 𝕄) ⊢ iprop((∃ r, prngReg c r) ∗ BI.emp
        ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (V5 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The run's post read at the arguments and at the result: the arguments as launched, the result at what the
    attention region's output window was written back to. -/
theorem run_result : θ_run defs (onTc (τ := τ) (main (F := F))) ⟨m, fun _ => 0, ρ⟩ (fun r => ∀ c : Dev nD,
      r.2.mem ((c.tc : Thread nD τ).loc main_v10) = (dat2 (V5 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v10 (by decide))).trans (W6_main_v10 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩)
    (run_main m ρ)

end Cert.Kernel.Hand

end
-- ==== Proof.FlashPieces.lean ====
import proofs.«170906_j52518860096512_2_alg».proof.Proof.Flash
import Idealize.ShloMosaic.Lib.Pipeline.Value

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what each case's found pieces are, as the body's arithmetic of the blocks

Every load and store of the body is of a whole buffer, so each buffer ends at the payload of its last store, and each
payload's operands are the vectors the loads before it read: an input's block, a scratch as the point before left it,
or — after a store into the same scratch earlier in the same point — that store's payload. -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Case A (key tile 0): the statistics start from their reset values -/

/-- Scratch 0 after case A: the query tile projected (the input rows times the weight, plus the bias). -/
theorem sout2_A_0_eq (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) :
    sout2_A_0 c i arg3 harg3 arg4 harg4 arg5 harg5 arg6 harg6 arg7 harg7 arg8 harg8 arg9 harg9 arg10 harg10 arg11 harg11 arg12 harg12 arg13 harg13 hc0 hc1 x0 x1 x2 x3 x4 x5 = k2_pay5 x0 x1 x2 := by
  unfold sout2_A_0
  rw [View.read_writes_eq_canon _ _ _ (scover2_A_0 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_words
  simp only [View.canon_cons_unit_zero (S := S1x512x1024) hz3, View.canon_cons_unit_zero (S := S1x512x1) hz3,
    View.readCov_unit_zero (S := S1x512x1024) _ hz3, View.readCov_unit_zero (S := S1x512x1) _ hz3,
    View.readAt_eq_ld, harg3.read_unread, harg4.read_unread, harg5.read_unread, harg6.read_unread, harg7.read_unread, harg8.read_unread,
    View.ld_unit_zero (S := S1x512x1024) hz3, View.ld_unit_zero (S := S1x1024x1024) hz3, View.ld_unit_zero (S := S1x512x1) hz3,
    View.ld_unit_zero (S := S1024x1024) hz2, View.ld_unit_zero (S := S512x1024) hz2, View.ld_unit_zero (S := S1024) hz1]
  try rfl

/-- Scratch 1 after case A: the running row maximum, from its reset value and this key tile's scores. -/
theorem sout2_A_1_eq (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) :
    sout2_A_1 c i arg3 harg3 arg4 harg4 arg5 harg5 arg6 harg6 arg7 harg7 arg8 harg8 arg9 harg9 arg10 harg10 arg11 harg11 arg12 harg12 arg13 harg13 hc0 hc1 x0 x1 x2 x3 x4 x5 = k2_pay3 (k2_pay11 (k2_pay5 x0 x1 x2) x3 x5 k2_pay6) := by
  unfold sout2_A_1
  rw [View.read_writes_eq_canon _ _ _ (scover2_A_1 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_words
  simp only [View.canon_cons_unit_zero (S := S1x512x1024) hz3, View.canon_cons_unit_zero (S := S1x512x1) hz3,
    View.readCov_unit_zero (S := S1x512x1024) _ hz3, View.readCov_unit_zero (S := S1x512x1) _ hz3,
    View.readAt_eq_ld, harg3.read_unread, harg4.read_unread, harg5.read_unread, harg6.read_unread, harg7.read_unread, harg8.read_unread,
    View.ld_unit_zero (S := S1x512x1024) hz3, View.ld_unit_zero (S := S1x1024x1024) hz3, View.ld_unit_zero (S := S1x512x1) hz3,
    View.ld_unit_zero (S := S1024x1024) hz2, View.ld_unit_zero (S := S512x1024) hz2, View.ld_unit_zero (S := S1024) hz1]
  try rfl

/-- Scratch 2 after case A: the running row sum, from zero and this key tile's exponentials. -/
theorem sout2_A_2_eq (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) :
    sout2_A_2 c i arg3 harg3 arg4 harg4 arg5 harg5 arg6 harg6 arg7 harg7 arg8 harg8 arg9 harg9 arg10 harg10 arg11 harg11 arg12 harg12 arg13 harg13 hc0 hc1 x0 x1 x2 x3 x4 x5 = k2_pay1 (k2_pay14 (k2_pay5 x0 x1 x2) x3 x5 k2_pay6 k2_pay7) := by
  unfold sout2_A_2
  rw [View.read_writes_eq_canon _ _ _ (scover2_A_2 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_words
  simp only [View.canon_cons_unit_zero (S := S1x512x1024) hz3, View.canon_cons_unit_zero (S := S1x512x1) hz3,
    View.readCov_unit_zero (S := S1x512x1024) _ hz3, View.readCov_unit_zero (S := S1x512x1) _ hz3,
    View.readAt_eq_ld, harg3.read_unread, harg4.read_unread, harg5.read_unread, harg6.read_unread, harg7.read_unread, harg8.read_unread,
    View.ld_unit_zero (S := S1x512x1024) hz3, View.ld_unit_zero (S := S1x1024x1024) hz3, View.ld_unit_zero (S := S1x512x1) hz3,
    View.ld_unit_zero (S := S1024x1024) hz2, View.ld_unit_zero (S := S512x1024) hz2, View.ld_unit_zero (S := S1024) hz1]
  try rfl

/-- Scratch 3 after case A: the running weighted sum of value rows, from zero and this key tile's. -/
theorem sout2_A_3_eq (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : cond2_0 i) (hc1 : ¬cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) :
    sout2_A_3 c i arg3 harg3 arg4 harg4 arg5 harg5 arg6 harg6 arg7 harg7 arg8 harg8 arg9 harg9 arg10 harg10 arg11 harg11 arg12 harg12 arg13 harg13 hc0 hc1 x0 x1 x2 x3 x4 x5 = k2_pay2 (k2_pay9 x4) (k2_pay12 (k2_pay5 x0 x1 x2) x3 x5 k2_pay6) (k2_pay13 (k2_pay5 x0 x1 x2) x3 x5 k2_pay6) k2_pay8 := by
  unfold sout2_A_3
  rw [View.read_writes_eq_canon _ _ _ (scover2_A_3 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_words
  simp only [View.canon_cons_unit_zero (S := S1x512x1024) hz3, View.canon_cons_unit_zero (S := S1x512x1) hz3,
    View.readCov_unit_zero (S := S1x512x1024) _ hz3, View.readCov_unit_zero (S := S1x512x1) _ hz3,
    View.readAt_eq_ld, harg3.read_unread, harg4.read_unread, harg5.read_unread, harg6.read_unread, harg7.read_unread, harg8.read_unread,
    View.ld_unit_zero (S := S1x512x1024) hz3, View.ld_unit_zero (S := S1x1024x1024) hz3, View.ld_unit_zero (S := S1x512x1) hz3,
    View.ld_unit_zero (S := S1024x1024) hz2, View.ld_unit_zero (S := S512x1024) hz2, View.ld_unit_zero (S := S1024) hz1]
  try rfl

/-! ## Case B (key tile 1): the statistics advance from what the point before left -/

/-- Scratch 1 after case B: the running row maximum advanced by this key tile's scores. -/
theorem sout2_B_1_eq (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) :
    sout2_B_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k2_pay3 (k2_pay11 xs0 x3 x5 xs1) := by
  unfold sout2_B_1
  rw [View.read_writes_eq_canon _ _ _ (scover2_B_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_B
  dsimp only
  sl_unfold_words
  simp only [View.canon_cons_unit_zero (S := S1x512x1024) hz3, View.canon_cons_unit_zero (S := S1x512x1) hz3,
    View.readCov_unit_zero (S := S1x512x1024) _ hz3, View.readCov_unit_zero (S := S1x512x1) _ hz3,
    View.readAt_eq_ld, harg3.read_unread, harg4.read_unread, harg5.read_unread, harg6.read_unread, harg7.read_unread, harg8.read_unread, harg10.read_unread, harg11.read_unread, harg12.read_unread, harg13.read_unread,
    View.ld_unit_zero (S := S1x512x1024) hz3, View.ld_unit_zero (S := S1x1024x1024) hz3, View.ld_unit_zero (S := S1x512x1) hz3,
    View.ld_unit_zero (S := S1024x1024) hz2, View.ld_unit_zero (S := S512x1024) hz2, View.ld_unit_zero (S := S1024) hz1]
  try rfl

/-- Scratch 2 after case B: the running row sum rescaled and advanced by this key tile's exponentials. -/
theorem sout2_B_2_eq (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) :
    sout2_B_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k2_pay1 (k2_pay14 xs0 x3 x5 xs1 xs2) := by
  unfold sout2_B_2
  rw [View.read_writes_eq_canon _ _ _ (scover2_B_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_B
  dsimp only
  sl_unfold_words
  simp only [View.canon_cons_unit_zero (S := S1x512x1024) hz3, View.canon_cons_unit_zero (S := S1x512x1) hz3,
    View.readCov_unit_zero (S := S1x512x1024) _ hz3, View.readCov_unit_zero (S := S1x512x1) _ hz3,
    View.readAt_eq_ld, harg3.read_unread, harg4.read_unread, harg5.read_unread, harg6.read_unread, harg7.read_unread, harg8.read_unread, harg10.read_unread, harg11.read_unread, harg12.read_unread, harg13.read_unread,
    View.ld_unit_zero (S := S1x512x1024) hz3, View.ld_unit_zero (S := S1x1024x1024) hz3, View.ld_unit_zero (S := S1x512x1) hz3,
    View.ld_unit_zero (S := S1024x1024) hz2, View.ld_unit_zero (S := S512x1024) hz2, View.ld_unit_zero (S := S1024) hz1]
  try rfl

/-- Scratch 3 after case B: the running weighted sum rescaled and advanced by this key tile's value rows. -/
theorem sout2_B_3_eq (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) :
    sout2_B_3 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k2_pay2 (k2_pay9 x4) (k2_pay12 xs0 x3 x5 xs1) (k2_pay13 xs0 x3 x5 xs1) xs3 := by
  unfold sout2_B_3
  rw [View.read_writes_eq_canon _ _ _ (scover2_B_3 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_B
  dsimp only
  sl_unfold_words
  simp only [View.canon_cons_unit_zero (S := S1x512x1024) hz3, View.canon_cons_unit_zero (S := S1x512x1) hz3,
    View.readCov_unit_zero (S := S1x512x1024) _ hz3, View.readCov_unit_zero (S := S1x512x1) _ hz3,
    View.readAt_eq_ld, harg3.read_unread, harg4.read_unread, harg5.read_unread, harg6.read_unread, harg7.read_unread, harg8.read_unread, harg10.read_unread, harg11.read_unread, harg12.read_unread, harg13.read_unread,
    View.ld_unit_zero (S := S1x512x1024) hz3, View.ld_unit_zero (S := S1x1024x1024) hz3, View.ld_unit_zero (S := S1x512x1) hz3,
    View.ld_unit_zero (S := S1024x1024) hz2, View.ld_unit_zero (S := S512x1024) hz2, View.ld_unit_zero (S := S1024) hz1]
  try rfl

/-- The output block after case B: the advanced weighted sum divided, row by row, by the advanced row sum. -/
theorem out2_B_6_eq (c : Dev nD) (i : grid2.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S512x1024 .bf16) (harg8 : arg8.IsWhole) (arg9 : Memref sig .tc .vmem S1x512x1024 .f32) (harg9 : arg9.IsWhole) (arg10 : Memref sig .tc .vmem S1x512x1024 .bf16) (harg10 : arg10.IsWhole) (arg11 : Memref sig .tc .vmem S1x512x1 .f32) (harg11 : arg11.IsWhole) (arg12 : Memref sig .tc .vmem S1x512x1 .f32) (harg12 : arg12.IsWhole) (arg13 : Memref sig .tc .vmem S1x512x1024 .f32) (harg13 : arg13.IsWhole) (hc0 : ¬cond2_0 i) (hc1 : cond2_1 i)
    (x0 : Vec F S1x512x1024 .f32) (x1 : Vec F S1024x1024 .bf16) (x2 : Vec F S1024 .f32) (x3 : Vec F S1x1024x1024 .bf16) (x4 : Vec F S1x1024x1024 .bf16) (x5 : Vec F S512x1024 .bf16) (xs0 : Vec F S1x512x1024 .bf16) (xs1 : Vec F S1x512x1 .f32) (xs2 : Vec F S1x512x1 .f32) (xs3 : Vec F S1x512x1024 .f32) :
    out2_B_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k2_pay4 (k2_pay2 (k2_pay9 x4) (k2_pay12 xs0 x3 x5 xs1) (k2_pay13 xs0 x3 x5 xs1) xs3) (k2_pay1 (k2_pay14 xs0 x3 x5 xs1 xs2)) := by
  unfold out2_B_6
  rw [View.read_writes_eq_canon _ _ _ (cover2_B_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_B
  dsimp only
  sl_unfold_words
  simp only [View.canon_cons_unit_zero (S := S1x512x1024) hz3, View.canon_cons_unit_zero (S := S1x512x1) hz3,
    View.readCov_unit_zero (S := S1x512x1024) _ hz3, View.readCov_unit_zero (S := S1x512x1) _ hz3,
    View.readAt_eq_ld, harg3.read_unread, harg4.read_unread, harg5.read_unread, harg6.read_unread, harg7.read_unread, harg8.read_unread, harg10.read_unread, harg11.read_unread, harg12.read_unread, harg13.read_unread,
    View.ld_unit_zero (S := S1x512x1024) hz3, View.ld_unit_zero (S := S1x1024x1024) hz3, View.ld_unit_zero (S := S1x512x1) hz3,
    View.ld_unit_zero (S := S1024x1024) hz2, View.ld_unit_zero (S := S512x1024) hz2, View.ld_unit_zero (S := S1024) hz1]
  try rfl

end Cert.KernelIdeal.Hand

end
-- ==== Proof.FlashBlocks.lean ====
import proofs.«170906_j52518860096512_2_alg».proof.Proof.FlashDefs
import Idealize.ShloMosaic.Lib.Pipeline.Value
import Idealize.ShloMosaic.Lib.ValueIdx

/-! # Where the attention region's blocks sit in their arrays

The attention region's grid is (batch, query tile, key tile) = (8, 4, 2): point `t` of its 64 points, in row-major
order, has batch `t / 8`, query tile `(t / 2) % 4` (512 rows each) and key tile `t % 2` (1024 rows each). Here every
window's block at a point is read, coordinate by coordinate, as the part of its array it is: row `r` of a query tile is
row `512 · tile + r` of the sequence, row `j` of a key tile is row `1024 · tile + j`; the weights and the bias are
whole. The output's blocks, written back at the odd points (the last key tile of each query tile), tile the output
array. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## A point's batch, and the sequence rows of its tiles -/

/-- The grid has 64 points. -/
theorem N2_eq : cfg2.N = 64 := N_2

/-- The batch of point `t`. -/
def bb (t : Fin cfg2.N) : Fin 8 := ⟨t.val / 8, by have := t.isLt; have h : cfg2.N = 64 := N_2; omega⟩
/-- Row `r` of point `t`'s query tile, as a row of the sequence. -/
def bq (t : Fin cfg2.N) (r : Fin 512) : Fin 2048 := ⟨((t.val / 2) % 4) * 512 + r.val, by omega⟩
/-- Row `j` of point `t`'s key tile, as a row of the sequence. -/
def bk (t : Fin cfg2.N) (j : Fin 1024) : Fin 2048 := ⟨(t.val % 2) * 1024 + j.val, by omega⟩

theorem bb_val (t : Fin cfg2.N) : (bb t).val = t.val / 8 := rfl
theorem bq_val (t : Fin cfg2.N) (r : Fin 512) : (bq t r).val = ((t.val / 2) % 4) * 512 + r.val := rfl
theorem bk_val (t : Fin cfg2.N) (j : Fin 1024) : (bk t j).val = (t.val % 2) * 1024 + j.val := rfl

/-! ## The windows' block indices at a point, decided over the grid -/

theorem idx2_0 : ∀ t : Fin cfg2.N, win2_0.index t (0 : Fin 3) = t.val / 8 ∧ win2_0.index t (1 : Fin 3) = (t.val / 2) % 4 ∧ win2_0.index t (2 : Fin 3) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 1) = 0 :=
  (by decide +kernel : ∀ t : Fin grid2.N, _)
theorem idx2_3 : ∀ t : Fin cfg2.N, win2_3.index t (0 : Fin 3) = t.val / 8 ∧ win2_3.index t (1 : Fin 3) = t.val % 2 ∧ win2_3.index t (2 : Fin 3) = 0 :=
  (by decide +kernel : ∀ t : Fin grid2.N, _)
theorem idx2_4 : ∀ t : Fin cfg2.N, win2_4.index t (0 : Fin 3) = t.val / 8 ∧ win2_4.index t (1 : Fin 3) = t.val % 2 ∧ win2_4.index t (2 : Fin 3) = 0 :=
  (by decide +kernel : ∀ t : Fin grid2.N, _)
theorem idx2_5 : ∀ t : Fin cfg2.N, win2_5.index t (0 : Fin 2) = (t.val / 2) % 4 ∧ win2_5.index t (1 : Fin 2) = t.val % 2 :=
  (by decide +kernel : ∀ t : Fin grid2.N, _)
theorem idx2_6 : ∀ t : Fin cfg2.N, win2_6.index t (0 : Fin 3) = t.val / 8 ∧ win2_6.index t (1 : Fin 3) = (t.val / 2) % 4 ∧ win2_6.index t (2 : Fin 3) = 0 :=
  (by decide +kernel : ∀ t : Fin grid2.N, _)

section Blocks
variable (V : (c : Dev nD) → (b : Ref sig .tc) → Buf (Elt F) ((c : Thread nD τ).loc b))

/-! ## Each input block, read at coordinates -/

/-- The query rows' block: row `r` is row `bq t r` of batch `bb t`. -/
theorem iblk2_0_apply (c : Dev nD) (t : Fin cfg2.N) (r : Fin 512) (d : Fin 1024) :
    (iblk2 V c 0 t : Vec F S1x512x1024 .f32) (ix3 (0 : Fin 1) r d)
      = (V c main_arg0 : S8x2048x1024.Idx → Elt F .f32) (ix3 (bb t) (bq t r) d) := by
  obtain ⟨e0, e1, e2⟩ := idx2_0 t
  unfold iblk2
  rw [View.read_apply]
  show V c main_arg0 _ = V c main_arg0 _
  congr 1
  funext a; apply Fin.ext
  match a with
  | ⟨0, _⟩ => show win2_0.index t (0 : Fin 3) * 1 + 1 * 0 = t.val / 8; rw [e0]; omega
  | ⟨1, _⟩ => show win2_0.index t (1 : Fin 3) * 512 + 1 * r.val = ((t.val / 2) % 4) * 512 + r.val; rw [e1]; omega
  | ⟨2, _⟩ => show win2_0.index t (2 : Fin 3) * 1024 + 1 * d.val = d.val; rw [e2]; omega

/-- The query weights' block is the whole array. -/
theorem iblk2_1_apply (c : Dev nD) (t : Fin cfg2.N) (e d : Fin 1024) :
    (iblk2 V c 1 t : Vec F S1024x1024 .bf16) (ix2 e d) = (V c main_v0 : S1024x1024.Idx → Elt F .bf16) (ix2 e d) := by
  obtain ⟨e0, e1⟩ := idx2_1 t
  unfold iblk2
  rw [View.read_apply]
  show V c main_v0 _ = V c main_v0 _
  congr 1
  funext a; apply Fin.ext
  match a with
  | ⟨0, _⟩ => show win2_1.index t (0 : Fin 2) * 1024 + 1 * e.val = e.val; rw [e0]; omega
  | ⟨1, _⟩ => show win2_1.index t (1 : Fin 2) * 1024 + 1 * d.val = d.val; rw [e1]; omega

/-- The query bias's block is the whole vector. -/
theorem iblk2_2_apply (c : Dev nD) (t : Fin cfg2.N) (e : Fin 1024) :
    (iblk2 V c 2 t : Vec F S1024 .f32) (ix1 e) = (V c main_arg5 : S1024.Idx → Elt F .f32) (ix1 e) := by
  have e0 := idx2_2 t
  unfold iblk2
  rw [View.read_apply]
  show V c main_arg5 _ = V c main_arg5 _
  congr 1
  funext a; apply Fin.ext
  match a with
  | ⟨0, _⟩ => show win2_2.index t (0 : Fin 1) * 1024 + 1 * e.val = e.val; rw [e0]; omega

/-- The key rows' block: row `j` is row `bk t j` of batch `bb t`. -/
theorem iblk2_3_apply (c : Dev nD) (t : Fin cfg2.N) (j d : Fin 1024) :
    (iblk2 V c 3 t : Vec F S1x1024x1024 .bf16) (ix3 (0 : Fin 1) j d)
      = (V c main_v6 : S8x2048x1024.Idx → Elt F .bf16) (ix3 (bb t) (bk t j) d) := by
  obtain ⟨e0, e1, e2⟩ := idx2_3 t
  unfold iblk2
  rw [View.read_apply]
  show V c main_v6 _ = V c main_v6 _
  congr 1
  funext a; apply Fin.ext
  match a with
  | ⟨0, _⟩ => show win2_3.index t (0 : Fin 3) * 1 + 1 * 0 = t.val / 8; rw [e0]; omega
  | ⟨1, _⟩ => show win2_3.index t (1 : Fin 3) * 1024 + 1 * j.val = (t.val % 2) * 1024 + j.val; rw [e1]; omega
  | ⟨2, _⟩ => show win2_3.index t (2 : Fin 3) * 1024 + 1 * d.val = d.val; rw [e2]; omega

/-- The value rows' block: row `j` is row `bk t j` of batch `bb t`. -/
theorem iblk2_4_apply (c : Dev nD) (t : Fin cfg2.N) (j d : Fin 1024) :
    (iblk2 V c 4 t : Vec F S1x1024x1024 .bf16) (ix3 (0 : Fin 1) j d)
      = (V c main_v9 : S8x2048x1024.Idx → Elt F .bf16) (ix3 (bb t) (bk t j) d) := by
  obtain ⟨e0, e1, e2⟩ := idx2_4 t
  unfold iblk2
  rw [View.read_apply]
  show V c main_v9 _ = V c main_v9 _
  congr 1
  funext a; apply Fin.ext
  match a with
  | ⟨0, _⟩ => show win2_4.index t (0 : Fin 3) * 1 + 1 * 0 = t.val / 8; rw [e0]; omega
  | ⟨1, _⟩ => show win2_4.index t (1 : Fin 3) * 1024 + 1 * j.val = (t.val % 2) * 1024 + j.val; rw [e1]; omega
  | ⟨2, _⟩ => show win2_4.index t (2 : Fin 3) * 1024 + 1 * d.val = d.val; rw [e2]; omega

/-- The mask's block: entry `(r, j)` is entry `(bq t r, bk t j)` of the mask. -/
theorem iblk2_5_apply (c : Dev nD) (t : Fin cfg2.N) (r : Fin 512) (j : Fin 1024) :
    (iblk2 V c 5 t : Vec F S512x1024 .bf16) (ix2 r j)
      = (V c main_v3 : S2048x2048.Idx → Elt F .bf16) (ix2 (bq t r) (bk t j)) := by
  obtain ⟨e0, e1⟩ := idx2_5 t
  unfold iblk2
  rw [View.read_apply]
  show V c main_v3 _ = V c main_v3 _
  congr 1
  funext a; apply Fin.ext
  match a with
  | ⟨0, _⟩ => show win2_5.index t (0 : Fin 2) * 512 + 1 * r.val = ((t.val / 2) % 4) * 512 + r.val; rw [e0]; omega
  | ⟨1, _⟩ => show win2_5.index t (1 : Fin 2) * 1024 + 1 * j.val = (t.val % 2) * 1024 + j.val; rw [e1]; omega

end Blocks

/-! ## The output's blocks -/

/-- Point `t`'s output block of any function of the output array's index: row `r` is row `bq t r` of batch `bb t`. -/
theorem blk6_read_apply (t : Fin cfg2.N) (G : S8x2048x1024.Idx → Elt F .f32) (r : Fin 512) (e : Fin 1024) :
    (((cfg2.win 6).blk t).view.read (Elt F) G : Vec F S1x512x1024 .f32) (ix3 (0 : Fin 1) r e) = G (ix3 (bb t) (bq t r) e) := by
  obtain ⟨e0, e1, e2⟩ := idx2_6 t
  rw [View.read_apply]
  refine congrArg G (funext fun a => Fin.ext ?_)
  match a with
  | ⟨0, _⟩ => show win2_6.index t (0 : Fin 3) * 1 + 1 * 0 = t.val / 8; rw [e0]; omega
  | ⟨1, _⟩ => show win2_6.index t (1 : Fin 3) * 512 + 1 * r.val = ((t.val / 2) % 4) * 512 + r.val; rw [e1]; omega
  | ⟨2, _⟩ => show win2_6.index t (2 : Fin 3) * 1024 + 1 * e.val = e.val; rw [e2]; omega

/-- An index of the output array is in point `t`'s block iff each coordinate is in the block's range on its axis. -/
theorem mem_blk6 (t : Fin cfg2.N) (i : S8x2048x1024.Idx) :
    i ∈ ((cfg2.win 6).blk t).view.set ↔ ∀ a : Fin 3, win2_6.index t a * S1x512x1024.size a ≤ (i a).val ∧ (i a).val < win2_6.index t a * S1x512x1024.size a + S1x512x1024.size a := by
  show i ∈ ((View.whole main_v10).slice (win2_6.rect t)).set ↔ _
  rw [View.set_slice_whole, Rect.mem_set_unit]
  exact Iff.rfl

/-- The block indices of the output window at the point numbered `n`. -/
theorem idx2_6_mk (n : ℕ) (h : n < cfg2.N) : win2_6.index ⟨n, h⟩ (0 : Fin 3) = n / 8 ∧ win2_6.index ⟨n, h⟩ (1 : Fin 3) = (n / 2) % 4 ∧ win2_6.index ⟨n, h⟩ (2 : Fin 3) = 0 :=
  idx2_6 ⟨n, h⟩

/-- Every index of the output array is in the block of a point that writes back: batch `b`, row `s` is in the block
    of the odd point `8 b + 2 (s / 512) + 1`. -/
theorem cover6 (i : S8x2048x1024.Idx) : ∃ t : Fin cfg2.N, (cfg2.win 6).flush t = true ∧ i ∈ ((cfg2.win 6).blk t).view.set := by
  have hi0 : (i 0).val < 8 := (i 0).isLt
  have hi1 : (i 1).val < 2048 := (i 1).isLt
  have hi2 : (i 2).val < 1024 := (i 2).isLt
  have hN : cfg2.N = 64 := N_2
  have ht : (i 0).val * 8 + ((i 1).val / 512) * 2 + 1 < cfg2.N := by rw [hN]; omega
  obtain ⟨e0, e1, e2⟩ := idx2_6_mk _ ht
  refine ⟨⟨_, ht⟩, (flush2_6 _).mpr ?_, ?_⟩
  · show ((i 0).val * 8 + (i 1).val / 512 * 2 + 1) % 2 = 1; omega
  rw [mem_blk6]
  intro a
  match a with
  | ⟨0, _⟩ =>
    show win2_6.index ⟨_, ht⟩ (0 : Fin 3) * 1 ≤ (i 0).val ∧ (i 0).val < win2_6.index ⟨_, ht⟩ (0 : Fin 3) * 1 + 1
    rw [e0]; omega
  | ⟨1, _⟩ =>
    show win2_6.index ⟨_, ht⟩ (1 : Fin 3) * 512 ≤ (i 1).val ∧ (i 1).val < win2_6.index ⟨_, ht⟩ (1 : Fin 3) * 512 + 512
    rw [e1]; omega
  | ⟨2, _⟩ =>
    show win2_6.index ⟨_, ht⟩ (2 : Fin 3) * 1024 ≤ (i 2).val ∧ (i 2).val < win2_6.index ⟨_, ht⟩ (2 : Fin 3) * 1024 + 1024
    rw [e2]; omega

/-! ## An odd point and the point before it: the same batch and query tile, the two key tiles -/

/-- The point before an odd point. -/
def prevPt (t : Fin cfg2.N) : Fin cfg2.N := ⟨t.val - 1, by have := t.isLt; omega⟩
theorem prevPt_val (t : Fin cfg2.N) : (prevPt t).val = t.val - 1 := rfl

theorem bb_prev (t : Fin cfg2.N) (h : t.val % 2 = 1) : bb (prevPt t) = bb t :=
  Fin.ext (by show (t.val - 1) / 8 = t.val / 8; omega)
theorem bq_prev (t : Fin cfg2.N) (h : t.val % 2 = 1) (r : Fin 512) : bq (prevPt t) r = bq t r :=
  Fin.ext (by show ((t.val - 1) / 2) % 4 * 512 + r.val = (t.val / 2) % 4 * 512 + r.val; omega)
theorem bk_prev_val (t : Fin cfg2.N) (h : t.val % 2 = 1) (j : Fin 1024) : (bk (prevPt t) j).val = j.val := by
  show (t.val - 1) % 2 * 1024 + j.val = j.val; omega
theorem bk_odd_val (t : Fin cfg2.N) (h : t.val % 2 = 1) (j : Fin 1024) : (bk t j).val = 1024 + j.val := by
  show t.val % 2 * 1024 + j.val = 1024 + j.val; omega

end Cert.KernelIdeal.HandValue

end
-- ==== Proof.FlashPayScore.lean ====
/-
  The score side of one attention step, read at an index, on the extended reals.

  For a query tile q (512 rows of 1024 features), a key tile kk (1024 rows of 1024 features), a mask tile mk and the
  running row maximum m0 and row sum l0 carried from the key tiles before, one step computes
    s (r, j) = (Σ d, q (r, d) · kk (j, d)) · c + mk (r, j)        the scaled scores plus the mask (c the scale's word),
    m' r     = max (m0 r) (max over j of s (r, j))                the new running maximum,
    a r      = exp (m0 r − m' r)                                  the factor that rescales what was accumulated,
    p (r, j) = exp (s (r, j) − m' r)                              the unnormalised weights,
    l' r     = a r · l0 r + Σ j, p (r, j)                         the new running sum.
  Each lemma below reads one of these five vectors at an index given by its coordinates. Format changes are the
  identity on extended reals; the casts between [512, 1024] and [1, 512, 1024] and between [1, 512] and [1, 512, 1]
  keep the row-major position; the broadcast of a column along the lanes reads the column at the row; the product with
  the transposed key tile into a zero accumulator is the sum over the one contracted coordinate; the lane reductions
  are the sum and the fold of max over the lane coordinate.
-/
import proofs.«170906_j52518860096512_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-! ## Indices of the two block shapes by coordinates -/

/-- Every index of a [1, 512, 1] column is (0, r, 0). -/
theorem eq_col (i : S1x512x1.Idx) : i = ix3 (0 : Fin 1) (i 1) (0 : Fin 1) := by
  funext a
  match a with
  | ⟨0, _⟩ => exact Fin.ext (by have h : (i 0).val < 1 := (i 0).isLt; show (i 0).val = 0; omega)
  | ⟨1, _⟩ => rfl
  | ⟨2, _⟩ => exact Fin.ext (by have h : (i 2).val < 1 := (i 2).isLt; show (i 2).val = 0; omega)

/-- Every index of a [1, 512, 1024] tile is (0, r, j). -/
theorem eq_tile (i : S1x512x1024.Idx) : i = ix3 (0 : Fin 1) (i 1) (i 2) := by
  funext a
  match a with
  | ⟨0, _⟩ => exact Fin.ext (by have h : (i 0).val < 1 := (i 0).isLt; show (i 0).val = 0; omega)
  | ⟨1, _⟩ => rfl
  | ⟨2, _⟩ => rfl

/-! ## The product of the query tile with the transposed key tile -/

/-- The batch coordinate of the left operand's index is the output's. -/
theorem scoreDot_lhs0 (i : S1x512x1024.Idx) (c : dot_S1x512x1024_S1x1024x1024_S1x512x1024_2_2_1_1_0_0.contr.Idx) :
    (dot_S1x512x1024_S1x1024x1024_S1x512x1024_2_2_1_1_0_0.lhsIdx i c 0).val = (i 0).val := by
  unfold DotDims.lhsIdx
  rw [dif_pos (show (0 : Fin S1x512x1024.rank) ∈ dot_S1x512x1024_S1x1024x1024_S1x512x1024_2_2_1_1_0_0.lhsBatch by decide)]
  rfl

/-- The row coordinate of the left operand's index is the output's row. -/
theorem scoreDot_lhs1 (i : S1x512x1024.Idx) (c : dot_S1x512x1024_S1x1024x1024_S1x512x1024_2_2_1_1_0_0.contr.Idx) :
    (dot_S1x512x1024_S1x1024x1024_S1x512x1024_2_2_1_1_0_0.lhsIdx i c 1).val = (i 1).val := by
  unfold DotDims.lhsIdx
  rw [dif_neg (show ¬(1 : Fin S1x512x1024.rank) ∈ dot_S1x512x1024_S1x1024x1024_S1x512x1024_2_2_1_1_0_0.lhsBatch by decide),
    dif_pos (show (1 : Fin S1x512x1024.rank) ∈ dot_S1x512x1024_S1x1024x1024_S1x512x1024_2_2_1_1_0_0.lhsNonContracting by decide)]
  rfl

/-- The batch coordinate of the right operand's index is the output's. -/
theorem scoreDot_rhs0 (i : S1x512x1024.Idx) (c : dot_S1x512x1024_S1x1024x1024_S1x512x1024_2_2_1_1_0_0.contr.Idx) :
    (dot_S1x512x1024_S1x1024x1024_S1x512x1024_2_2_1_1_0_0.rhsIdx i c 0).val = (i 0).val := by
  unfold DotDims.rhsIdx
  rw [dif_pos (show (0 : Fin S1x1024x1024.rank) ∈ dot_S1x512x1024_S1x1024x1024_S1x512x1024_2_2_1_1_0_0.rhsBatch by decide)]
  rfl

/-- The row coordinate of the right operand's index is the output's column. -/
theorem scoreDot_rhs1 (i : S1x512x1024.Idx) (c : dot_S1x512x1024_S1x1024x1024_S1x512x1024_2_2_1_1_0_0.contr.Idx) :
    (dot_S1x512x1024_S1x1024x1024_S1x512x1024_2_2_1_1_0_0.rhsIdx i c 1).val = (i 2).val := by
  unfold DotDims.rhsIdx
  rw [dif_neg (show ¬(1 : Fin S1x1024x1024.rank) ∈ dot_S1x512x1024_S1x1024x1024_S1x512x1024_2_2_1_1_0_0.rhsBatch by decide),
    dif_pos (show (1 : Fin S1x1024x1024.rank) ∈ dot_S1x512x1024_S1x1024x1024_S1x512x1024_2_2_1_1_0_0.rhsNonContracting by decide)]
  rfl

/-- The product into the zero accumulator at (0, r, j): the dot product of row r of the query tile with row j of the
    key tile. -/
theorem scoreDot_apply (q : FVec Ideal S1x512x1024 .bf16) (kk : FVec Ideal S1x1024x1024 .bf16) (r : Fin 512) (j : Fin 1024) :
    FloatOps.matmul dot_S1x512x1024_S1x1024x1024_S1x512x1024_2_2_1_1_0_0 none q kk
        (constant (F := Ideal) S1x512x1024 .f32 0x00000000#32) (ix3 (0 : Fin 1) r j)
      = ∑ d : Fin 1024, q (ix3 (0 : Fin 1) r d) * kk (ix3 (0 : Fin 1) j d) := by
  rw [Ideal.matmul_constant_zero_apply,
    ← Equiv.sum_comp (contrEquiv1 dot_S1x512x1024_S1x1024x1024_S1x512x1024_2_2_1_1_0_0 1024 rfl rfl).symm]
  refine Finset.sum_congr rfl fun k _ => ?_
  have hk := contrEquiv1_symm_val dot_S1x512x1024_S1x1024x1024_S1x512x1024_2_2_1_1_0_0 1024 rfl rfl k
  have el : dot_S1x512x1024_S1x1024x1024_S1x512x1024_2_2_1_1_0_0.lhsIdx (ix3 (0 : Fin 1) r j)
      ((contrEquiv1 dot_S1x512x1024_S1x1024x1024_S1x512x1024_2_2_1_1_0_0 1024 rfl rfl).symm k) = ix3 (0 : Fin 1) r k :=
    funext fun a => Fin.ext (by
      match a with
      | ⟨0, _⟩ => exact scoreDot_lhs0 _ _
      | ⟨1, _⟩ => exact scoreDot_lhs1 _ _
      | ⟨2, _⟩ => exact (dot_S1x512x1024_S1x1024x1024_S1x512x1024_2_2_1_1_0_0.lhsIdx_val_of_single rfl _ _).trans hk)
  have er : dot_S1x512x1024_S1x1024x1024_S1x512x1024_2_2_1_1_0_0.rhsIdx (ix3 (0 : Fin 1) r j)
      ((contrEquiv1 dot_S1x512x1024_S1x1024x1024_S1x512x1024_2_2_1_1_0_0 1024 rfl rfl).symm k) = ix3 (0 : Fin 1) j k :=
    funext fun a => Fin.ext (by
      match a with
      | ⟨0, _⟩ => exact scoreDot_rhs0 _ _
      | ⟨1, _⟩ => exact scoreDot_rhs1 _ _
      | ⟨2, _⟩ => exact (dot_S1x512x1024_S1x1024x1024_S1x512x1024_2_2_1_1_0_0.rhsIdx_val_of_single rfl _ _).trans hk)
  rw [el, er]

/-! ## The scaled scores plus the mask -/

/-- s (r, j) = (Σ d, q (r, d) · kk (j, d)) · c + mk (r, j). -/
theorem pay10_apply (q : Vec Ideal S1x512x1024 .bf16) (kk : Vec Ideal S1x1024x1024 .bf16) (mk : Vec Ideal S512x1024 .bf16)
    (r : Fin 512) (j : Fin 1024) :
    k2_pay10 (F := Ideal) q kk mk (ix3 (0 : Fin 1) r j)
      = (∑ d : Fin 1024, q (ix3 (0 : Fin 1) r d) * kk (ix3 (0 : Fin 1) j d)) * Ideal.ofBits .f32 0x3D000000#32
        + mk (ix2 r j) := by
  unfold k2_pay10
  show FloatOps.matmul dot_S1x512x1024_S1x1024x1024_S1x512x1024_2_2_1_1_0_0 none q
        (shapeCast S1x1024x1024 kk shapeCasts_S1x1024x1024_S1x1024x1024)
        (constant (F := Ideal) S1x512x1024 .f32 0x00000000#32) (ix3 (0 : Fin 1) r j) * Ideal.ofBits .f32 0x3D000000#32
      + shapeCast S1x512x1024 (shapeCast S512x1024 mk shapeCasts_S512x1024_S512x1024) shapeCasts_S512x1024_S1x512x1024
          (ix3 (0 : Fin 1) r j) = _
  rw [shapeCast_self, shapeCast_self, scoreDot_apply]
  exact congrArg _ (shapeCast_ab_1ab_apply mk shapeCasts_S512x1024_S1x512x1024 0 r j)

/-! ## A row vector as a column, and a column along the lanes -/

section Layout
variable {α : Type}

/-- A [1, a] array cast to [1, a, 1] reads, at (u, i, w), the operand at (0, i): both unit coordinates are 0, so the
    two row-major positions agree. -/
theorem shapeCast_1a_1a1_apply {a : ℕ} (x : (⟨2, ![1, a]⟩ : Shape).Idx → α)
    (h : (⟨2, ![1, a]⟩ : Shape).ShapeCasts ⟨3, ![1, a, 1]⟩) (u : Fin 1) (i : Fin a) (w : Fin 1) :
    shapeCast ⟨3, ![1, a, 1]⟩ x h (ix3 u i w) = x (ix2 (0 : Fin 1) i) :=
  shapeCast_apply x h _ _ (by
    have hu : u.val = 0 := by omega
    have hw : w.val = 0 := by omega
    rw [Shape.rowMajor_val_three, Shape.rowMajor_val_two]
    show 0 * a + i.val = (u.val * a + i.val) * 1 + w.val
    rw [hu, hw, Nat.zero_mul, Nat.zero_add, Nat.mul_one, Nat.add_zero])

/-- A [1, a, 1] column broadcast to [1, a, b] reads, at (u, p, c), the column at row p. -/
theorem broadcastTo_1a1_1ab_apply {a b : ℕ} (v : (⟨3, ![1, a, 1]⟩ : Shape).Idx → α)
    (h : (⟨3, ![1, a, 1]⟩ : Shape).Broadcasts ⟨3, ![1, a, b]⟩) (u : Fin 1) (p : Fin a) (c : Fin b) :
    broadcastTo ⟨3, ![1, a, b]⟩ v h (ix3 u p c) = v (ix3 (0 : Fin 1) p (0 : Fin 1)) := by
  refine broadcastTo_apply v h (ix3 u p c) (ix3 (0 : Fin 1) p (0 : Fin 1)) fun ax => ?_
  match ax with
  | ⟨0, _⟩ => rfl
  | ⟨1, _⟩ =>
    show p.val = if a = 1 then 0 else p.val
    split
    · have := p.isLt; omega
    · rfl
  | ⟨2, _⟩ => rfl

end Layout

/-! ## The two lane reductions -/

/-- The tile index over (0, r) whose lane coordinate is j is (0, r, j). -/
theorem lane_lift (r : Fin 512) (j : Fin 1024) :
    reduces_S1x512x1024_S1x512.lift (ix2 (0 : Fin 1) r) j = ix3 (0 : Fin 1) r j := by
  funext a
  match a with
  | ⟨0, _⟩ => exact Fin.ext rfl
  | ⟨1, _⟩ => exact Fin.ext rfl
  | ⟨2, _⟩ => exact Fin.ext rfl

/-- The word the lane maximum starts from is −∞. -/
theorem ofBits_negInf_f32 : Ideal.ofBits .f32 0xFF800000#32 = ⊥ := by simp [Ideal.ofBits, Ideal.ieee]

/-- The maximum over the lanes of row r: the fold of max from −∞ over the lane coordinate. -/
theorem laneMax_apply (s : FVec Ideal S1x512x1024 .f32) (hφ : FKind.Formats .f32)
    (hacc : (0xFF800000#32 : BitVec 32) = 0xFF800000#32) (r : Fin 512) :
    multiReduction (F := Ideal) .maximumf [2] S1x512 s 0xFF800000#32 reduces_S1x512x1024_S1x512 hφ hacc (ix2 (0 : Fin 1) r)
      = Finset.univ.fold max ⊥ (fun j : Fin 1024 => s (ix3 (0 : Fin 1) r j)) := by
  refine (Ideal.multiReduction_maximumf_single s 0xFF800000#32 reduces_S1x512x1024_S1x512 hφ hacc (ix2 (0 : Fin 1) r)).trans ?_
  have hb : FloatOps.ofBits (F := Ideal) .f32 0xFF800000#32 = ⊥ := ofBits_negInf_f32
  have hf : (s ∘ reduces_S1x512x1024_S1x512.lift (ix2 (0 : Fin 1) r)) = fun j : Fin 1024 => s (ix3 (0 : Fin 1) r j) :=
    funext fun j => congrArg s (lane_lift r j)
  rw [hb, hf]
  rfl

/-- The sum over the lanes of row r. -/
theorem laneSum_apply (p : FVec Ideal S1x512x1024 .f32) (hφ : FKind.Formats .f32)
    (hacc : (0x00000000#32 : BitVec 32) = 0x00000000#32) (r : Fin 512) :
    multiReduction (F := Ideal) .add [2] S1x512 p 0x00000000#32 reduces_S1x512x1024_S1x512 hφ hacc (ix2 (0 : Fin 1) r)
      = ∑ j : Fin 1024, p (ix3 (0 : Fin 1) r j) := by
  refine (Ideal.multiReduction_add_single p 0x00000000#32 reduces_S1x512x1024_S1x512 hφ hacc (ix2 (0 : Fin 1) r)).trans ?_
  exact Finset.sum_congr rfl fun j _ => congrArg p (lane_lift r j)

/-- The fold of max from −∞ over all lanes is the supremum over them. -/
theorem fold_max_bot_eq_sup {n : ℕ} (f : Fin n → EReal) : Finset.univ.fold max ⊥ f = Finset.univ.sup f := rfl

/-! ## The running maximum, the two exponentials and the running sum -/

/-- m' r = max (m0 r) (max over j of s (r, j)). -/
theorem pay11_apply (q : Vec Ideal S1x512x1024 .bf16) (kk : Vec Ideal S1x1024x1024 .bf16) (mk : Vec Ideal S512x1024 .bf16)
    (m0 : Vec Ideal S1x512x1 .f32) (r : Fin 512) :
    k2_pay11 (F := Ideal) q kk mk m0 (ix3 (0 : Fin 1) r (0 : Fin 1))
      = max (m0 (ix3 (0 : Fin 1) r (0 : Fin 1)))
          (Finset.univ.fold max ⊥ (fun j : Fin 1024 => k2_pay10 (F := Ideal) q kk mk (ix3 (0 : Fin 1) r j))) := by
  unfold k2_pay11
  generalize k2_pay10 (F := Ideal) q kk mk = s
  refine (maximumf_apply (φ := .f32) m0 _ _).trans ?_
  refine congrArg (max _) ?_
  refine (shapeCast_1a_1a1_apply _ shapeCasts_S1x512_S1x512x1 0 r 0).trans ?_
  exact laneMax_apply s (.inl rfl) rfl r

/-- a r = exp (m0 r − m' r). -/
theorem pay12_apply (q : Vec Ideal S1x512x1024 .bf16) (kk : Vec Ideal S1x1024x1024 .bf16) (mk : Vec Ideal S512x1024 .bf16)
    (m0 : Vec Ideal S1x512x1 .f32) (r : Fin 512) :
    k2_pay12 (F := Ideal) q kk mk m0 (ix3 (0 : Fin 1) r (0 : Fin 1))
      = Ideal.exp (m0 (ix3 (0 : Fin 1) r (0 : Fin 1)) - k2_pay11 (F := Ideal) q kk mk m0 (ix3 (0 : Fin 1) r (0 : Fin 1))) := by
  unfold k2_pay12
  generalize k2_pay11 (F := Ideal) q kk mk m0 = m'
  rfl

/-- p (r, j) = exp (s (r, j) − m' r). -/
theorem pay13_apply (q : Vec Ideal S1x512x1024 .bf16) (kk : Vec Ideal S1x1024x1024 .bf16) (mk : Vec Ideal S512x1024 .bf16)
    (m0 : Vec Ideal S1x512x1 .f32) (r : Fin 512) (j : Fin 1024) :
    k2_pay13 (F := Ideal) q kk mk m0 (ix3 (0 : Fin 1) r j)
      = Ideal.exp (k2_pay10 (F := Ideal) q kk mk (ix3 (0 : Fin 1) r j)
          - k2_pay11 (F := Ideal) q kk mk m0 (ix3 (0 : Fin 1) r (0 : Fin 1))) := by
  unfold k2_pay13
  generalize k2_pay11 (F := Ideal) q kk mk m0 = m'
  generalize k2_pay10 (F := Ideal) q kk mk = s
  show Ideal.exp (s (ix3 (0 : Fin 1) r j)
      - broadcastTo S1x512x1024 m' broadcasts_S1x512x1_S1x512x1024 (ix3 (0 : Fin 1) r j)) = _
  exact congrArg (fun z => Ideal.exp (s (ix3 (0 : Fin 1) r j) - z))
    (broadcastTo_1a1_1ab_apply m' broadcasts_S1x512x1_S1x512x1024 0 r j)

/-- l' r = a r · l0 r + Σ j, p (r, j). -/
theorem pay14_apply' (q : Vec Ideal S1x512x1024 .bf16) (kk : Vec Ideal S1x1024x1024 .bf16) (mk : Vec Ideal S512x1024 .bf16)
    (m0 l0 : Vec Ideal S1x512x1 .f32) (r : Fin 512) :
    k2_pay14 (F := Ideal) q kk mk m0 l0 (ix3 (0 : Fin 1) r (0 : Fin 1))
      = k2_pay12 (F := Ideal) q kk mk m0 (ix3 (0 : Fin 1) r (0 : Fin 1)) * l0 (ix3 (0 : Fin 1) r (0 : Fin 1))
        + ∑ j : Fin 1024, k2_pay13 (F := Ideal) q kk mk m0 (ix3 (0 : Fin 1) r j) := by
  unfold k2_pay14
  generalize k2_pay12 (F := Ideal) q kk mk m0 = a
  generalize k2_pay13 (F := Ideal) q kk mk m0 = p
  show a (ix3 (0 : Fin 1) r (0 : Fin 1)) * l0 (ix3 (0 : Fin 1) r (0 : Fin 1))
      + shapeCast S1x512x1 (multiReduction (F := Ideal) .add [2] S1x512 p 0x00000000#32 reduces_S1x512x1024_S1x512 (.inl rfl) rfl)
          shapeCasts_S1x512_S1x512x1 (ix3 (0 : Fin 1) r (0 : Fin 1)) = _
  refine congrArg (fun z => a (ix3 (0 : Fin 1) r (0 : Fin 1)) * l0 (ix3 (0 : Fin 1) r (0 : Fin 1)) + z) ?_
  refine (shapeCast_1a_1a1_apply _ shapeCasts_S1x512_S1x512x1 0 r 0).trans ?_
  exact laneSum_apply p (.inl rfl) rfl r

/-- The same with the reduction's zero starting value written out: l' r = a r · l0 r + (0 + Σ j, p (r, j)). -/
theorem pay14_apply (q : Vec Ideal S1x512x1024 .bf16) (kk : Vec Ideal S1x1024x1024 .bf16) (mk : Vec Ideal S512x1024 .bf16)
    (m0 l0 : Vec Ideal S1x512x1 .f32) (r : Fin 512) :
    k2_pay14 (F := Ideal) q kk mk m0 l0 (ix3 (0 : Fin 1) r (0 : Fin 1))
      = k2_pay12 (F := Ideal) q kk mk m0 (ix3 (0 : Fin 1) r (0 : Fin 1)) * l0 (ix3 (0 : Fin 1) r (0 : Fin 1))
        + (0 + ∑ j : Fin 1024, k2_pay13 (F := Ideal) q kk mk m0 (ix3 (0 : Fin 1) r j)) := by
  rw [zero_add]
  exact pay14_apply' q kk mk m0 l0 r

/-! ## The identity casts -/

/-- The stored running sum is the computed one. -/
theorem pay1_eq (v : FVec Ideal S1x512x1 .f32) : k2_pay1 (F := Ideal) v = v := shapeCast_self v _

/-- The stored running maximum is the computed one. -/
theorem pay3_eq (v : FVec Ideal S1x512x1 .f32) : k2_pay3 (F := Ideal) v = v := shapeCast_self v _

/-- The key tile passed on is the loaded one. -/
theorem pay9_eq (v : Vec Ideal S1x1024x1024 .bf16) : k2_pay9 (F := Ideal) v = v := shapeCast_self v _

end Cert.KernelIdeal.HandValue

end
-- ==== Proof.LibDotTransposed.lean ====
/-
  A matrix product against a transposed right operand, read at an index, on the extended reals.

  For dimension numbers that contract the second axis of BOTH operands — an [M, K] array against a [P, K] array, the
  product of the first with the transpose of the second — the product into a zero accumulator, read at row `p` and
  column `q`, is `Σ k, l (p, k) · r (q, k)`: the dot product of row `p` of the left operand with row `q` of the right
  one. The contraction's index set has one axis; the sum is re-indexed through that axis's coordinate. The two facts
  about the free axes (the left index keeps the row, the right index keeps the output's column as its row) are taken as
  hypotheses, since for given dimension numbers they hold by computation.
-/
import Idealize.ShloMosaic.PureOps.Ideal.Laws
import Idealize.ShloMosaic.Lib.ValueIdx

noncomputable section

open scoped BigOperators

namespace Cert.LibDotTransposed

open Idealize.ShloMosaic Idealize.ShloMosaic.ValueIdx

/-- The product with the transposed right operand, into the zero accumulator, at (p, q): the sum over the contraction
    coordinate of the left operand at (p, k) times the right operand at (q, k). -/
theorem matmul_zero_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (prec : Option ContractPrecision)
    (l : FVec Ideal ⟨2, ![M, K]⟩ φ₁) (r : FVec Ideal ⟨2, ![P, K]⟩ φ₂) (p : Fin M) (q : Fin P) :
    FloatOps.matmul D prec l r (constant ⟨2, ![M, P]⟩ .f32 0x00000000#32) (ix2 p q)
      = ∑ k : Fin K, l (ix2 p k) * r (ix2 q k) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 q k := funext fun a => Fin.ext (by
    match a with
    | ⟨0, _⟩ => exact hr0 _ _
    | ⟨1, _⟩ => exact (D.rhsIdx_val_of_single hrc _ _).trans hk)
  rw [el, er]

end Cert.LibDotTransposed

end
-- ==== Proof.LibBiasRow.lean ====
/-
  A bias vector used against every row of a table, and a scalar filling a table.

  A length-b vector added to every row of an [a, b] table is first made a [1, b] row and then repeated along the rows.
  Whether the row is made by a reshape and repeated by a trailing-axes broadcast, or made by placing the vector's axis
  on the table's second axis and repeated by an axis-by-axis broadcast, the repeated table holds at (p, k) the vector's
  entry k. A scalar broadcast to a table holds the scalar everywhere.
-/
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

variable {α : Type}

/-- The vector placed on the second axis of a [1, b] row, the row then broadcast axis by axis to [a, b]: at (p, k) the
    vector at k. -/
theorem placed_row_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (k : Fin b) :
    broadcastInDim ⟨2, ![a, b]⟩ ![0, 1] h2 (broadcastInDim ⟨2, ![1, b]⟩ ![1] h1 x) (ix2 p k) = x (ix1 k) := by
  refine (broadcastInDim_apply ![0, 1] h2 _ (ix2 p k) (ix2 (0 : Fin 1) k) fun ax => ?_).trans ?_
  · match ax with
    | ⟨0, _⟩ => rfl
    | ⟨1, _⟩ =>
      show k.val = if b = 1 then 0 else k.val
      split
      · have := k.isLt; omega
      · rfl
  · refine broadcastInDim_apply ![1] h1 x (ix2 (0 : Fin 1) k) (ix1 k) fun ax => ?_
    match ax with
    | ⟨0, _⟩ =>
      show k.val = if b = 1 then 0 else k.val
      split
      · have := k.isLt; omega
      · rfl

/-- The vector reshaped to a [1, b] row, the row then broadcast over the leading axis to [a, b]: at (p, k) the vector
    at k. -/
theorem reshaped_row_apply {a b : ℕ} (x : (⟨1, ![b]⟩ : Shape).Idx → α)
    (h1 : (⟨1, ![b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ x h1) h2 (ix2 p k) = x (ix1 k) := by
  refine (broadcastTo_apply _ h2 (ix2 p k) (ix2 (0 : Fin 1) k) fun ax => ?_).trans (shapeCast_a_1a_apply x h1 0 k)
  match ax with
  | ⟨0, _⟩ => rfl
  | ⟨1, _⟩ =>
    show k.val = if b = 1 then 0 else k.val
    split
    · have := k.isLt; omega
    · rfl

/-- A scalar broadcast to any shape holds the scalar at every index. -/
theorem fill_apply {t : Shape} (z : (⟨0, ![]⟩ : Shape).Idx → α) (h : (⟨0, ![]⟩ : Shape).BroadcastsInDim t ![]) (j : t.Idx) :
    broadcastInDim t ![] h z j = z ix0 :=
  broadcastInDim_apply ![] h z j ix0 fun ax => ax.elim0

end Cert.LibBiasRow

end
-- ==== Proof.FlashPayAcc.lean ====
import proofs.«170906_j52518860096512_2_alg».proof.Proof.Gen.KernelIdeal.Skeleton
import proofs.«170906_j52518860096512_2_alg».proof.Proof.LibDotTransposed
import proofs.«170906_j52518860096512_2_alg».proof.Proof.LibBiasRow
import Idealize.ShloMosaic.Lib.Pipeline.Value
import Idealize.ShloMosaic.Lib.ValueIdx
import Idealize.ShloMosaic.Lib.ValueLayout
import Idealize.ShloMosaic.PureOps.Ideal.Laws

/-! # The attention body's accumulator-side payloads, index by index, on the extended reals

The attention body keeps, per query row, a running maximum `m`, a running normaliser `l` and a running weighted sum
`acc` of value rows. Here each value it stores on that side is read at an index:

* the projected query tile: row `r`, column `e` is `Σ_d x(r, d) · W(e, d) + b(e)`;
* the new weighted sum: `a(r) · acc(r, e) + Σ_j p(r, j) · v(j, e)`, with `a` the rescaling factor and `p` the tile's
  exponentials;
* the output tile: `acc(r, e) / l(r)`;
* the three resets: the running maximum at a fixed finite word, the normaliser and the weighted sum at zero.

Roundings to and from the narrower float type are identities on the extended reals; a cast that adds or drops the
leading unit axis, a repetition of a column along the lanes and a repetition of a row along the rows are read at
coordinates. -/

set_option maxRecDepth 16384

noncomputable section

open scoped BigOperators

namespace Cert.KernelIdeal.HandValue

open Cert.KernelIdeal Cert.KernelIdeal.Gen
open Idealize.ShloMosaic Idealize.ShloMosaic.ValueIdx

/-! ## A column repeated along the lanes -/

/-- A `[1, 512, 1]` column repeated to `[1, 512, 1024]`, at `(0, r, e)`: the column at row `r`. -/
theorem lanes_apply (a : FVec Ideal S1x512x1 .f32) (r : Fin 512) (e : Fin 1024) :
    broadcastTo S1x512x1024 a broadcasts_S1x512x1_S1x512x1024 (ix3 (0 : Fin 1) r e) = a (ix3 (0 : Fin 1) r (0 : Fin 1)) :=
  broadcastTo_apply a broadcasts_S1x512x1_S1x512x1024 (ix3 (0 : Fin 1) r e) (ix3 (0 : Fin 1) r (0 : Fin 1)) fun ax => by
    match ax with
    | ⟨0, _⟩ => rfl
    | ⟨1, _⟩ => rfl
    | ⟨2, _⟩ => rfl

/-! ## The query projection -/

/-- The left operand's index keeps the result's row. -/
theorem qdot_lhs_row (j : S512x1024.Idx) (q : dot_S512x1024_S1024x1024_S512x1024_1_1_0_0_n_n.contr.Idx) :
    (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- The right operand's index takes the result's column as its row. -/
theorem qdot_rhs_row (j : S512x1024.Idx) (q : dot_S512x1024_S1024x1024_S512x1024_1_1_0_0_n_n.contr.Idx) :
    (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

/-- The projected query tile at row `r` and column `e`: the inner product of row `r` of the tile with row `e` of the
    weights, plus the bias at `e`. -/
theorem pay5_apply (x0 : Vec Ideal S1x512x1024 .f32) (w : Vec Ideal S1024x1024 .bf16) (b : Vec Ideal S1024 .f32) (r : Fin 512) (e : Fin 1024) :
    k2_pay5 (F := Ideal) x0 w b (ix3 0 r e) = (∑ d : Fin 1024, x0 (ix3 0 r d) * w (ix2 e d)) + b (ix1 e) := by
  unfold k2_pay5
  rw [shapeCast_ab_1ab_apply]
  simp only [truncf_apply, addf_apply]
  rw [Cert.LibBiasRow.reshaped_row_apply, shapeCast_self]
  refine congrArg (· + b (ix1 e)) ?_
  refine (Cert.LibDotTransposed.matmul_zero_apply dot_S512x1024_S1024x1024_S512x1024_1_1_0_0_n_n rfl rfl qdot_lhs_row qdot_rhs_row rfl rfl none
    (truncf .bf16 (shapeCast S512x1024 x0 shapeCasts_S1x512x1024_S512x1024) bitsLt_bf16_f32) w r e).trans ?_
  refine Finset.sum_congr rfl fun d _ => ?_
  exact congrArg (· * w (ix2 e d)) (shapeCast_1ab_ab_apply x0 shapeCasts_S1x512x1024_S512x1024 r d)

/-! ## The weighted sum of value rows -/

theorem pv_lhs_0 (i : S1x512x1024.Idx) (q : dot_S1x512x1024_S1x1024x1024_S1x512x1024_2_1_1_2_0_0.contr.Idx) :
    (dot_S1x512x1024_S1x1024x1024_S1x512x1024_2_1_1_2_0_0.lhsIdx i q 0).val = (i 0).val := by
  unfold DotDims.lhsIdx
  rw [dif_pos (show (0 : Fin S1x512x1024.rank) ∈ dot_S1x512x1024_S1x1024x1024_S1x512x1024_2_1_1_2_0_0.lhsBatch by decide)]
  rfl
theorem pv_lhs_1 (i : S1x512x1024.Idx) (q : dot_S1x512x1024_S1x1024x1024_S1x512x1024_2_1_1_2_0_0.contr.Idx) :
    (dot_S1x512x1024_S1x1024x1024_S1x512x1024_2_1_1_2_0_0.lhsIdx i q 1).val = (i 1).val := by
  unfold DotDims.lhsIdx
  rw [dif_neg (show ¬(1 : Fin S1x512x1024.rank) ∈ dot_S1x512x1024_S1x1024x1024_S1x512x1024_2_1_1_2_0_0.lhsBatch by decide), dif_pos (show (1 : Fin S1x512x1024.rank) ∈ dot_S1x512x1024_S1x1024x1024_S1x512x1024_2_1_1_2_0_0.lhsNonContracting by decide)]
  rfl
theorem pv_lhs_2 (i : S1x512x1024.Idx) (q : dot_S1x512x1024_S1x1024x1024_S1x512x1024_2_1_1_2_0_0.contr.Idx) :
    (dot_S1x512x1024_S1x1024x1024_S1x512x1024_2_1_1_2_0_0.lhsIdx i q 2).val = (q ⟨0, by decide⟩).val :=
  dot_S1x512x1024_S1x1024x1024_S1x512x1024_2_1_1_2_0_0.lhsIdx_val_of_single rfl i q
theorem pv_rhs_0 (i : S1x512x1024.Idx) (q : dot_S1x512x1024_S1x1024x1024_S1x512x1024_2_1_1_2_0_0.contr.Idx) :
    (dot_S1x512x1024_S1x1024x1024_S1x512x1024_2_1_1_2_0_0.rhsIdx i q 0).val = (i 0).val := by
  unfold DotDims.rhsIdx
  rw [dif_pos (show (0 : Fin S1x1024x1024.rank) ∈ dot_S1x512x1024_S1x1024x1024_S1x512x1024_2_1_1_2_0_0.rhsBatch by decide)]
  rfl
theorem pv_rhs_1 (i : S1x512x1024.Idx) (q : dot_S1x512x1024_S1x1024x1024_S1x512x1024_2_1_1_2_0_0.contr.Idx) :
    (dot_S1x512x1024_S1x1024x1024_S1x512x1024_2_1_1_2_0_0.rhsIdx i q 1).val = (q ⟨0, by decide⟩).val :=
  dot_S1x512x1024_S1x1024x1024_S1x512x1024_2_1_1_2_0_0.rhsIdx_val_of_single rfl i q
theorem pv_rhs_2 (i : S1x512x1024.Idx) (q : dot_S1x512x1024_S1x1024x1024_S1x512x1024_2_1_1_2_0_0.contr.Idx) :
    (dot_S1x512x1024_S1x1024x1024_S1x512x1024_2_1_1_2_0_0.rhsIdx i q 2).val = (i 2).val := by
  unfold DotDims.rhsIdx
  rw [dif_neg (show ¬(2 : Fin S1x1024x1024.rank) ∈ dot_S1x512x1024_S1x1024x1024_S1x512x1024_2_1_1_2_0_0.rhsBatch by decide), dif_pos (show (2 : Fin S1x1024x1024.rank) ∈ dot_S1x512x1024_S1x1024x1024_S1x512x1024_2_1_1_2_0_0.rhsNonContracting by decide)]
  rfl

/-- The batched product of the tile's exponentials with the value rows into a zero accumulator, at `(0, r, e)`:
    `Σ_j p(r, j) · v(j, e)`. -/
theorem pv_apply (p : FVec Ideal S1x512x1024 .bf16) (vv : FVec Ideal S1x1024x1024 .bf16) (r : Fin 512) (e : Fin 1024) :
    FloatOps.matmul dot_S1x512x1024_S1x1024x1024_S1x512x1024_2_1_1_2_0_0 none p vv (constant (F := Ideal) S1x512x1024 .f32 0x00000000#32) (ix3 (0 : Fin 1) r e)
      = ∑ j : Fin 1024, p (ix3 (0 : Fin 1) r j) * vv (ix3 (0 : Fin 1) j e) := by
  rw [Ideal.matmul_constant_zero_apply, ← Equiv.sum_comp (contrEquiv1 dot_S1x512x1024_S1x1024x1024_S1x512x1024_2_1_1_2_0_0 1024 rfl rfl).symm]
  refine Finset.sum_congr rfl fun k _ => ?_
  have hk := contrEquiv1_symm_val dot_S1x512x1024_S1x1024x1024_S1x512x1024_2_1_1_2_0_0 1024 rfl rfl k
  have el : dot_S1x512x1024_S1x1024x1024_S1x512x1024_2_1_1_2_0_0.lhsIdx (ix3 (0 : Fin 1) r e) ((contrEquiv1 dot_S1x512x1024_S1x1024x1024_S1x512x1024_2_1_1_2_0_0 1024 rfl rfl).symm k) = ix3 (0 : Fin 1) r k := funext fun a => Fin.ext (by
    match a with
    | ⟨0, _⟩ => exact pv_lhs_0 _ _
    | ⟨1, _⟩ => exact pv_lhs_1 _ _
    | ⟨2, _⟩ => exact (pv_lhs_2 _ _).trans hk)
  have er : dot_S1x512x1024_S1x1024x1024_S1x512x1024_2_1_1_2_0_0.rhsIdx (ix3 (0 : Fin 1) r e) ((contrEquiv1 dot_S1x512x1024_S1x1024x1024_S1x512x1024_2_1_1_2_0_0 1024 rfl rfl).symm k) = ix3 (0 : Fin 1) k e := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-- The new weighted sum at row `r` and column `e`: the old one rescaled by the row's factor, plus the tile's
    exponentials against the value rows. -/
theorem pay2_apply (vv : FVec Ideal S1x1024x1024 .bf16) (a : FVec Ideal S1x512x1 .f32) (p : FVec Ideal S1x512x1024 .f32)
    (acc : Vec Ideal S1x512x1024 .f32) (r : Fin 512) (e : Fin 1024) :
    k2_pay2 (F := Ideal) vv a p acc (ix3 0 r e) = a (ix3 0 r 0) * acc (ix3 0 r e) + ∑ j : Fin 1024, p (ix3 0 r j) * vv (ix3 0 j e) := by
  unfold k2_pay2
  rw [shapeCast_self]
  simp only [addf_apply, mulf_apply]
  rw [lanes_apply]
  exact congrArg (a (ix3 0 r 0) * acc (ix3 0 r e) + ·) (pv_apply (truncf .bf16 p bitsLt_bf16_f32) vv r e)

/-! ## The output tile -/

/-- The output tile at row `r` and column `e`: the weighted sum divided by the row's normaliser. -/
theorem pay4_apply (acc : Vec Ideal S1x512x1024 .f32) (l : Vec Ideal S1x512x1 .f32) (r : Fin 512) (e : Fin 1024) :
    k2_pay4 (F := Ideal) acc l (ix3 0 r e) = Ideal.div (acc (ix3 0 r e)) (l (ix3 0 r 0)) := by
  unfold k2_pay4
  simp only [divf_apply]
  rw [lanes_apply]

/-! ## The resets -/

/-- The running maximum is reset to a fixed finite word. -/
theorem pay6_apply (i : S1x512x1.Idx) : k2_pay6 (F := Ideal) i = Ideal.ofBits .f32 0xFF333332#32 := by
  unfold k2_pay6
  rw [shapeCast_self]
  rfl

/-- The normaliser is reset to zero. -/
theorem pay7_apply (i : S1x512x1.Idx) : k2_pay7 (F := Ideal) i = 0 := by
  unfold k2_pay7
  rw [shapeCast_self]
  exact Ideal.ofBits_zero_f32

/-- The weighted sum is reset to zero. -/
theorem pay8_apply (i : S1x512x1024.Idx) : k2_pay8 (F := Ideal) i = 0 := by
  unfold k2_pay8
  rw [shapeCast_self]
  exact Ideal.ofBits_zero_f32

end Cert.KernelIdeal.HandValue

end
-- ==== Proof.Spec.lean ====
/-
  The specification of the computation, over the extended reals: three affine projections
  (a row of `x` against the rows of a weight matrix, plus a bias), the scaled and masked scores of
  every query row against every key row, a softmax over the keys, and the softmax-weighted sum of the
  projected value rows. One function `G` of the ten argument arrays gives the result at every index
  of the [8, 2048, 1024] output; `attend` is the softmax-weighted sum for one query row and one
  output column, as a function of that row's scores and that column's values.
-/
import Idealize.ShloMosaic.Lib.ValueIdx

noncomputable section

open scoped BigOperators

namespace Cert.Attn

open Idealize.ShloMosaic Idealize.ShloMosaic.ValueIdx

/-- A [8, 2048, 1024] array: batch, sequence position, feature. -/
abbrev Arr3 : Type := (⟨3, ![8, 2048, 1024]⟩ : Shape).Idx → EReal
/-- A [1024, 1024] weight matrix: output feature, input feature. -/
abbrev Mat : Type := (⟨2, ![1024, 1024]⟩ : Shape).Idx → EReal
/-- A [2048, 2048] additive mask: query position, key position. -/
abbrev Msk : Type := (⟨2, ![2048, 2048]⟩ : Shape).Idx → EReal
/-- A [1024] bias. -/
abbrev Bias : Type := (⟨1, ![1024]⟩ : Shape).Idx → EReal

/-- The affine projection `x · Wᵀ + c` at batch `b`, position `i`, output feature `e`:
    the dot product of row `(b, i)` of `x` with row `e` of `W`, plus `c e`. -/
def proj (x : Arr3) (W : Mat) (c : Bias) (b : Fin 8) (i : Fin 2048) (e : Fin 1024) : EReal :=
  (∑ d : Fin 1024, x (ix3 b i d) * W (ix2 e d)) + c (ix1 e)

/-- The score of query position `i` against key position `j` in batch `b`: the dot product of the
    projected query row and the projected key row, divided by 32 (the word `0x42000000`), plus the
    mask entry `(i, j)`. -/
def score (q k : Arr3) (mask : Msk) (Wq : Mat) (bq : Bias) (Wk : Mat) (bk : Bias)
    (b : Fin 8) (i j : Fin 2048) : EReal :=
  Ideal.div (∑ d : Fin 1024, proj q Wq bq b i d * proj k Wk bk b j d) (Ideal.ofBits .f32 0x42000000#32)
    + mask (ix2 i j)

/-- The maximum of a row of 2048 scores: the maximum, starting from `-∞` (the word `0xFF800000`),
    over the keys, then once more against `-∞`. -/
def rowMax (s : Fin 2048 → EReal) : EReal :=
  max (Ideal.ofBits .f32 0xFF800000#32)
    ((Finset.univ : Finset (Fin 2048)).fold max (Ideal.ofBits .f32 0xFF800000#32) s)

/-- The softmax's normaliser for a row of scores: zero (the word `0x00000000`) plus the sum over the
    keys of `exp (s j - rowMax s)`. -/
def rowSum (s : Fin 2048 → EReal) : EReal :=
  Ideal.ofBits .f32 0x00000000#32 + ∑ j : Fin 2048, Ideal.exp (s j - rowMax s)

/-- The softmax of the scores `s` applied to the values `w`: the sum over the keys of
    `exp (s j - rowMax s) / rowSum s` times `w j`. -/
def attend (s w : Fin 2048 → EReal) : EReal :=
  ∑ j : Fin 2048, Ideal.div (Ideal.exp (s j - rowMax s)) (rowSum s) * w j

/-- The result at index `(b, i, e)`: the softmax over the keys `j` of the scores of query `(b, i)`,
    applied to column `e` of the projected values of batch `b`. -/
def G (q k v : Arr3) (mask : Msk) (Wq : Mat) (bq : Bias) (Wk : Mat) (bk : Bias) (Wv : Mat) (bv : Bias) : Arr3 :=
  fun i => attend (fun j => score q k mask Wq bq Wk bk (i 0) (i 1) j) (fun j => proj v Wv bv (i 0) j (i 2))

/-- `G` at an index given by its coordinates. -/
theorem G_ix3 (q k v : Arr3) (mask : Msk) (Wq : Mat) (bq : Bias) (Wk : Mat) (bk : Bias) (Wv : Mat) (bv : Bias)
    (b : Fin 8) (i : Fin 2048) (e : Fin 1024) :
    G q k v mask Wq bq Wk bk Wv bv (ix3 b i e)
      = attend (fun j => score q k mask Wq bq Wk bk b i j) (fun j => proj v Wv bv b j e) := rfl

/-- The word `0xFF800000` is `-∞`. -/
theorem negInf_eq : Ideal.ofBits .f32 0xFF800000#32 = (⊥ : EReal) := by simp [Ideal.ofBits, Ideal.ieee]

/-- The word `0x00000000` is zero. -/
theorem zero_eq : Ideal.ofBits .f32 0x00000000#32 = (0 : EReal) := by simp [Ideal.ofBits, Ideal.ieee]

/-- The row maximum is the maximum over the keys starting from `-∞`. -/
theorem rowMax_eq (s : Fin 2048 → EReal) :
    rowMax s = (Finset.univ : Finset (Fin 2048)).fold max (⊥ : EReal) s := by
  unfold rowMax
  rw [negInf_eq]
  exact max_eq_right bot_le

/-- The normaliser is the sum over the keys of `exp (s j - rowMax s)`. -/
theorem rowSum_eq (s : Fin 2048 → EReal) : rowSum s = ∑ j : Fin 2048, Ideal.exp (s j - rowMax s) := by
  unfold rowSum
  rw [zero_eq, zero_add]

end Cert.Attn

end
-- ==== Proof.LibOnline.lean ====
/-
  General lemmas on the extended reals for a softmax computed chunk by chunk.

  A row of finite scores `s : ι → ℝ` is split into chunks. The ONLINE computation keeps a running maximum `M` and a
  running sum `L` of `exp (s - M)`; a chunk with maximum `m'` and scores `s'` updates them to
  `M' = max M m'` and `L' = L * exp (M - M') + ∑ exp (s' - M')`. Because `exp (x - M) * exp (M - M') = exp (x - M')`
  on the reals, `L'` is again the sum of `exp (· - M')` over everything seen; started from `M = -∞`, `L = 0` (where
  `exp (-∞ - M') = 0` kills the empty prefix), the final pair is the maximum and the softmax denominator of the whole
  row. The same identity combines partial pairs `(M_c, L_c)` of disjoint parts: `∑_c L_c * exp (M_c - G)` with
  `G = max_c M_c` is the denominator at `G`.
-/
import Idealize.ShloMosaic.PureOps.Ideal.Laws

noncomputable section

namespace Cert.LibOnline

open Idealize.ShloMosaic

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals read in the extended reals, folded from `-∞`, is a real when there is at least one. -/
theorem sup_coe_real {ι : Type*} (s : Finset ι) (hs : s.Nonempty) (f : ι → ℝ) :
    ∃ g : ℝ, s.sup (fun i => (f i : EReal)) = (g : EReal) ∧ (∀ i ∈ s, f i ≤ g) := by
  obtain ⟨i, hi, h⟩ := Finset.exists_mem_eq_sup s hs (fun i => (f i : EReal))
  refine ⟨f i, h, fun j hj => ?_⟩
  have : ((f j : ℝ) : EReal) ≤ s.sup (fun i => (f i : EReal)) := Finset.le_sup (f := fun i => (f i : EReal)) hj
  rw [h] at this
  exact EReal.coe_le_coe_iff.mp this

/-- `Finset.fold max ⊥` is the finite supremum. -/
theorem fold_max_eq_sup {ι : Type*} (s : Finset ι) (f : ι → EReal) : s.fold max ⊥ f = s.sup f := rfl

/-- The exponential of a difference of reals, in the extended reals. -/
theorem exp_coe_sub (x y : ℝ) : Ideal.exp ((x : EReal) - (y : EReal)) = ((Real.exp (x - y) : ℝ) : EReal) := by
  rw [← EReal.coe_sub, Ideal.exp_coe]

/-- The exponential of `-∞ - y` is zero. -/
theorem exp_bot_sub (y : ℝ) : Ideal.exp ((⊥ : EReal) - (y : EReal)) = 0 := by
  rw [EReal.bot_sub, Ideal.exp_bot]

/-- ONE ONLINE STEP, from a real running maximum: the rescaled old sum plus the new chunk's sum is the sum over both. -/
theorem online_step {ι κ : Type*} (A : Finset ι) (B : Finset κ) (s : ι → ℝ) (s' : κ → ℝ) (a b : ℝ) :
    (∑ i ∈ A, Ideal.exp ((s i : EReal) - (a : EReal))) * Ideal.exp ((a : EReal) - (b : EReal))
        + ∑ k ∈ B, Ideal.exp ((s' k : EReal) - (b : EReal))
      = ∑ i ∈ A, Ideal.exp ((s i : EReal) - (b : EReal)) + ∑ k ∈ B, Ideal.exp ((s' k : EReal) - (b : EReal)) := by
  congr 1
  simp only [exp_coe_sub]
  rw [← coe_sum, ← coe_sum, ← EReal.coe_mul, Finset.sum_mul]
  congr 1
  refine Finset.sum_congr rfl fun i _ => ?_
  rw [← Real.exp_add]
  congr 1; ring

/-- THE FIRST STEP, from `M = -∞`, `L = 0`: the empty prefix contributes nothing. -/
theorem online_first (b : ℝ) (T : EReal) : (0 : EReal) * Ideal.exp ((⊥ : EReal) - (b : EReal)) + T = T := by
  rw [zero_mul, zero_add]

/-! ## The whole recurrence -/

section Recurrence

variable {P : Type*} [Fintype P] [Nonempty P]

/-- The chunk maximum, folded from `-∞`. -/
def cmax (s : ℕ → P → ℝ) (i : ℕ) : EReal := Finset.univ.sup fun p => (s i p : EReal)

/-- The running maximum after chunk `i`, started from `-∞`. -/
def runM (s : ℕ → P → ℝ) : ℕ → EReal
  | 0 => max ⊥ (cmax s 0)
  | i + 1 => max (runM s i) (cmax s (i + 1))

/-- The running sum after chunk `i`, started from `0` beside the maximum `-∞`. -/
def runL (s : ℕ → P → ℝ) : ℕ → EReal
  | 0 => (0 : EReal) * Ideal.exp ((⊥ : EReal) - runM s 0) + ∑ p, Ideal.exp ((s 0 p : EReal) - runM s 0)
  | i + 1 => runL s i * Ideal.exp (runM s i - runM s (i + 1)) + ∑ p, Ideal.exp ((s (i + 1) p : EReal) - runM s (i + 1))

theorem cmax_real (s : ℕ → P → ℝ) (i : ℕ) : ∃ a : ℝ, cmax s i = (a : EReal) := by
  obtain ⟨g, hg, -⟩ := sup_coe_real (Finset.univ : Finset P) Finset.univ_nonempty (s i)
  exact ⟨g, hg⟩

theorem runM_real (s : ℕ → P → ℝ) : ∀ i, ∃ a : ℝ, runM s i = (a : EReal)
  | 0 => by
    obtain ⟨a, ha⟩ := cmax_real s 0
    exact ⟨a, by show max ⊥ (cmax s 0) = _; rw [ha, max_eq_right bot_le]⟩
  | i + 1 => by
    obtain ⟨a, ha⟩ := runM_real s i
    obtain ⟨b, hb⟩ := cmax_real s (i + 1)
    exact ⟨max a b, by show max (runM s i) (cmax s (i + 1)) = _; rw [ha, hb]; exact (EReal.coe_strictMono.monotone.map_max).symm⟩

/-- The running maximum is the maximum over every chunk seen. -/
theorem runM_eq_sup (s : ℕ → P → ℝ) : ∀ i, runM s i = (Finset.range (i + 1)).sup fun i' => cmax s i'
  | 0 => by
    show max ⊥ (cmax s 0) = _
    rw [max_eq_right bot_le, Finset.range_one, Finset.sup_singleton]
  | i + 1 => by
    show max (runM s i) (cmax s (i + 1)) = _
    rw [runM_eq_sup s i, Finset.range_add_one (n := i + 1), Finset.sup_insert, max_comm]

/-- THE INVARIANT: the running sum is the sum, over every chunk seen, of `exp (score - running maximum)`. -/
theorem runL_eq_sum (s : ℕ → P → ℝ) : ∀ i,
    runL s i = ∑ i' ∈ Finset.range (i + 1), ∑ p, Ideal.exp ((s i' p : EReal) - runM s i)
  | 0 => by
    show (0 : EReal) * Ideal.exp ((⊥ : EReal) - runM s 0) + _ = _
    rw [zero_mul, zero_add, Finset.range_one, Finset.sum_singleton]
  | i + 1 => by
    obtain ⟨a, ha⟩ := runM_real s i
    obtain ⟨b, hb⟩ := runM_real s (i + 1)
    show runL s i * Ideal.exp (runM s i - runM s (i + 1)) + _ = _
    rw [runL_eq_sum s i, Finset.sum_range_succ (n := i + 1), ha, hb]
    congr 1
    -- the seen chunks, rescaled from `a` to `b`
    have hcoe : ∀ (x y : ℝ), Ideal.exp ((x : EReal) - (y : EReal)) = ((Real.exp (x - y) : ℝ) : EReal) := exp_coe_sub
    simp only [hcoe]
    simp only [← coe_sum]
    rw [← EReal.coe_mul, Finset.sum_mul]
    congr 1
    refine Finset.sum_congr rfl fun i' _ => ?_
    rw [Finset.sum_mul]
    refine Finset.sum_congr rfl fun p _ => ?_
    rw [← Real.exp_add]
    congr 1; ring

end Recurrence

end Cert.LibOnline

end
-- ==== Proof.Online.lean ====
/-
  The law that joins a softmax computed in one pass over all 2048 keys with the same softmax computed
  tile by tile over two tiles of 1024 keys, with a running maximum, a running normaliser and a running
  weighted sum that are rescaled when the maximum moves.

  Over the reals the softmax-weighted sum `∑ exp (s j - c) w j / ∑ exp (s j - c)` does not depend on
  the shift `c`, because `exp (s - c) = exp (-c) · exp s` and the factor cancels. The tiled
  computation rescales what the first tile left by `exp (m₁ - m₂)`, and
  `exp (m₁ - m₂) · exp (s - m₁) = exp (s - m₂)`, so after the second tile the running weighted sum and the
  running normaliser are the sums over both tiles shifted by `m₂`; their quotient is the shift-free
  softmax-weighted sum. Only finiteness of the shifts is used (never that they are maxima): the scores
  are real numbers, so every maximum of them, and the maximum with a real starting value, is a real
  number, and on real numbers the extended reals' sum, product, exponential and quotient are the reals'.
-/
import proofs.«170906_j52518860096512_2_alg».proof.Proof.Spec
import proofs.«170906_j52518860096512_2_alg».proof.Proof.LibOnline

noncomputable section

open scoped BigOperators

namespace Cert.Attn

open Idealize.ShloMosaic

/-! ## Over the reals -/

/-- A common shift leaves a weighted sum of exponentials as the factor `exp (-c)`. -/
theorem sum_exp_sub_mul {J : Type*} [Fintype J] (s w : J → ℝ) (c : ℝ) :
    ∑ j, Real.exp (s j - c) * w j = Real.exp (-c) * ∑ j, Real.exp (s j) * w j := by
  rw [Finset.mul_sum]
  refine Finset.sum_congr rfl fun j _ => ?_
  rw [sub_eq_add_neg, Real.exp_add]; ring

/-- A common shift leaves a sum of exponentials as the factor `exp (-c)`. -/
theorem sum_exp_sub {J : Type*} [Fintype J] (s : J → ℝ) (c : ℝ) :
    ∑ j, Real.exp (s j - c) = Real.exp (-c) * ∑ j, Real.exp (s j) := by
  rw [Finset.mul_sum]
  refine Finset.sum_congr rfl fun j _ => ?_
  rw [sub_eq_add_neg, Real.exp_add]; ring

/-- Two tiles, over the reals: the rescaled first tile plus the second, over the same for the
    normaliser, is the softmax-weighted sum over both tiles at any shift `M`. -/
theorem real_two_tiles {J₀ J₁ : Type*} [Fintype J₀] [Fintype J₁] [Nonempty J₁] (s₀ w₀ : J₀ → ℝ) (s₁ w₁ : J₁ → ℝ)
    (m₁ m₂ M : ℝ) :
    (Real.exp (m₁ - m₂) * (∑ j, Real.exp (s₀ j - m₁) * w₀ j) + ∑ j, Real.exp (s₁ j - m₂) * w₁ j)
        / (Real.exp (m₁ - m₂) * (∑ j, Real.exp (s₀ j - m₁)) + ∑ j, Real.exp (s₁ j - m₂))
      = ∑ j, Real.exp (s₀ j - M) / (∑ j, Real.exp (s₀ j - M) + ∑ j, Real.exp (s₁ j - M)) * w₀ j
        + ∑ j, Real.exp (s₁ j - M) / (∑ j, Real.exp (s₀ j - M) + ∑ j, Real.exp (s₁ j - M)) * w₁ j := by
  have hB₁ : 0 < ∑ j, Real.exp (s₁ j) := Finset.sum_pos (fun j _ => Real.exp_pos _) Finset.univ_nonempty
  have hB₀ : 0 ≤ ∑ j, Real.exp (s₀ j) := Finset.sum_nonneg fun j _ => (Real.exp_pos _).le
  have hB : (∑ j, Real.exp (s₀ j)) + ∑ j, Real.exp (s₁ j) ≠ 0 := (add_pos_of_nonneg_of_pos hB₀ hB₁).ne'
  have e12 : ∀ x : ℝ, Real.exp (m₁ - m₂) * (Real.exp (-m₁) * x) = Real.exp (-m₂) * x := fun x => by
    rw [← mul_assoc, ← Real.exp_add]; congr 2; ring
  have hR₀ : ∀ L : ℝ, ∑ j, Real.exp (s₀ j - M) / L * w₀ j = (∑ j, Real.exp (s₀ j - M) * w₀ j) / L := fun L => by
    rw [Finset.sum_div]; exact Finset.sum_congr rfl fun j _ => by rw [div_mul_eq_mul_div]
  have hR₁ : ∀ L : ℝ, ∑ j, Real.exp (s₁ j - M) / L * w₁ j = (∑ j, Real.exp (s₁ j - M) * w₁ j) / L := fun L => by
    rw [Finset.sum_div]; exact Finset.sum_congr rfl fun j _ => by rw [div_mul_eq_mul_div]
  rw [hR₀, hR₁]
  simp only [sum_exp_sub_mul, sum_exp_sub, e12]
  rw [← mul_add, ← mul_add, ← mul_add, mul_div_mul_left _ _ (Real.exp_pos (-m₂)).ne', ← add_div, ← mul_add,
    mul_div_mul_left _ _ (Real.exp_pos (-M)).ne']

/-! ## On the extended reals, at real entries -/

/-- The quotient of two reals, the divisor not zero, is the reals' quotient. -/
theorem div_coe_coe (x y : ℝ) (hy : y ≠ 0) : Ideal.div (x : EReal) (y : EReal) = ((x / y : ℝ) : EReal) := by
  rw [Ideal.div_coe hy, ← EReal.coe_mul, mul_one_div]

/-- Two tiles, on the extended reals, every score, value and shift a real number. -/
theorem ereal_two_tiles {J₀ J₁ : Type*} [Fintype J₀] [Fintype J₁] [Nonempty J₁] (s₀ w₀ : J₀ → ℝ) (s₁ w₁ : J₁ → ℝ)
    (m₀ m₁ m₂ M : ℝ) :
    Ideal.div
        (Ideal.exp ((m₁ : EReal) - (m₂ : EReal))
            * (Ideal.exp ((m₀ : EReal) - (m₁ : EReal)) * 0 + ∑ j, Ideal.exp ((s₀ j : EReal) - (m₁ : EReal)) * (w₀ j : EReal))
          + ∑ j, Ideal.exp ((s₁ j : EReal) - (m₂ : EReal)) * (w₁ j : EReal))
        (Ideal.exp ((m₁ : EReal) - (m₂ : EReal))
            * (Ideal.exp ((m₀ : EReal) - (m₁ : EReal)) * 0 + ∑ j, Ideal.exp ((s₀ j : EReal) - (m₁ : EReal)))
          + ∑ j, Ideal.exp ((s₁ j : EReal) - (m₂ : EReal)))
      = ∑ j, Ideal.div (Ideal.exp ((s₀ j : EReal) - (M : EReal)))
            (∑ j, Ideal.exp ((s₀ j : EReal) - (M : EReal)) + ∑ j, Ideal.exp ((s₁ j : EReal) - (M : EReal))) * (w₀ j : EReal)
        + ∑ j, Ideal.div (Ideal.exp ((s₁ j : EReal) - (M : EReal)))
            (∑ j, Ideal.exp ((s₀ j : EReal) - (M : EReal)) + ∑ j, Ideal.exp ((s₁ j : EReal) - (M : EReal))) * (w₁ j : EReal) := by
  have hL : (∑ j, Real.exp (s₀ j - M)) + ∑ j, Real.exp (s₁ j - M) ≠ 0 :=
    (add_pos_of_nonneg_of_pos (Finset.sum_nonneg fun j _ => (Real.exp_pos _).le)
      (Finset.sum_pos (fun j _ => Real.exp_pos _) Finset.univ_nonempty)).ne'
  have hD : Real.exp (m₁ - m₂) * (∑ j, Real.exp (s₀ j - m₁)) + ∑ j, Real.exp (s₁ j - m₂) ≠ 0 :=
    (add_pos_of_nonneg_of_pos (mul_nonneg (Real.exp_pos _).le (Finset.sum_nonneg fun j _ => (Real.exp_pos _).le))
      (Finset.sum_pos (fun j _ => Real.exp_pos _) Finset.univ_nonempty)).ne'
  simp only [Cert.LibOnline.exp_coe_sub, mul_zero, zero_add]
  have hEL : (∑ j, ((Real.exp (s₀ j - M) : ℝ) : EReal)) + ∑ j, ((Real.exp (s₁ j - M) : ℝ) : EReal)
      = (((∑ j, Real.exp (s₀ j - M)) + ∑ j, Real.exp (s₁ j - M) : ℝ) : EReal) := by
    simp only [← Cert.LibOnline.coe_sum, ← EReal.coe_add]
  rw [hEL]
  have hR₀ : ∀ j, Ideal.div ((Real.exp (s₀ j - M) : ℝ) : EReal)
        (((∑ j, Real.exp (s₀ j - M)) + ∑ j, Real.exp (s₁ j - M) : ℝ) : EReal) * (w₀ j : EReal)
      = ((Real.exp (s₀ j - M) / ((∑ j, Real.exp (s₀ j - M)) + ∑ j, Real.exp (s₁ j - M)) * w₀ j : ℝ) : EReal) := fun j => by
    rw [div_coe_coe _ _ hL, ← EReal.coe_mul]
  have hR₁ : ∀ j, Ideal.div ((Real.exp (s₁ j - M) : ℝ) : EReal)
        (((∑ j, Real.exp (s₀ j - M)) + ∑ j, Real.exp (s₁ j - M) : ℝ) : EReal) * (w₁ j : EReal)
      = ((Real.exp (s₁ j - M) / ((∑ j, Real.exp (s₀ j - M)) + ∑ j, Real.exp (s₁ j - M)) * w₁ j : ℝ) : EReal) := fun j => by
    rw [div_coe_coe _ _ hL, ← EReal.coe_mul]
  simp only [hR₀, hR₁, ← EReal.coe_mul, ← Cert.LibOnline.coe_sum, ← EReal.coe_add]
  rw [div_coe_coe _ _ hD, real_two_tiles s₀ w₀ s₁ w₁ m₁ m₂ M]

/-! ## The tiled computation -/

section Tiles

variable {J : Type*} [Fintype J]

/-- The running maximum after a tile: the maximum of the running value and the tile's maximum, the
    latter taken from `-∞`. -/
def tileMax (m : EReal) (s : J → EReal) : EReal := max m ((Finset.univ : Finset J).fold max ⊥ s)

/-- The running normaliser after a tile: the old one rescaled to the new maximum, plus the tile's sum. -/
def tileSum (m l : EReal) (s : J → EReal) : EReal :=
  Ideal.exp (m - tileMax m s) * l + ∑ j, Ideal.exp (s j - tileMax m s)

/-- The running weighted sum after a tile: the old one rescaled to the new maximum, plus the tile's
    weighted sum. -/
def tileAcc (m acc : EReal) (s w : J → EReal) : EReal :=
  Ideal.exp (m - tileMax m s) * acc + ∑ j, Ideal.exp (s j - tileMax m s) * w j

/-- From a real running value, over real scores, the running maximum after a tile is a real number. -/
theorem tileMax_coe [Nonempty J] (m : ℝ) (s : J → ℝ) :
    ∃ r : ℝ, tileMax (m : EReal) (fun j => (s j : EReal)) = (r : EReal) := by
  obtain ⟨g, hg, -⟩ := Cert.LibOnline.sup_coe_real (Finset.univ : Finset J) Finset.univ_nonempty s
  refine ⟨max m g, ?_⟩
  unfold tileMax
  rw [Cert.LibOnline.fold_max_eq_sup, hg]
  exact (EReal.coe_strictMono.monotone.map_max).symm

end Tiles

/-- A sum over the 2048 keys is the sum over the first 1024 plus the sum over the last 1024. -/
theorem sum_two_tiles (e₀ e₁ : Fin 1024 → Fin 2048) (he₀ : ∀ j, (e₀ j).val = j.val)
    (he₁ : ∀ j, (e₁ j).val = 1024 + j.val) (f : Fin 2048 → EReal) :
    ∑ j, f j = ∑ j, f (e₀ j) + ∑ j, f (e₁ j) := by
  have h := Fin.sum_univ_add (a := 1024) (b := 1024) (f : Fin (1024 + 1024) → EReal)
  have h₀ : ∀ j : Fin 1024, (Fin.castAdd 1024 j : Fin (1024 + 1024)) = e₀ j := fun j =>
    Fin.ext (by rw [he₀]; rfl)
  have h₁ : ∀ j : Fin 1024, (Fin.natAdd 1024 j : Fin (1024 + 1024)) = e₁ j := fun j =>
    Fin.ext (by rw [he₁]; rfl)
  simp only [h₀, h₁] at h
  exact h

/-- THE LAW. Real scores `sr` and values `wr` over the 2048 keys, read in two tiles of 1024 keys
    (`e₀` the first 1024 key positions, `e₁` the last 1024), the running maximum started at any real
    number `m₀`, the running normaliser and the running weighted sum at zero: the quotient of the
    weighted sum by the normaliser after the second tile is the softmax of all the scores applied to
    all the values. -/
theorem attend_two_tiles (sr wr : Fin 2048 → ℝ) (m₀ : ℝ) (e₀ e₁ : Fin 1024 → Fin 2048)
    (he₀ : ∀ j, (e₀ j).val = j.val) (he₁ : ∀ j, (e₁ j).val = 1024 + j.val) :
    Ideal.div
        (tileAcc (tileMax (m₀ : EReal) (fun j => (sr (e₀ j) : EReal)))
          (tileAcc (m₀ : EReal) 0 (fun j => (sr (e₀ j) : EReal)) (fun j => (wr (e₀ j) : EReal)))
          (fun j => (sr (e₁ j) : EReal)) (fun j => (wr (e₁ j) : EReal)))
        (tileSum (tileMax (m₀ : EReal) (fun j => (sr (e₀ j) : EReal)))
          (tileSum (m₀ : EReal) 0 (fun j => (sr (e₀ j) : EReal)))
          (fun j => (sr (e₁ j) : EReal)))
      = attend (fun j => (sr j : EReal)) (fun j => (wr j : EReal)) := by
  haveI : Nonempty (Fin 1024) := ⟨⟨0, by decide⟩⟩
  obtain ⟨M₁, hM₁⟩ := tileMax_coe m₀ (fun j => sr (e₀ j))
  obtain ⟨M₂, hM₂⟩ := tileMax_coe M₁ (fun j => sr (e₁ j))
  obtain ⟨M, hM, -⟩ := Cert.LibOnline.sup_coe_real (Finset.univ : Finset (Fin 2048)) ⟨⟨0, by decide⟩, Finset.mem_univ _⟩ sr
  have hrm : rowMax (fun j => (sr j : EReal)) = (M : EReal) := by
    rw [rowMax_eq, Cert.LibOnline.fold_max_eq_sup, hM]
  unfold tileAcc tileSum attend
  rw [rowSum_eq, hrm]
  simp only [hM₁]
  simp only [hM₂]
  rw [ereal_two_tiles (fun j => sr (e₀ j)) (fun j => wr (e₀ j)) (fun j => sr (e₁ j)) (fun j => wr (e₁ j)) m₀ M₁ M₂ M]
  rw [sum_two_tiles e₀ e₁ he₀ he₁ (fun j => Ideal.exp ((sr j : EReal) - (M : EReal)))]
  rw [sum_two_tiles e₀ e₁ he₀ he₁ (fun j => Ideal.div (Ideal.exp ((sr j : EReal) - (M : EReal)))
    (∑ j, Ideal.exp ((sr (e₀ j) : EReal) - (M : EReal)) + ∑ j, Ideal.exp ((sr (e₁ j) : EReal) - (M : EReal))) * (wr j : EReal))]

/-! ## The constants, and real entries give real scores and values -/

/-- The word `0x42000000` is 32. -/
theorem thirtytwo_eq : Ideal.ofBits .f32 0x42000000#32 = ((32 : ℝ) : EReal) := by
  simp [Ideal.ofBits, Ideal.ieee, -EReal.coe_mul]; norm_num

/-- The word `0x3D000000` is 1/32. -/
theorem inv_thirtytwo_eq : Ideal.ofBits .f32 0x3D000000#32 = ((1 / 32 : ℝ) : EReal) := by
  simp [Ideal.ofBits, Ideal.ieee, -EReal.coe_mul]; norm_num

/-- Dividing by 32 is multiplying by 1/32, at the infinities too. -/
theorem div_thirtytwo (x : EReal) :
    Ideal.div x (Ideal.ofBits .f32 0x42000000#32) = x * Ideal.ofBits .f32 0x3D000000#32 := by
  rw [thirtytwo_eq, inv_thirtytwo_eq, Ideal.div_coe (by norm_num)]

/-- The word `0xFF333332` is a real number (a large negative one). -/
theorem startWord_real : ∃ r : ℝ, Ideal.ofBits .f32 0xFF333332#32 = (r : EReal) := by
  refine ⟨-(11744050 : ℝ) * 2 ^ (104 : ℤ), ?_⟩
  simp [Ideal.ofBits, Ideal.ieee, -EReal.coe_mul]

/-- With real entries a projected entry is a real number. -/
theorem proj_real (x : Arr3) (W : Mat) (c : Bias) (hx : ∀ i, ∃ r : ℝ, x i = (r : EReal))
    (hW : ∀ i, ∃ r : ℝ, W i = (r : EReal)) (hc : ∀ i, ∃ r : ℝ, c i = (r : EReal))
    (b : Fin 8) (i : Fin 2048) (e : Fin 1024) : ∃ r : ℝ, proj x W c b i e = (r : EReal) := by
  choose x' hx' using hx
  choose W' hW' using hW
  choose c' hc' using hc
  refine ⟨(∑ d : Fin 1024, x' (ValueIdx.ix3 b i d) * W' (ValueIdx.ix2 e d)) + c' (ValueIdx.ix1 e), ?_⟩
  unfold proj
  simp only [hx', hW', hc', ← EReal.coe_mul, ← Cert.LibOnline.coe_sum, ← EReal.coe_add]

/-- With real entries a score is a real number. -/
theorem score_real (q k : Arr3) (mask : Msk) (Wq : Mat) (bq : Bias) (Wk : Mat) (bk : Bias)
    (hq : ∀ i, ∃ r : ℝ, q i = (r : EReal)) (hk : ∀ i, ∃ r : ℝ, k i = (r : EReal))
    (hm : ∀ i, ∃ r : ℝ, mask i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (b : Fin 8) (i j : Fin 2048) : ∃ r : ℝ, score q k mask Wq bq Wk bk b i j = (r : EReal) := by
  have hpq := fun d => proj_real q Wq bq hq hWq hbq b i d
  have hpk := fun d => proj_real k Wk bk hk hWk hbk b j d
  choose pq hpq' using hpq
  choose pk hpk' using hpk
  obtain ⟨mr, hmr⟩ := hm (ValueIdx.ix2 i j)
  refine ⟨(∑ d : Fin 1024, pq d * pk d) * (1 / 32 : ℝ) + mr, ?_⟩
  unfold score
  rw [div_thirtytwo, inv_thirtytwo_eq, hmr]
  simp only [hpq', hpk', ← EReal.coe_mul, ← Cert.LibOnline.coe_sum, ← EReal.coe_add]

end Cert.Attn

end
-- ==== Proof.FlashTile.lean ====
/-
  One query tile against the two key tiles. At the first key tile the kernel projects the query rows and starts the
  running maximum at a finite word, the running normaliser and the running weighted sum at zero; each key tile then
  replaces the maximum by the larger of itself and the tile's row maximum, rescales normaliser and weighted sum by
  the exponential of the maximum's decrease and adds the tile's exponentials (times the tile's value rows). After
  the second tile the output row is the weighted sum over the normaliser. When the scores and the values are real
  numbers this quotient is the softmax of all 2048 scores applied to all 2048 value rows.
-/
import proofs.«170906_j52518860096512_2_alg».proof.Proof.FlashPayScore
import proofs.«170906_j52518860096512_2_alg».proof.Proof.FlashPayAcc
import proofs.«170906_j52518860096512_2_alg».proof.Proof.Online

noncomputable section

namespace Cert.KernelIdeal.HandValue

open Cert.KernelIdeal Cert.KernelIdeal.Gen
open Idealize.ShloMosaic Idealize.ShloMosaic.ValueIdx
open Cert.Attn

/-- The first 1024 key positions, and the last 1024. -/
def keyLo (j : Fin 1024) : Fin 2048 := ⟨j.val, by omega⟩
def keyHi (j : Fin 1024) : Fin 2048 := ⟨1024 + j.val, by omega⟩
theorem keyLo_val (j : Fin 1024) : (keyLo j).val = j.val := rfl
theorem keyHi_val (j : Fin 1024) : (keyHi j).val = 1024 + j.val := rfl

variable (x0 : Vec Ideal S1x512x1024 .f32) (x1 : Vec Ideal S1024x1024 .bf16) (x2 : Vec Ideal S1024 .f32)
  (ka kb va vb : Vec Ideal S1x1024x1024 .bf16) (ma mb : Vec Ideal S512x1024 .bf16)

/-- The projected query tile. -/
def tQ : Vec Ideal S1x512x1024 .bf16 := k2_pay5 x0 x1 x2
/-- After the first key tile: running maximum, normaliser, weighted sum. -/
def tM1 : Vec Ideal S1x512x1 .f32 := k2_pay3 (k2_pay11 (tQ x0 x1 x2) ka ma (k2_pay6 (F := Ideal)))
def tL1 : Vec Ideal S1x512x1 .f32 := k2_pay1 (k2_pay14 (tQ x0 x1 x2) ka ma (k2_pay6 (F := Ideal)) (k2_pay7 (F := Ideal)))
def tA1 : Vec Ideal S1x512x1024 .f32 :=
  k2_pay2 (k2_pay9 va) (k2_pay12 (tQ x0 x1 x2) ka ma (k2_pay6 (F := Ideal))) (k2_pay13 (tQ x0 x1 x2) ka ma (k2_pay6 (F := Ideal))) (k2_pay8 (F := Ideal))
/-- After the second key tile. -/
def tL2 : Vec Ideal S1x512x1 .f32 :=
  k2_pay1 (k2_pay14 (tQ x0 x1 x2) kb mb (tM1 x0 x1 x2 ka ma) (tL1 x0 x1 x2 ka ma))
def tA2 : Vec Ideal S1x512x1024 .f32 :=
  k2_pay2 (k2_pay9 vb) (k2_pay12 (tQ x0 x1 x2) kb mb (tM1 x0 x1 x2 ka ma)) (k2_pay13 (tQ x0 x1 x2) kb mb (tM1 x0 x1 x2 ka ma))
    (tA1 x0 x1 x2 ka va ma)
/-- The output tile. -/
def tOut : Vec Ideal S1x512x1024 .f32 := k2_pay4 (tA2 x0 x1 x2 ka kb va vb ma mb) (tL2 x0 x1 x2 ka kb ma mb)

/-- The output row `r`, column `e`, is the softmax of the 2048 real scores applied to the 2048 real values, once the
    scores of the two tiles are the two halves of `sr` and the value entries the two halves of `wr`. -/
theorem tOut_apply (r : Fin 512) (e : Fin 1024) (sr wr : Fin 2048 → ℝ)
    (hs0 : ∀ j : Fin 1024, k2_pay10 (tQ x0 x1 x2) ka ma (ix3 0 r j) = (sr (keyLo j) : EReal))
    (hs1 : ∀ j : Fin 1024, k2_pay10 (tQ x0 x1 x2) kb mb (ix3 0 r j) = (sr (keyHi j) : EReal))
    (hw0 : ∀ j : Fin 1024, va (ix3 0 j e) = (wr (keyLo j) : EReal))
    (hw1 : ∀ j : Fin 1024, vb (ix3 0 j e) = (wr (keyHi j) : EReal)) :
    tOut x0 x1 x2 ka kb va vb ma mb (ix3 0 r e) = attend (fun j => (sr j : EReal)) (fun j => (wr j : EReal)) := by
  obtain ⟨m₀, hm₀⟩ := startWord_real
  have e0 : (fun j : Fin 1024 => k2_pay10 (tQ x0 x1 x2) ka ma (ix3 0 r j)) = fun j => (sr (keyLo j) : EReal) := funext hs0
  have e1 : (fun j : Fin 1024 => k2_pay10 (tQ x0 x1 x2) kb mb (ix3 0 r j)) = fun j => (sr (keyHi j) : EReal) := funext hs1
  -- the running maximum after each tile
  have hM1 : tM1 x0 x1 x2 ka ma (ix3 0 r 0) = tileMax (m₀ : EReal) (fun j => (sr (keyLo j) : EReal)) := by
    unfold tM1; rw [pay3_eq, pay11_apply, pay6_apply, hm₀, e0]; rfl
  have hM2 : k2_pay11 (tQ x0 x1 x2) kb mb (tM1 x0 x1 x2 ka ma) (ix3 0 r 0)
      = tileMax (tileMax (m₀ : EReal) (fun j => (sr (keyLo j) : EReal))) (fun j => (sr (keyHi j) : EReal)) := by
    rw [pay11_apply, hM1, e1]; rfl
  have hM1' : k2_pay11 (tQ x0 x1 x2) ka ma (k2_pay6 (F := Ideal)) (ix3 0 r 0) = tileMax (m₀ : EReal) (fun j => (sr (keyLo j) : EReal)) := by
    rw [pay11_apply, pay6_apply, hm₀, e0]; rfl
  -- the normaliser
  have hL1 : tL1 x0 x1 x2 ka ma (ix3 0 r 0) = tileSum (m₀ : EReal) 0 (fun j => (sr (keyLo j) : EReal)) := by
    unfold tL1 tileSum
    rw [pay1_eq, pay14_apply, pay12_apply, pay7_apply, hM1', pay6_apply, hm₀, zero_add]
    refine congrArg _ (Finset.sum_congr rfl fun j _ => ?_)
    rw [pay13_apply, hM1', hs0]
  have hL2 : tL2 x0 x1 x2 ka kb ma mb (ix3 0 r 0)
      = tileSum (tileMax (m₀ : EReal) (fun j => (sr (keyLo j) : EReal))) (tileSum (m₀ : EReal) 0 (fun j => (sr (keyLo j) : EReal)))
          (fun j => (sr (keyHi j) : EReal)) := by
    unfold tL2 tileSum
    rw [pay1_eq, pay14_apply, pay12_apply, hM2, hM1, hL1, zero_add]
    refine congrArg _ (Finset.sum_congr rfl fun j _ => ?_)
    rw [pay13_apply, hM2, hs1]
  -- the weighted sum
  have hA1 : tA1 x0 x1 x2 ka va ma (ix3 0 r e)
      = tileAcc (m₀ : EReal) 0 (fun j => (sr (keyLo j) : EReal)) (fun j => (wr (keyLo j) : EReal)) := by
    unfold tA1 tileAcc
    rw [pay2_apply, pay12_apply, pay8_apply, hM1', pay6_apply, hm₀]
    refine congrArg _ (Finset.sum_congr rfl fun j _ => ?_)
    rw [pay13_apply, hM1', hs0, pay9_eq, hw0]
  have hA2 : tA2 x0 x1 x2 ka kb va vb ma mb (ix3 0 r e)
      = tileAcc (tileMax (m₀ : EReal) (fun j => (sr (keyLo j) : EReal)))
          (tileAcc (m₀ : EReal) 0 (fun j => (sr (keyLo j) : EReal)) (fun j => (wr (keyLo j) : EReal)))
          (fun j => (sr (keyHi j) : EReal)) (fun j => (wr (keyHi j) : EReal)) := by
    unfold tA2 tileAcc
    rw [pay2_apply, pay12_apply, hM2, hM1, hA1]
    refine congrArg _ (Finset.sum_congr rfl fun j _ => ?_)
    rw [pay13_apply, hM2, hs1, pay9_eq, hw1]
  unfold tOut
  rw [pay4_apply, hA2, hL2]
  exact attend_two_tiles sr wr m₀ keyLo keyHi keyLo_val keyHi_val

end Cert.KernelIdeal.HandValue

end
-- ==== Proof.FlashScore.lean ====
/-
  One query row of one query tile, against the specification. The kernel's two grid points for a query tile read
  the query rows, the query weights and bias, the two tiles of projected keys, the two tiles of projected values
  and the two tiles of the mask. When those blocks hold the corresponding entries of the arguments (the projected
  keys and values being the specification's projections), the row's scaled and masked scores on each key tile are
  the specification's scores at that tile's key positions: the query projection is the same dot product plus
  bias, and multiplying by 1/32 is dividing by 32. With every argument entry a real number the scores and the
  projected values are real numbers, so the tiled softmax is the specification's softmax over all the keys.
-/
import proofs.«170906_j52518860096512_2_alg».proof.Proof.FlashTile

noncomputable section

open scoped BigOperators

namespace Cert.KernelIdeal.HandValue

open Cert.KernelIdeal Cert.KernelIdeal.Gen
open Idealize.ShloMosaic Idealize.ShloMosaic.ValueIdx
open Cert.Attn

/-- The output tile's entry at row `r`, column `e` is the specification at batch `b`, query position `i`,
    feature `e`, when the blocks read by the tile's two grid points hold the arguments' entries for that
    batch and query position and for the two halves of the key positions. -/
theorem tile_is_G (q k v : Arr3) (mask : Msk) (Wq : Mat) (bq : Bias) (Wk : Mat) (bk : Bias) (Wv : Mat) (bv : Bias)
    (hq : ∀ i, ∃ r : ℝ, q i = (r : EReal)) (hk : ∀ i, ∃ r : ℝ, k i = (r : EReal)) (hv : ∀ i, ∃ r : ℝ, v i = (r : EReal))
    (hm : ∀ i, ∃ r : ℝ, mask i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (b : Fin 8) (i : Fin 2048) (r : Fin 512) (e : Fin 1024)
    (x0 : Vec Ideal S1x512x1024 .f32) (x1 : Vec Ideal S1024x1024 .bf16) (x2 : Vec Ideal S1024 .f32)
    (ka kb va vb : Vec Ideal S1x1024x1024 .bf16) (ma mb : Vec Ideal S512x1024 .bf16)
    (hx0 : ∀ d : Fin 1024, x0 (ix3 (0 : Fin 1) r d) = q (ix3 b i d))
    (hx1 : ∀ e d : Fin 1024, x1 (ix2 e d) = Wq (ix2 e d))
    (hx2 : ∀ e : Fin 1024, x2 (ix1 e) = bq (ix1 e))
    (hka : ∀ j d : Fin 1024, ka (ix3 (0 : Fin 1) j d) = proj k Wk bk b (keyLo j) d)
    (hkb : ∀ j d : Fin 1024, kb (ix3 (0 : Fin 1) j d) = proj k Wk bk b (keyHi j) d)
    (hva : ∀ j : Fin 1024, va (ix3 (0 : Fin 1) j e) = proj v Wv bv b (keyLo j) e)
    (hvb : ∀ j : Fin 1024, vb (ix3 (0 : Fin 1) j e) = proj v Wv bv b (keyHi j) e)
    (hma : ∀ j : Fin 1024, ma (ix2 r j) = mask (ix2 i (keyLo j)))
    (hmb : ∀ j : Fin 1024, mb (ix2 r j) = mask (ix2 i (keyHi j))) :
    tOut x0 x1 x2 ka kb va vb ma mb (ix3 (0 : Fin 1) r e) = G q k v mask Wq bq Wk bk Wv bv (ix3 b i e) := by
  -- the projected query row
  have hQ : ∀ d : Fin 1024, tQ x0 x1 x2 (ix3 (0 : Fin 1) r d) = proj q Wq bq b i d := fun d => by
    unfold tQ proj
    rw [pay5_apply]
    simp only [hx0, hx1, hx2]
  -- the scores on the two key tiles
  have hS0 : ∀ j : Fin 1024, k2_pay10 (F := Ideal) (tQ x0 x1 x2) ka ma (ix3 (0 : Fin 1) r j)
      = score q k mask Wq bq Wk bk b i (keyLo j) := fun j => by
    rw [pay10_apply]
    simp only [hQ, hka, hma]
    unfold score
    rw [div_thirtytwo]
  have hS1 : ∀ j : Fin 1024, k2_pay10 (F := Ideal) (tQ x0 x1 x2) kb mb (ix3 (0 : Fin 1) r j)
      = score q k mask Wq bq Wk bk b i (keyHi j) := fun j => by
    rw [pay10_apply]
    simp only [hQ, hkb, hmb]
    unfold score
    rw [div_thirtytwo]
  -- real scores and real values
  have hsr := fun j : Fin 2048 => score_real q k mask Wq bq Wk bk hq hk hm hWq hbq hWk hbk b i j
  choose sr hsr' using hsr
  have hwr := fun j : Fin 2048 => proj_real v Wv bv hv hWv hbv b j e
  choose wr hwr' using hwr
  rw [G_ix3, show (fun j => score q k mask Wq bq Wk bk b i j) = fun j => (sr j : EReal) from funext hsr',
    show (fun j => proj v Wv bv b j e) = fun j => (wr j : EReal) from funext hwr']
  exact tOut_apply x0 x1 x2 ka kb va vb ma mb r e sr wr (fun j => (hS0 j).trans (hsr' _)) (fun j => (hS1 j).trans (hsr' _))
    (fun j => (hva j).trans (hwr' _)) (fun j => (hvb j).trans (hwr' _))

end Cert.KernelIdeal.HandValue

end
-- ==== Proof.ProjValue.lean ====
import proofs.«170906_j52518860096512_2_alg».proof.Proof.Proj
import proofs.«170906_j52518860096512_2_alg».proof.Proof.LibDotTransposed
import proofs.«170906_j52518860096512_2_alg».proof.Proof.LibBiasRow
import Idealize.ShloMosaic.Lib.Pipeline.Value
import Idealize.ShloMosaic.Lib.ValueIdx
import Idealize.ShloMosaic.Lib.ValueLayout
import Idealize.ShloMosaic.PureOps.Ideal.Laws

/-! # What the two projection regions leave in their output arrays, on the extended reals

Each projection region stores, at every one of its 16 points, `x · Wᵀ + b` of a block of 1024 rows of `x` into the
matching block of its output. On the extended reals the two roundings of the body are identities, the product into a
zero accumulator contracts the last axis of both operands, and the bias is repeated along the rows; so the stored
block, at row `p` and column `q`, is `Σ_d x(p, d) · W(q, d) + b(q)`. The 16 blocks tile the output array, so after the
region the array at row `r` and column `e` is `Σ_d x(r, d) · W(e, d) + b(e)` of the arrays as the region finds them. -/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a <;> rfl

/-- The projection of a table of rows: at row `r` and column `e`, the inner product of row `r` of `x` with row `e` of the
    weights, plus the bias at `e`. -/
def projOf (x : S16384x1024.Idx → EReal) (w : S1024x1024.Idx → EReal) (b : S1024.Idx → EReal) : S16384x1024.Idx → EReal :=
  fun i => (∑ d : Fin 1024, x (ix2 (⟨(i 0).val, (i 0).isLt⟩ : Fin 16384) d) * w (ix2 (⟨(i 1).val, (i 1).isLt⟩ : Fin 1024) d))
    + b (ix1 (⟨(i 1).val, (i 1).isLt⟩ : Fin 1024))

theorem projOf_apply (x : S16384x1024.Idx → EReal) (w : S1024x1024.Idx → EReal) (b : S1024.Idx → EReal) (r : Fin 16384) (e : Fin 1024) :
    projOf x w b (ix2 r e) = (∑ d : Fin 1024, x (ix2 r d) * w (ix2 e d)) + b (ix1 e) := rfl

/-! ## The payload of region 0's store, index by index -/

/-- The left operand's index keeps the result's row. -/
theorem dot_lhs_row0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The right operand's index takes the result's column as its row. -/
theorem dot_rhs_row0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- What the body stores, at row `p` and column `q`: the inner product of row `p` of the loaded rows of `x` with row `q`
    of the weights, plus the bias at `q`. On the extended reals the two roundings are identities. -/
theorem pay0_apply (x0 : Vec Ideal S1024x1024 .f32) (x1 : Vec Ideal S1024x1024 .bf16) (x2 : Vec Ideal S1024 .f32) (p q : Fin 1024) :
    k0_pay1 (F := Ideal) x0 x1 x2 (ix2 p q) = (∑ k : Fin 1024, x0 (ix2 p k) * x1 (ix2 q k)) + x2 (ix1 q) := by
  unfold k0_pay1
  simp only [truncf_apply, addf_apply]
  rw [Cert.LibBiasRow.reshaped_row_apply, shapeCast_self, shapeCast_self]
  exact congrArg (· + x2 (ix1 q))
    (Cert.LibDotTransposed.matmul_zero_apply dot_S1024x1024_S1024x1024_S1024x1024_1_1_0_0_n_n rfl rfl dot_lhs_row0 dot_rhs_row0 rfl rfl none
      (truncf .bf16 x0 bitsLt_bf16_f32) x1 p q)

/-! ## Region 0: from the blocks to the array -/

/-- The windows' block indices at a point, decided over the grid: the rows of `x` and the output move with the point,
    the weights and the bias stay at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The block of rows of `x` at point `t` is rows `1024 t … 1024 t + 1023` of the array. -/
theorem iblk0_x_apply (c : Dev nD) (t : Fin cfg0.N) (p k : Fin 1024) (i : S16384x1024.Idx)
    (hi0 : (i 0).val = t.val * 1024 + p.val) (hi1 : (i 1).val = k.val) :
    (iblk0 (F := Ideal) V c 0 t : Vec Ideal S1024x1024 .f32) (ix2 p k) = (V c main_v4 : S16384x1024.Idx → EReal) i := by
  obtain ⟨e0, e1, -⟩ := idx_facts0 t
  unfold iblk0
  rw [View.read_apply]
  show V c main_v4 _ = V c main_v4 _
  congr 1
  funext a; apply Fin.ext
  match a with
  | ⟨0, _⟩ => show win0_0.index t (0 : Fin 2) * 1024 + 1 * p.val = (i 0).val; rw [e0, hi0]; omega
  | ⟨1, _⟩ => show win0_0.index t (1 : Fin 2) * 1024 + 1 * k.val = (i 1).val; rw [e1, hi1]; omega

/-- The weights' block at every point is the whole array. -/
theorem iblk0_w_apply (c : Dev nD) (t : Fin cfg0.N) (q k : Fin 1024) :
    (iblk0 (F := Ideal) V c 1 t : Vec Ideal S1024x1024 .bf16) (ix2 q k) = (V c main_v1 : S1024x1024.Idx → EReal) (ix2 q k) := by
  obtain ⟨-, -, e2, e3, -⟩ := idx_facts0 t
  unfold iblk0
  rw [View.read_apply]
  show V c main_v1 _ = V c main_v1 _
  congr 1
  funext a; apply Fin.ext
  match a with
  | ⟨0, _⟩ => show win0_1.index t (0 : Fin 2) * 1024 + 1 * q.val = q.val; rw [e2]; omega
  | ⟨1, _⟩ => show win0_1.index t (1 : Fin 2) * 1024 + 1 * k.val = k.val; rw [e3]; omega

/-- The bias's block at every point is the whole vector. -/
theorem iblk0_b_apply (c : Dev nD) (t : Fin cfg0.N) (q : Fin 1024) :
    (iblk0 (F := Ideal) V c 2 t : Vec Ideal S1024 .f32) (ix1 q) = (V c main_arg7 : S1024.Idx → EReal) (ix1 q) := by
  obtain ⟨-, -, -, -, e4, -⟩ := idx_facts0 t
  unfold iblk0
  rw [View.read_apply]
  show V c main_arg7 _ = V c main_arg7 _
  congr 1
  funext a; apply Fin.ext
  match a with
  | ⟨0, _⟩ => show win0_2.index t (0 : Fin 1) * 1024 + 1 * q.val = q.val; rw [e4]; omega

/-- What point `t` writes back is block `t` of the projection of the arrays as the region finds them. -/
theorem flushed0_eq (c : Dev nD) (t : Fin cfg0.N) :
    (dat0 (F := Ideal) V c).flushed 3 t
      = ((cfg0.win 3).blk t).view.read (Elt Ideal) (projOf (V c main_v4) (V c main_v1) (V c main_arg7)) := by
  show (cfg0.win 3).cut (grid0.coords t) ((dat0 V c).after 3 t) = _
  rw [after0_3]
  unfold out0_3
  rw [View.canon_unit_zero zero_off2]
  simp only [View.ld_unit_zero (S := S1024x1024) zero_off2, View.ld_unit_zero (S := S1024) zero_off1]
  obtain ⟨-, -, -, -, -, e5, e6⟩ := idx_facts0 t
  funext j
  obtain ⟨p, q, rfl⟩ : ∃ (p : Fin 1024) (q : Fin 1024), j = ix2 p q := ⟨j 0, j 1, eq_ix2 j⟩
  show k0_pay1 (F := Ideal) (iblk0 V c 0 t) (iblk0 V c 1 t) (iblk0 V c 2 t) (ix2 p q)
    = projOf (V c main_v4) (V c main_v1) (V c main_arg7) (((cfg0.win 3).blk t).view.emb (ix2 p q))
  rw [pay0_apply]
  have hr : ((((cfg0.win 3).blk t).view.emb (ix2 p q)) 0).val = t.val * 1024 + p.val := by
    show win0_3.index t (0 : Fin 2) * 1024 + 1 * p.val = _; rw [e5]; omega
  have hc : ((((cfg0.win 3).blk t).view.emb (ix2 p q)) 1).val = q.val := by
    show win0_3.index t (1 : Fin 2) * 1024 + 1 * q.val = _; rw [e6]; omega
  unfold projOf
  have hq : (⟨((((cfg0.win 3).blk t).view.emb (ix2 p q)) 1).val, ((((cfg0.win 3).blk t).view.emb (ix2 p q)) 1).isLt⟩ : Fin 1024) = q := Fin.ext hc
  rw [hq, iblk0_b_apply]
  refine congrArg (· + _) (Finset.sum_congr rfl fun d _ => ?_)
  rw [iblk0_w_apply]
  exact congrArg (· * _) (iblk0_x_apply V c t p d _ hr rfl)

/-- An index of the output array is in point `t`'s block iff each coordinate is in the block's range on its axis. -/
theorem mem_blk0 (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v5).slice (win0_3.rect t)).set ↔ _
  rw [View.set_slice_whole, Rect.mem_set_unit]
  exact Iff.rfl

/-- Every index of the output array is in some point's block: row `r` is in the block of point `r / 1024`. -/
theorem cover0 (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 16 := N_0
  have ht : (i 0).val / 1024 < cfg0.N := by rw [hN]; omega
  obtain ⟨-, -, -, -, -, e5, e6⟩ := idx_facts0 ⟨(i 0).val / 1024, ht⟩
  refine ⟨⟨(i 0).val / 1024, ht⟩, flush0_3 _, ?_⟩
  rw [mem_blk0]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    rw [e5]; show (i 0).val / 1024 * 1024 ≤ (i 0).val ∧ (i 0).val < (i 0).val / 1024 * 1024 + 1024; omega
  | ⟨1, _⟩ =>
    show win0_3.index ⟨(i 0).val / 1024, ht⟩ (1 : Fin 2) * 1024 ≤ (i 1).val ∧ (i 1).val < win0_3.index ⟨(i 0).val / 1024, ht⟩ (1 : Fin 2) * 1024 + 1024
    rw [e6]; omega

/-- The output array after region 0: the projection of the arrays as the region finds them. -/
theorem final0 (c : Dev nD) :
    (dat0 (F := Ideal) V c).arrAt 3 cfg0.N = projOf (V c main_v4) (V c main_v1) (V c main_arg7) :=
  (dat0 V c).arrAt_eq_of_cover 3 _ (fun t _ => flushed0_eq V c t) cover0

/-- The three arrays region 0 reads, as the region finds them, as functions of their indices. -/
abbrev x0 (c : Dev nD) : S16384x1024.Idx → EReal := V c main_v4
abbrev w0 (c : Dev nD) : S1024x1024.Idx → EReal := V c main_v1
abbrev b0 (c : Dev nD) : S1024.Idx → EReal := V c main_arg7
/-- The output array after region 0, as a function of its index. -/
abbrev y0 (c : Dev nD) : S16384x1024.Idx → EReal := (dat0 (F := Ideal) V c).arrAt 3 cfg0.N

/-- The output array after region 0, read at row `r` and column `e`. -/
theorem final0_apply (c : Dev nD) (r : Fin 16384) (e : Fin 1024) :
    y0 V c (ix2 r e) = (∑ d : Fin 1024, x0 V c (ix2 r d) * w0 V c (ix2 e d)) + b0 V c (ix1 e) := by
  show (dat0 (F := Ideal) V c).arrAt 3 cfg0.N (ix2 r e) = _
  rw [final0]; rfl

/-! ## The payload of region 1's store, index by index -/

/-- The left operand's index keeps the result's row. -/
theorem dot_lhs_row1 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The right operand's index takes the result's column as its row. -/
theorem dot_rhs_row1 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- What the body stores, at row `p` and column `q`: the inner product of row `p` of the loaded rows of `x` with row `q`
    of the weights, plus the bias at `q`. On the extended reals the two roundings are identities. -/
theorem pay1_apply (x0 : Vec Ideal S1024x1024 .f32) (x1 : Vec Ideal S1024x1024 .bf16) (x2 : Vec Ideal S1024 .f32) (p q : Fin 1024) :
    k1_pay1 (F := Ideal) x0 x1 x2 (ix2 p q) = (∑ k : Fin 1024, x0 (ix2 p k) * x1 (ix2 q k)) + x2 (ix1 q) := by
  unfold k1_pay1
  simp only [truncf_apply, addf_apply]
  rw [Cert.LibBiasRow.reshaped_row_apply, shapeCast_self, shapeCast_self]
  exact congrArg (· + x2 (ix1 q))
    (Cert.LibDotTransposed.matmul_zero_apply dot_S1024x1024_S1024x1024_S1024x1024_1_1_0_0_n_n rfl rfl dot_lhs_row1 dot_rhs_row1 rfl rfl none
      (truncf .bf16 x0 bitsLt_bf16_f32) x1 p q)

/-! ## Region 1: from the blocks to the array -/

/-- The windows' block indices at a point, decided over the grid: the rows of `x` and the output move with the point,
    the weights and the bias stay at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The block of rows of `x` at point `t` is rows `1024 t … 1024 t + 1023` of the array. -/
theorem iblk1_x_apply (c : Dev nD) (t : Fin cfg1.N) (p k : Fin 1024) (i : S16384x1024.Idx)
    (hi0 : (i 0).val = t.val * 1024 + p.val) (hi1 : (i 1).val = k.val) :
    (iblk1 (F := Ideal) V c 0 t : Vec Ideal S1024x1024 .f32) (ix2 p k) = (V c main_v7 : S16384x1024.Idx → EReal) i := by
  obtain ⟨e0, e1, -⟩ := idx_facts1 t
  unfold iblk1
  rw [View.read_apply]
  show V c main_v7 _ = V c main_v7 _
  congr 1
  funext a; apply Fin.ext
  match a with
  | ⟨0, _⟩ => show win1_0.index t (0 : Fin 2) * 1024 + 1 * p.val = (i 0).val; rw [e0, hi0]; omega
  | ⟨1, _⟩ => show win1_0.index t (1 : Fin 2) * 1024 + 1 * k.val = (i 1).val; rw [e1, hi1]; omega

/-- The weights' block at every point is the whole array. -/
theorem iblk1_w_apply (c : Dev nD) (t : Fin cfg1.N) (q k : Fin 1024) :
    (iblk1 (F := Ideal) V c 1 t : Vec Ideal S1024x1024 .bf16) (ix2 q k) = (V c main_v2 : S1024x1024.Idx → EReal) (ix2 q k) := by
  obtain ⟨-, -, e2, e3, -⟩ := idx_facts1 t
  unfold iblk1
  rw [View.read_apply]
  show V c main_v2 _ = V c main_v2 _
  congr 1
  funext a; apply Fin.ext
  match a with
  | ⟨0, _⟩ => show win1_1.index t (0 : Fin 2) * 1024 + 1 * q.val = q.val; rw [e2]; omega
  | ⟨1, _⟩ => show win1_1.index t (1 : Fin 2) * 1024 + 1 * k.val = k.val; rw [e3]; omega

/-- The bias's block at every point is the whole vector. -/
theorem iblk1_b_apply (c : Dev nD) (t : Fin cfg1.N) (q : Fin 1024) :
    (iblk1 (F := Ideal) V c 2 t : Vec Ideal S1024 .f32) (ix1 q) = (V c main_arg9 : S1024.Idx → EReal) (ix1 q) := by
  obtain ⟨-, -, -, -, e4, -⟩ := idx_facts1 t
  unfold iblk1
  rw [View.read_apply]
  show V c main_arg9 _ = V c main_arg9 _
  congr 1
  funext a; apply Fin.ext
  match a with
  | ⟨0, _⟩ => show win1_2.index t (0 : Fin 1) * 1024 + 1 * q.val = q.val; rw [e4]; omega

/-- What point `t` writes back is block `t` of the projection of the arrays as the region finds them. -/
theorem flushed1_eq (c : Dev nD) (t : Fin cfg1.N) :
    (dat1 (F := Ideal) V c).flushed 3 t
      = ((cfg1.win 3).blk t).view.read (Elt Ideal) (projOf (V c main_v7) (V c main_v2) (V c main_arg9)) := by
  show (cfg1.win 3).cut (grid1.coords t) ((dat1 V c).after 3 t) = _
  rw [after1_3]
  unfold out1_3
  rw [View.canon_unit_zero zero_off2]
  simp only [View.ld_unit_zero (S := S1024x1024) zero_off2, View.ld_unit_zero (S := S1024) zero_off1]
  obtain ⟨-, -, -, -, -, e5, e6⟩ := idx_facts1 t
  funext j
  obtain ⟨p, q, rfl⟩ : ∃ (p : Fin 1024) (q : Fin 1024), j = ix2 p q := ⟨j 0, j 1, eq_ix2 j⟩
  show k1_pay1 (F := Ideal) (iblk1 V c 0 t) (iblk1 V c 1 t) (iblk1 V c 2 t) (ix2 p q)
    = projOf (V c main_v7) (V c main_v2) (V c main_arg9) (((cfg1.win 3).blk t).view.emb (ix2 p q))
  rw [pay1_apply]
  have hr : ((((cfg1.win 3).blk t).view.emb (ix2 p q)) 0).val = t.val * 1024 + p.val := by
    show win1_3.index t (0 : Fin 2) * 1024 + 1 * p.val = _; rw [e5]; omega
  have hc : ((((cfg1.win 3).blk t).view.emb (ix2 p q)) 1).val = q.val := by
    show win1_3.index t (1 : Fin 2) * 1024 + 1 * q.val = _; rw [e6]; omega
  unfold projOf
  have hq : (⟨((((cfg1.win 3).blk t).view.emb (ix2 p q)) 1).val, ((((cfg1.win 3).blk t).view.emb (ix2 p q)) 1).isLt⟩ : Fin 1024) = q := Fin.ext hc
  rw [hq, iblk1_b_apply]
  refine congrArg (· + _) (Finset.sum_congr rfl fun d _ => ?_)
  rw [iblk1_w_apply]
  exact congrArg (· * _) (iblk1_x_apply V c t p d _ hr rfl)

/-- An index of the output array is in point `t`'s block iff each coordinate is in the block's range on its axis. -/
theorem mem_blk1 (t : Fin cfg1.N) (i : S16384x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v8).slice (win1_3.rect t)).set ↔ _
  rw [View.set_slice_whole, Rect.mem_set_unit]
  exact Iff.rfl

/-- Every index of the output array is in some point's block: row `r` is in the block of point `r / 1024`. -/
theorem cover1 (i : S16384x1024.Idx) : ∃ t : Fin cfg1.N, (cfg1.win 3).flush t = true ∧ i ∈ ((cfg1.win 3).blk t).view.set := by
  have hi0 : (i 0).val < 16384 := (i 0).isLt
  have hi1 : (i 1).val < 1024 := (i 1).isLt
  have hN : cfg1.N = 16 := N_1
  have ht : (i 0).val / 1024 < cfg1.N := by rw [hN]; omega
  obtain ⟨-, -, -, -, -, e5, e6⟩ := idx_facts1 ⟨(i 0).val / 1024, ht⟩
  refine ⟨⟨(i 0).val / 1024, ht⟩, flush1_3 _, ?_⟩
  rw [mem_blk1]
  intro a
  match a with
  | ⟨0, _⟩ =>
    show win1_3.index ⟨(i 0).val / 1024, ht⟩ (0 : Fin 2) * 1024 ≤ (i 0).val ∧ (i 0).val < win1_3.index ⟨(i 0).val / 1024, ht⟩ (0 : Fin 2) * 1024 + 1024
    rw [e5]; show (i 0).val / 1024 * 1024 ≤ (i 0).val ∧ (i 0).val < (i 0).val / 1024 * 1024 + 1024; omega
  | ⟨1, _⟩ =>
    show win1_3.index ⟨(i 0).val / 1024, ht⟩ (1 : Fin 2) * 1024 ≤ (i 1).val ∧ (i 1).val < win1_3.index ⟨(i 0).val / 1024, ht⟩ (1 : Fin 2) * 1024 + 1024
    rw [e6]; omega

/-- The output array after region 1: the projection of the arrays as the region finds them. -/
theorem final1 (c : Dev nD) :
    (dat1 (F := Ideal) V c).arrAt 3 cfg1.N = projOf (V c main_v7) (V c main_v2) (V c main_arg9) :=
  (dat1 V c).arrAt_eq_of_cover 3 _ (fun t _ => flushed1_eq V c t) cover1

/-- The three arrays region 1 reads, as the region finds them, as functions of their indices. -/
abbrev x1 (c : Dev nD) : S16384x1024.Idx → EReal := V c main_v7
abbrev w1 (c : Dev nD) : S1024x1024.Idx → EReal := V c main_v2
abbrev b1 (c : Dev nD) : S1024.Idx → EReal := V c main_arg9
/-- The output array after region 1, as a function of its index. -/
abbrev y1 (c : Dev nD) : S16384x1024.Idx → EReal := (dat1 (F := Ideal) V c).arrAt 3 cfg1.N

/-- The output array after region 1, read at row `r` and column `e`. -/
theorem final1_apply (c : Dev nD) (r : Fin 16384) (e : Fin 1024) :
    y1 V c (ix2 r e) = (∑ d : Fin 1024, x1 V c (ix2 r d) * w1 V c (ix2 e d)) + b1 V c (ix1 e) := by
  show (dat1 (F := Ideal) V c).arrAt 3 cfg1.N (ix2 r e) = _
  rw [final1]; rfl

end Cert.KernelIdeal.HandValue

end
-- ==== Proof.RunValue.lean ====
/-
  What the buffers the three regions read hold when each region is entered, at the extended reals: a conversion to a
  narrower float format is the identity there, a reshape is the same entries under the row-major renumbering, and a
  buffer no stretch and no region writes holds its launch contents. The projected keys and values reach the attention
  region as the reshapes of what the two projection regions' output windows were written back to.
-/
import proofs.«170906_j52518860096512_2_alg».proof.Proof.Run
import Idealize.ShloMosaic.Lib.StableHlo.Run
import Idealize.ShloMosaic.PureOps.Ideal

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The first projection region's operands -/

theorem V1_v4 : (Hand.V1 m ρ c main_v4 : S16384x1024.Idx → EReal)
    = fun i => shapeCast S16384x1024 (m ((c : Thread nD τ).loc main_arg1)) shapeCasts_S8x2048x1024_S16384x1024 i := by
  dsimp only [Hand.V1, Hand.W1, Hand.W0, hostOps0]; after_results; rfl

theorem V1_v1 : (Hand.V1 m ρ c main_v1 : S1024x1024.Idx → EReal) = m ((c : Thread nD τ).loc main_arg6) := by
  dsimp only [Hand.V1, Hand.W1, Hand.W0, hostOps0]; after_results; rfl

theorem V1_arg7 : (Hand.V1 m ρ c main_arg7 : S1024.Idx → EReal) = m ((c : Thread nD τ).loc main_arg7) :=
  StableHlo.after_of_writes_sub hostOps0 _ hostOps0_writes (by decide)

/-! ## The second projection region's operands -/

theorem W2_arg2 : Hand.W2 m ρ c (Proc.devRef .tc main_arg2) = m ((c : Thread nD τ).loc main_arg2) :=
  (Hand.W2_of_ne m ρ c main_arg2 (by decide)).trans (StableHlo.after_of_writes_sub hostOps0 _ hostOps0_writes (by decide))

theorem V3_v7 : (Hand.V3 m ρ c main_v7 : S16384x1024.Idx → EReal)
    = fun i => shapeCast S16384x1024 (m ((c : Thread nD τ).loc main_arg2)) shapeCasts_S8x2048x1024_S16384x1024 i := by
  have e := W2_arg2 m ρ c
  dsimp only [Hand.V3, Hand.W3, hostOps1]; after_results; rw [e]; rfl

theorem V3_v2 : (Hand.V3 m ρ c main_v2 : S1024x1024.Idx → EReal) = m ((c : Thread nD τ).loc main_arg8) := by
  have h1 : Hand.W3 m ρ c (Proc.devRef .tc main_v2) = Hand.W2 m ρ c (Proc.devRef .tc main_v2) :=
    StableHlo.after_of_writes_sub hostOps1 _ hostOps1_writes (by decide)
  have h2 : Hand.W2 m ρ c (Proc.devRef .tc main_v2) = Hand.W1 m ρ c (Proc.devRef .tc main_v2) :=
    Hand.W2_of_ne m ρ c main_v2 (by decide)
  have h3 : (Hand.W1 m ρ c (Proc.devRef .tc main_v2) : S1024x1024.Idx → EReal) = m ((c : Thread nD τ).loc main_arg8) := by
    dsimp only [Hand.W1, Hand.W0, hostOps0]; after_results; rfl
  exact (h1.trans h2).trans h3

theorem V3_arg9 : (Hand.V3 m ρ c main_arg9 : S1024.Idx → EReal) = m ((c : Thread nD τ).loc main_arg9) :=
  (StableHlo.after_of_writes_sub hostOps1 _ hostOps1_writes (by decide)).trans
    ((Hand.W2_of_ne m ρ c main_arg9 (by decide)).trans (StableHlo.after_of_writes_sub hostOps0 _ hostOps0_writes (by decide)))

/-! ## The attention region's operands -/

/-- A buffer the first stretch wrote and nothing later touches, seen at the attention region's entry. -/
theorem W5_of_W1 (b : Ref sig .tc) (h2 : b ∉ hostOps2_W) (h4 : ∀ w, Pipeline.arrRef spec1 w ≠ b) (h1 : b ∉ hostOps1_W)
    (h0 : ∀ w, Pipeline.arrRef spec0 w ≠ b) :
    Hand.W5 m ρ c (Proc.devRef .tc b) = Hand.W1 m ρ c (Proc.devRef .tc b) :=
  (StableHlo.after_of_writes_sub hostOps2 _ hostOps2_writes h2).trans
    ((Hand.W4_of_ne m ρ c b h4).trans ((StableHlo.after_of_writes_sub hostOps1 _ hostOps1_writes h1).trans (Hand.W2_of_ne m ρ c b h0)))

theorem V5_arg0 : (Hand.V5 m ρ c main_arg0 : S8x2048x1024.Idx → EReal) = m ((c : Thread nD τ).loc main_arg0) :=
  (W5_of_W1 m ρ c main_arg0 (by decide) (by decide) (by decide) (by decide)).trans
    (StableHlo.after_of_writes_sub hostOps0 _ hostOps0_writes (by decide))

theorem V5_arg5 : (Hand.V5 m ρ c main_arg5 : S1024.Idx → EReal) = m ((c : Thread nD τ).loc main_arg5) :=
  (W5_of_W1 m ρ c main_arg5 (by decide) (by decide) (by decide) (by decide)).trans
    (StableHlo.after_of_writes_sub hostOps0 _ hostOps0_writes (by decide))

theorem V5_v0 : (Hand.V5 m ρ c main_v0 : S1024x1024.Idx → EReal) = m ((c : Thread nD τ).loc main_arg4) := by
  have h3 : (Hand.W1 m ρ c (Proc.devRef .tc main_v0) : S1024x1024.Idx → EReal) = m ((c : Thread nD τ).loc main_arg4) := by
    dsimp only [Hand.W1, Hand.W0, hostOps0]; after_results; rfl
  exact (W5_of_W1 m ρ c main_v0 (by decide) (by decide) (by decide) (by decide)).trans h3

theorem V5_v3 : (Hand.V5 m ρ c main_v3 : S2048x2048.Idx → EReal) = m ((c : Thread nD τ).loc main_arg3) := by
  have h3 : (Hand.W1 m ρ c (Proc.devRef .tc main_v3) : S2048x2048.Idx → EReal) = m ((c : Thread nD τ).loc main_arg3) := by
    dsimp only [Hand.W1, Hand.W0, hostOps0]; after_results; rfl
  exact (W5_of_W1 m ρ c main_v3 (by decide) (by decide) (by decide) (by decide)).trans h3

/-- The projected keys: the first projection region's output array, unflattened. -/
theorem V5_v6 : (Hand.V5 m ρ c main_v6 : S8x2048x1024.Idx → EReal)
    = fun i => shapeCast S8x2048x1024 ((Hand.dat0 (F := Ideal) (Hand.V1 m ρ) c).arrAt 3 cfg0.N) shapeCasts_S16384x1024_S8x2048x1024 i := by
  have h1 : Hand.W5 m ρ c (Proc.devRef .tc main_v6) = Hand.W3 m ρ c (Proc.devRef .tc main_v6) :=
    (StableHlo.after_of_writes_sub hostOps2 _ hostOps2_writes (by decide)).trans (Hand.W4_of_ne m ρ c main_v6 (by decide))
  have e := Hand.W2_arr m ρ c 3
  refine h1.trans ?_
  dsimp only [Hand.W3, hostOps1]; after_results; rw [e]; rfl

/-- The projected values: the second projection region's output array, unflattened. -/
theorem V5_v9 : (Hand.V5 m ρ c main_v9 : S8x2048x1024.Idx → EReal)
    = fun i => shapeCast S8x2048x1024 ((Hand.dat1 (F := Ideal) (Hand.V3 m ρ) c).arrAt 3 cfg1.N) shapeCasts_S16384x1024_S8x2048x1024 i := by
  have e := Hand.W4_arr m ρ c 3
  dsimp only [Hand.V5, Hand.W5, hostOps2]; after_results; rw [e]; rfl

end Cert.KernelIdeal.HandValue

end
-- ==== Proof.ProjGlue.lean ====
/-
  The projected keys and values as the attention region finds them. A projection region leaves in its output array,
  at row r and column e, the sum over d of x(r,d)·W(e,d) plus b(e); its input rows are the [8,2048,1024] argument
  flattened to [16384,1024], and its output is unflattened again before the attention region reads it. Row
  b·2048 + j of the flat array is row (b, j) of the original, so the attention region's key operand at (b, j, e) is
  the projection of the key argument at (b, j, e), and likewise for the values.
-/
import proofs.«170906_j52518860096512_2_alg».proof.Proof.ProjValue
import proofs.«170906_j52518860096512_2_alg».proof.Proof.RunValue
import proofs.«170906_j52518860096512_2_alg».proof.Proof.Spec
import Idealize.ShloMosaic.Lib.Pipeline.Value
import Idealize.ShloMosaic.Lib.ValueIdx

set_option maxRecDepth 16384

noncomputable section

namespace Cert.KernelIdeal.HandValue

open Cert.KernelIdeal Cert.KernelIdeal.Gen
open Idealize.ShloMosaic Idealize.ShloMosaic.TcCoe Idealize.ShloMosaic.ValueIdx Idealize.SL.Sem

/-- The flat row of batch `b`, position `j`. -/
def flatRow (b : Fin 8) (j : Fin 2048) : Fin 16384 := ⟨b.val * 2048 + j.val, by omega⟩

theorem flat_apply (x : S8x2048x1024.Idx → EReal) (h : S8x2048x1024.ShapeCasts S16384x1024) (b : Fin 8) (j : Fin 2048) (d : Fin 1024) :
    shapeCast S16384x1024 x h (ix2 (flatRow b j) d) = x (ix3 b j d) :=
  shapeCast_apply x h _ _ (by
    rw [Shape.rowMajor_val_three, Shape.rowMajor_val_two]
    rfl)

theorem unflat_apply (y : S16384x1024.Idx → EReal) (h : S16384x1024.ShapeCasts S8x2048x1024) (b : Fin 8) (j : Fin 2048) (d : Fin 1024) :
    shapeCast S8x2048x1024 y h (ix3 b j d) = y (ix2 (flatRow b j) d) :=
  shapeCast_apply y h _ _ (by
    rw [Shape.rowMajor_val_three, Shape.rowMajor_val_two]
    rfl)

variable (m : (ℓ : Loc nD τ sig) → Buf (Elt Ideal) ℓ) (ρ : Dev nD → PrngReg) (c : Dev nD)

/-- The attention region's key operand is the projection of the key argument. -/
theorem keys_apply (b : Fin 8) (j : Fin 2048) (e : Fin 1024) :
    (Hand.V5 m ρ c main_v6 : S8x2048x1024.Idx → EReal) (ix3 b j e)
      = Cert.Attn.proj (m ((c : Thread nD τ).loc main_arg1)) (m ((c : Thread nD τ).loc main_arg6)) (m ((c : Thread nD τ).loc main_arg7)) b j e := by
  rw [V5_v6]
  show shapeCast S8x2048x1024 ((Hand.dat0 (F := Ideal) (Hand.V1 m ρ) c).arrAt 3 cfg0.N) shapeCasts_S16384x1024_S8x2048x1024 (ix3 b j e) = _
  rw [unflat_apply, final0 (Hand.V1 m ρ) c, projOf_apply, V1_v4, V1_v1, V1_arg7]
  unfold Cert.Attn.proj
  refine congrArg (· + _) (Finset.sum_congr rfl fun d _ => ?_)
  exact congrArg (· * _) (flat_apply _ _ b j d)

/-- The attention region's value operand is the projection of the value argument. -/
theorem values_apply (b : Fin 8) (j : Fin 2048) (e : Fin 1024) :
    (Hand.V5 m ρ c main_v9 : S8x2048x1024.Idx → EReal) (ix3 b j e)
      = Cert.Attn.proj (m ((c : Thread nD τ).loc main_arg2)) (m ((c : Thread nD τ).loc main_arg8)) (m ((c : Thread nD τ).loc main_arg9)) b j e := by
  rw [V5_v9]
  show shapeCast S8x2048x1024 ((Hand.dat1 (F := Ideal) (Hand.V3 m ρ) c).arrAt 3 cfg1.N) shapeCasts_S16384x1024_S8x2048x1024 (ix3 b j e) = _
  rw [unflat_apply, final1 (Hand.V3 m ρ) c, projOf_apply, V3_v7, V3_v2, V3_arg9]
  unfold Cert.Attn.proj
  refine congrArg (· + _) (Finset.sum_congr rfl fun d _ => ?_)
  exact congrArg (· * _) (flat_apply _ _ b j d)

end Cert.KernelIdeal.HandValue

end
-- ==== Proof.Finite.lean ====
/-
  Finiteness of the inputs. The precondition is a printed predicate: for each of the ten argument
  arrays, "every entry's absolute value is less than `+∞`" (the word `0x7F800000`), each a reduction
  by `and` over all axes of the array of comparisons, all ten joined by `and`; the claim's hypothesis
  says the result is 1. So every comparison is 1, and an extended real whose absolute value
  `max x (-x)` is below `+∞` is neither infinity: it is a real number.
-/
import proofs.«170906_j52518860096512_2_alg».proof.Defs
import proofs.«170906_j52518860096512_2_alg».proof.Proof.Gen.Pre_finite_inputs
import proofs.«170906_j52518860096512_2_alg».proof.Proof.Spec
import Idealize.ShloMosaic.Lib.ReduceAll

noncomputable section

namespace Cert.Finite

open Idealize.ShloMosaic Idealize.ShloMosaic.ValueIdx

/-- An extended real whose absolute value compares below the word `0x7F800000` (`+∞`) is a real number. -/
theorem real_of_abs_lt (y : EReal)
    (h : Ideal.cmp .olt (max y (-y)) (Ideal.ofBits .f32 0x7F800000#32) = 1#1) : ∃ r : ℝ, y = (r : EReal) := by
  have htop : Ideal.ofBits .f32 0x7F800000#32 = (⊤ : EReal) := by simp [Ideal.ofBits, Ideal.ieee]
  rw [htop] at h
  induction y using EReal.rec with
  | bot => simp [Ideal.cmp] at h
  | coe r => exact ⟨r, rfl⟩
  | top => simp [Ideal.cmp] at h

/-- One array: if the reduction by `and`, over all axes, of "absolute value below `+∞`" is 1, every
    entry is a real number. -/
theorem real_of_all_finite {s : Shape} {axes : List (Fin s.rank)} (x : FVec Ideal s .f32)
    (bc : (⟨0, ![]⟩ : Shape).BroadcastsInDim s (![] : Fin 0 → Fin s.rank)) (h : s.ReducesTo axes (⟨0, ![]⟩ : Shape))
    (hu : 0 < (⟨0, ![]⟩ : Shape).numel) (init : IVec (⟨0, ![]⟩ : Shape) 1)
    (e : Host.reduce IntOp.andi
        (cmpf .olt (Host.absf x) (broadcastInDim s ![] bc (constant (F := Ideal) (⟨0, ![]⟩ : Shape) .f32 0x7F800000#32)))
        init h hu ix0 = 1#1)
    (i : s.Idx) : ∃ r : ℝ, x i = (r : EReal) := by
  haveI : Subsingleton (⟨0, ![]⟩ : Shape).Idx := ⟨fun a b => funext fun d => d.elim0⟩
  have hi := Host.reduce_andi_all _ init h hu ix0 e i
  exact real_of_abs_lt (x i) hi

/-- The predicate, all ones, makes every entry of each of the ten arrays a real number. -/
theorem args_real (a0 a1 a2 : FVec Ideal Cert.Pre_finite_inputs.S8x2048x1024 .f32) (a3 : FVec Ideal Cert.Pre_finite_inputs.S2048x2048 .f32)
    (a4 : FVec Ideal Cert.Pre_finite_inputs.S1024x1024 .f32) (a5 : FVec Ideal Cert.Pre_finite_inputs.S1024 .f32)
    (a6 : FVec Ideal Cert.Pre_finite_inputs.S1024x1024 .f32) (a7 : FVec Ideal Cert.Pre_finite_inputs.S1024 .f32)
    (a8 : FVec Ideal Cert.Pre_finite_inputs.S1024x1024 .f32) (a9 : FVec Ideal Cert.Pre_finite_inputs.S1024 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨fun i => real_of_all_finite a0 _ _ _ _ e0 i, fun i => real_of_all_finite a1 _ _ _ _ e1 i,
    fun i => real_of_all_finite a2 _ _ _ _ e2 i, fun i => real_of_all_finite a3 _ _ _ _ e3 i,
    fun i => real_of_all_finite a4 _ _ _ _ e4 i, fun i => real_of_all_finite a5 _ _ _ _ e5 i,
    fun i => real_of_all_finite a6 _ _ _ _ e6 i, fun i => real_of_all_finite a7 _ _ _ _ e7 i,
    fun i => real_of_all_finite a8 _ _ _ _ e8 i, fun i => real_of_all_finite a9 _ _ _ _ e9 i⟩

open Cert.KernelIdeal in
/-- From the kernel's precondition: on every device, every entry of each argument array is a real number. -/
theorem args_real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread nD τ).loc main_arg0) : Cert.Attn.Arr3) i = (r : EReal))
      ∧ (∀ i, ∃ r : ℝ, (m ((c.tc : Thread nD τ).loc main_arg1) : Cert.Attn.Arr3) i = (r : EReal))
      ∧ (∀ i, ∃ r : ℝ, (m ((c.tc : Thread nD τ).loc main_arg2) : Cert.Attn.Arr3) i = (r : EReal))
      ∧ (∀ i, ∃ r : ℝ, (m ((c.tc : Thread nD τ).loc main_arg3) : Cert.Attn.Msk) i = (r : EReal))
      ∧ (∀ i, ∃ r : ℝ, (m ((c.tc : Thread nD τ).loc main_arg4) : Cert.Attn.Mat) i = (r : EReal))
      ∧ (∀ i, ∃ r : ℝ, (m ((c.tc : Thread nD τ).loc main_arg5) : Cert.Attn.Bias) i = (r : EReal))
      ∧ (∀ i, ∃ r : ℝ, (m ((c.tc : Thread nD τ).loc main_arg6) : Cert.Attn.Mat) i = (r : EReal))
      ∧ (∀ i, ∃ r : ℝ, (m ((c.tc : Thread nD τ).loc main_arg7) : Cert.Attn.Bias) i = (r : EReal))
      ∧ (∀ i, ∃ r : ℝ, (m ((c.tc : Thread nD τ).loc main_arg8) : Cert.Attn.Mat) i = (r : EReal))
      ∧ (∀ i, ∃ r : ℝ, (m ((c.tc : Thread nD τ).loc main_arg9) : Cert.Attn.Bias) i = (r : EReal)) :=
  args_real _ _ _ _ _ _ _ _ _ _ (hpre c)

end Cert.Finite

end
-- ==== Proof.FlashValue.lean ====
/-
  What the attention region leaves in the result array. The output window's block of batch b and query tile q is
  written back once, at the grid point of that batch and query tile with the second key tile; what that point's body
  leaves is the quotient of the running weighted sum by the running normaliser after both key tiles, computed from
  the query rows of the block, the projected key and value rows of the batch and the mask rows of the query tile.
  Every block the region reads sits in its array at block index times block size, so these are the entries of the
  arguments and of the two projections; with finite inputs the quotient is the attention formula at the block's rows.
  The blocks of the output window tile the result array, which therefore holds the formula everywhere.
-/
import proofs.«170906_j52518860096512_2_alg».proof.Proof.Flash
import proofs.«170906_j52518860096512_2_alg».proof.Proof.FlashPieces
import proofs.«170906_j52518860096512_2_alg».proof.Proof.FlashBlocks
import proofs.«170906_j52518860096512_2_alg».proof.Proof.FlashScore
import proofs.«170906_j52518860096512_2_alg».proof.Proof.ProjGlue
import proofs.«170906_j52518860096512_2_alg».proof.Proof.Finite
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.ShloMosaic.ValueIdx Idealize.SL.Sem
open Idealize.ShloMosaic.Pipeline (Dat)
open Cert.Attn

section
variable (V : (c : Dev nD) → (b : Ref sig .tc) → Buf (Elt Ideal) ((c : Thread nD τ).loc b)) (c : Dev nD)

/-- At a point with the second key tile, the output window's buffer holds the two-tile composition over the blocks
    of this point and of the point before it (same batch, same query tile, first key tile). -/
theorem out_odd (t : Fin cfg2.N) (h : t.val % 2 = 1) :
    (Hand.outsAt2 (F := Ideal) V c t.val t.isLt).1
      = tOut (Hand.iblk2 V c 0 (prevPt t)) (Hand.iblk2 V c 1 (prevPt t)) (Hand.iblk2 V c 2 (prevPt t))
          (Hand.iblk2 V c 3 (prevPt t)) (Hand.iblk2 V c 3 t) (Hand.iblk2 V c 4 (prevPt t)) (Hand.iblk2 V c 4 t)
          (Hand.iblk2 V c 5 (prevPt t)) (Hand.iblk2 V c 5 t) := by
  have hp : (prevPt t).val % 2 = 0 := by rw [prevPt_val]; omega
  have hprev : Hand.outsAt2 (F := Ideal) V c (t.val - 1) (Nat.lt_of_le_of_lt (Nat.sub_le _ _) t.isLt)
      = Hand.outsAt2 (F := Ideal) V c (prevPt t).val (prevPt t).isLt := rfl
  rw [Hand.outsAt2_B V c t (by omega), hprev, Hand.outsAt2_A V c (prevPt t) hp]
  dsimp only
  rw [Hand.out2_B_6_eq, Hand.sout2_A_0_eq, Hand.sout2_A_1_eq, Hand.sout2_A_2_eq, Hand.sout2_A_3_eq]
  rfl

end

variable (m : (ℓ : Loc nD τ sig) → Buf (Elt Ideal) ℓ) (ρ : Dev nD → PrngReg) (c : Dev nD)

/-- The attention formula of the launch contents of the ten arguments. -/
abbrev Gm : S8x2048x1024.Idx → EReal :=
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The two-tile composition over the blocks of a point with the second key tile and of the point before it is that
    point's block of the attention formula: each block read is the matching part of an argument or of a projection,
    the first key tile's rows being sequence rows 0 … 1023 and the second's 1024 … 2047. -/
theorem tile_eq (hpre : Cert.Pre_KernelIdeal m) (t : Fin cfg2.N) (hodd : t.val % 2 = 1) :
    tOut (Hand.iblk2 (Hand.V5 m ρ) c 0 (prevPt t)) (Hand.iblk2 (Hand.V5 m ρ) c 1 (prevPt t)) (Hand.iblk2 (Hand.V5 m ρ) c 2 (prevPt t))
          (Hand.iblk2 (Hand.V5 m ρ) c 3 (prevPt t)) (Hand.iblk2 (Hand.V5 m ρ) c 3 t) (Hand.iblk2 (Hand.V5 m ρ) c 4 (prevPt t)) (Hand.iblk2 (Hand.V5 m ρ) c 4 t)
          (Hand.iblk2 (Hand.V5 m ρ) c 5 (prevPt t)) (Hand.iblk2 (Hand.V5 m ρ) c 5 t)
      = ((cfg2.win 6).blk t).view.read (Elt Ideal) (Gm m c) := by
  obtain ⟨h0, h1, h2, h3, h4, h5, h6, h7, h8, h9⟩ := Cert.Finite.args_real_of_pre m hpre c
  funext y
  obtain ⟨r, e, rfl⟩ : ∃ (r : Fin 512) (e : Fin 1024), y = ix3 (0 : Fin 1) r e := by
    refine ⟨y 1, y 2, funext fun a => ?_⟩
    match a with
    | ⟨0, _⟩ => exact Fin.ext (by have h : (y 0).val < 1 := (y 0).isLt; show (y 0).val = 0; omega)
    | ⟨1, _⟩ => rfl
    | ⟨2, _⟩ => rfl
  refine Eq.trans ?_ (blk6_read_apply (F := Ideal) t (Gm m c) r e).symm
  refine tile_is_G _ _ _ _ _ _ _ _ _ _ h0 h1 h2 h3 h4 h5 h6 h7 h8 h9 (bb t) (bq t r) r e _ _ _ _ _ _ _ _ _ ?_ ?_ ?_ ?_ ?_ ?_ ?_ ?_ ?_
  · intro d
    rw [iblk2_0_apply, V5_arg0, bb_prev t hodd, bq_prev t hodd]
  · intro e' d
    rw [iblk2_1_apply, V5_v0]
  · intro e'
    rw [iblk2_2_apply, V5_arg5]
  · intro j d
    rw [iblk2_3_apply, keys_apply, bb_prev t hodd]
    exact congrArg (fun k => proj _ _ _ (bb t) k d) (Fin.ext (bk_prev_val t hodd j))
  · intro j d
    rw [iblk2_3_apply, keys_apply]
    exact congrArg (fun k => proj _ _ _ (bb t) k d) (Fin.ext (bk_odd_val t hodd j))
  · intro j
    rw [iblk2_4_apply, values_apply, bb_prev t hodd]
    exact congrArg (fun k => proj _ _ _ (bb t) k e) (Fin.ext (bk_prev_val t hodd j))
  · intro j
    rw [iblk2_4_apply, values_apply]
    exact congrArg (fun k => proj _ _ _ (bb t) k e) (Fin.ext (bk_odd_val t hodd j))
  · intro j
    rw [iblk2_5_apply, V5_v3, bq_prev t hodd]
    exact congrArg (fun k => (m ((c.tc : Thread nD τ).loc main_arg3) : Msk) (ix2 (bq t r) k))
      (Fin.ext (bk_prev_val t hodd j) : bk (prevPt t) j = keyLo j)
  · intro j
    rw [iblk2_5_apply, V5_v3]
    exact congrArg (fun k => (m ((c.tc : Thread nD τ).loc main_arg3) : Msk) (ix2 (bq t r) k))
      (Fin.ext (bk_odd_val t hodd j) : bk t j = keyHi j)

/-- What a writing-back point writes back is its block of the attention formula. -/
theorem flushed6_eq (hpre : Cert.Pre_KernelIdeal m) (t : Fin cfg2.N) (hf : (cfg2.win 6).flush t = true) :
    (Hand.dat2 (F := Ideal) (Hand.V5 m ρ) c).flushed 6 t = ((cfg2.win 6).blk t).view.read (Elt Ideal) (Gm m c) := by
  have hodd : t.val % 2 = 1 := (flush2_6 t).mp hf
  show (cfg2.win 6).cut (grid2.coords t) ((Hand.dat2 (F := Ideal) (Hand.V5 m ρ) c).after 6 t) = _
  rw [Hand.after2_6, out_odd (Hand.V5 m ρ) c t hodd]
  exact tile_eq m ρ c hpre t hodd

/-- The result array after the run is the attention formula of the arguments. -/
theorem kernel_value (hpre : Cert.Pre_KernelIdeal m) :
    (Hand.dat2 (F := Ideal) (Hand.V5 m ρ) c).arrAt 6 cfg2.N = Gm m c :=
  (Hand.dat2 (F := Ideal) (Hand.V5 m ρ) c).arrAt_eq_of_cover 6 (Gm m c) (fun t hf => flushed6_eq m ρ c hpre t hf) cover6

end Cert.KernelIdeal.HandValue

end
-- ==== Proof.RefIsSpec.lean ====
/-
  The reference computes the specification: its result array is `G` of its ten arguments, index by
  index. Each operation is read at an index given by coordinates: a projection is a row of the input
  against a row of the weights plus a broadcast bias; a score is the contraction of a projected query
  row with a projected key row, divided by 32, plus the mask broadcast over the batch; the row maximum
  is the fold of the maximum over the last axis from `-∞`, taken once more against `-∞`; the
  normaliser is zero plus the sum over the last axis of the exponentials; the result is the contraction
  over the keys of the normalised exponentials with the projected values.
-/
import proofs.«170906_j52518860096512_2_alg».proof.Proof.Gen.ReferenceIdeal.Read
import proofs.«170906_j52518860096512_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attn

/-- The query projection at `(b, r, e)`: row `(b, r)` against row `e` of the weights, plus the bias at `e`. -/
theorem val_main_v3_ix3 (x0 : (⟨S8x2048x1024, .f32⟩ : BufTy).Contents (Elt Ideal)) (x4 : (⟨S1024x1024, .f32⟩ : BufTy).Contents (Elt Ideal)) (x5 : (⟨S1024, .f32⟩ : BufTy).Contents (Elt Ideal)) (b : Fin 8) (r : Fin 2048) (e : Fin 1024) :
    val_main_v3 (F := Ideal) x0 x4 x5 (ix3 b r e) = proj x0 x4 x5 b r e := by
  have hl : ∀ k : Fin 1024, lidx_main_v0 (ix3 b r e) k = ix3 b r k := fun k => funext fun a => by
    match a with | ⟨0, _⟩ => rfl | ⟨1, _⟩ => rfl | ⟨2, _⟩ => rfl
  have hr : ∀ k : Fin 1024, ridx_main_v0 (ix3 b r e) k = ix2 e k := fun k => funext fun a => by
    match a with | ⟨0, _⟩ => rfl | ⟨1, _⟩ => rfl
  have hb : idx_main_v1 (idx_main_v2 (ix3 b r e)) = ix1 e := funext fun a => by
    match a with | ⟨0, _⟩ => rfl
  rw [val_main_v3_apply, val_main_v0_apply, val_main_v2_apply, val_main_v1_apply]
  simp only [hl, hr, hb, Ideal.addf_def]
  rfl

/-- The key projection at `(b, r, e)`: row `(b, r)` against row `e` of the weights, plus the bias at `e`. -/
theorem val_main_v7_ix3 (x1 : (⟨S8x2048x1024, .f32⟩ : BufTy).Contents (Elt Ideal)) (x6 : (⟨S1024x1024, .f32⟩ : BufTy).Contents (Elt Ideal)) (x7 : (⟨S1024, .f32⟩ : BufTy).Contents (Elt Ideal)) (b : Fin 8) (r : Fin 2048) (e : Fin 1024) :
    val_main_v7 (F := Ideal) x1 x6 x7 (ix3 b r e) = proj x1 x6 x7 b r e := by
  have hl : ∀ k : Fin 1024, lidx_main_v4 (ix3 b r e) k = ix3 b r k := fun k => funext fun a => by
    match a with | ⟨0, _⟩ => rfl | ⟨1, _⟩ => rfl | ⟨2, _⟩ => rfl
  have hr : ∀ k : Fin 1024, ridx_main_v4 (ix3 b r e) k = ix2 e k := fun k => funext fun a => by
    match a with | ⟨0, _⟩ => rfl | ⟨1, _⟩ => rfl
  have hb : idx_main_v5 (idx_main_v6 (ix3 b r e)) = ix1 e := funext fun a => by
    match a with | ⟨0, _⟩ => rfl
  rw [val_main_v7_apply, val_main_v4_apply, val_main_v6_apply, val_main_v5_apply]
  simp only [hl, hr, hb, Ideal.addf_def]
  rfl

/-- The value projection at `(b, r, e)`: row `(b, r)` against row `e` of the weights, plus the bias at `e`. -/
theorem val_main_v11_ix3 (x2 : (⟨S8x2048x1024, .f32⟩ : BufTy).Contents (Elt Ideal)) (x8 : (⟨S1024x1024, .f32⟩ : BufTy).Contents (Elt Ideal)) (x9 : (⟨S1024, .f32⟩ : BufTy).Contents (Elt Ideal)) (b : Fin 8) (r : Fin 2048) (e : Fin 1024) :
    val_main_v11 (F := Ideal) x2 x8 x9 (ix3 b r e) = proj x2 x8 x9 b r e := by
  have hl : ∀ k : Fin 1024, lidx_main_v8 (ix3 b r e) k = ix3 b r k := fun k => funext fun a => by
    match a with | ⟨0, _⟩ => rfl | ⟨1, _⟩ => rfl | ⟨2, _⟩ => rfl
  have hr : ∀ k : Fin 1024, ridx_main_v8 (ix3 b r e) k = ix2 e k := fun k => funext fun a => by
    match a with | ⟨0, _⟩ => rfl | ⟨1, _⟩ => rfl
  have hb : idx_main_v9 (idx_main_v10 (ix3 b r e)) = ix1 e := funext fun a => by
    match a with | ⟨0, _⟩ => rfl
  rw [val_main_v11_apply, val_main_v8_apply, val_main_v10_apply, val_main_v9_apply]
  simp only [hl, hr, hb, Ideal.addf_def]
  rfl

/-- The scaled and masked score at batch `b`, query `r`, key `j`. -/
theorem val_main_v17_ix3 (x0 x1 : (⟨S8x2048x1024, .f32⟩ : BufTy).Contents (Elt Ideal)) (x3 : (⟨S2048x2048, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 8) (r j : Fin 2048) :
    val_main_v17 (F := Ideal) x0 x1 x3 x4 x5 x6 x7 (ix3 b r j) = score x0 x1 x3 x4 x5 x6 x7 b r j := by
  have hl : ∀ k : Fin 1024, lidx_main_v12 (ix3 b r j) k = ix3 b r k := fun k => funext fun a => by
    match a with | ⟨0, _⟩ => rfl | ⟨1, _⟩ => rfl | ⟨2, _⟩ => rfl
  have hr : ∀ k : Fin 1024, ridx_main_v12 (ix3 b r j) k = ix3 b j k := fun k => funext fun a => by
    match a with | ⟨0, _⟩ => rfl | ⟨1, _⟩ => rfl | ⟨2, _⟩ => rfl
  have hm : idx_main_v15 (idx_main_v16 (ix3 b r j)) = ix2 r j := funext fun a => by
    match a with | ⟨0, _⟩ => rfl | ⟨1, _⟩ => rfl
  rw [val_main_v17_apply, val_main_v14_apply, val_main_v12_apply, val_main_v13_apply, val_main_cst_apply,
    val_main_v16_apply, val_main_v15_apply]
  simp only [hl, hr, hm, val_main_v3_ix3, val_main_v7_ix3, Ideal.addf_def, Ideal.hostDivf_def, Ideal.ofBits_def]
  rfl

/-- The reduced index `(b, r)` with key `k` put back on the last axis is `(b, r, k)`. -/
theorem lift_ix2 (h : S8x2048x2048.Reduces [2] S8x2048) (b : Fin 8) (r : Fin 2048) (k : Fin (S8x2048x2048.size 2)) :
    h.lift (ix2 b r) k = ix3 b r (⟨k.val, k.isLt⟩ : Fin 2048) := by
  funext c; apply Fin.ext
  fin_cases c <;> rfl

/-- The row maximum at batch `b`, query `r`. -/
theorem val_main_v20_ix2 (x0 x1 : (⟨S8x2048x1024, .f32⟩ : BufTy).Contents (Elt Ideal)) (x3 : (⟨S2048x2048, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 8) (r : Fin 2048) :
    val_main_v20 (F := Ideal) x0 x1 x3 x4 x5 x6 x7 (ix2 b r) = rowMax (fun j => score x0 x1 x3 x4 x5 x6 x7 b r j) := by
  have h : S8x2048x2048.Reduces [2] S8x2048 := by decide
  rw [val_main_v20_apply, val_main_v19_apply, val_main_cst_1_apply]
  unfold val_main_v18
  rw [Host.reduce_eq_fold_single FloatOps.maximumf _ _ reducesTo_S8x2048x2048_S8x2048_d2 h h_S_, val_main_cst_0_apply]
  have hf : (val_main_v17 (F := Ideal) x0 x1 x3 x4 x5 x6 x7 ∘ h.lift (ix2 b r))
      = fun j : Fin 2048 => score x0 x1 x3 x4 x5 x6 x7 b r j := funext fun k => by
    show val_main_v17 (F := Ideal) x0 x1 x3 x4 x5 x6 x7 (h.lift (ix2 b r) k) = _
    rw [lift_ix2 h b r k, val_main_v17_ix3]
    rfl
  rw [hf]
  rfl

/-- The normaliser at batch `b`, query `r`. -/
theorem val_main_v25_ix2 (x0 x1 : (⟨S8x2048x1024, .f32⟩ : BufTy).Contents (Elt Ideal)) (x3 : (⟨S2048x2048, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 8) (r : Fin 2048) :
    val_main_v25 (F := Ideal) x0 x1 x3 x4 x5 x6 x7 (ix2 b r) = rowSum (fun j => score x0 x1 x3 x4 x5 x6 x7 b r j) := by
  have hk : ∀ k : Fin 2048, idx_main_v25 (ix2 b r) k = ix3 b r k := fun k => funext fun a => by
    match a with | ⟨0, _⟩ => rfl | ⟨1, _⟩ => rfl | ⟨2, _⟩ => rfl
  have hq : ∀ k : Fin 2048, idx_main_v21 (idx_main_v22 (ix3 b r k)) = ix2 b r := fun k => funext fun a => by
    match a with | ⟨0, _⟩ => rfl | ⟨1, _⟩ => rfl
  rw [val_main_v25_apply, val_main_cst_2_apply]
  simp only [hk, val_main_v24_apply, val_main_v23_apply, val_main_v22_apply, val_main_v21_apply, hq,
    val_main_v17_ix3, val_main_v20_ix2, Ideal.subf_def, Ideal.hostUnary_exp_def, Ideal.ofBits_def]
  rfl

/-- THE REFERENCE IS THE SPECIFICATION. -/
theorem val_main_v29_eq_G (x0 x1 x2 : (⟨S8x2048x1024, .f32⟩ : BufTy).Contents (Elt Ideal)) (x3 : (⟨S2048x2048, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal)) :
    val_main_v29 (F := Ideal) x0 x1 x2 x3 x4 x5 x6 x7 x8 x9 = G x0 x1 x2 x3 x4 x5 x6 x7 x8 x9 := by
  funext i
  obtain ⟨b, r, e, rfl⟩ : ∃ (b : Fin 8) (r : Fin 2048) (e : Fin 1024), i = ix3 b r e := ⟨i 0, i 1, i 2, eq_ix3 i⟩
  have hl : ∀ k : Fin 2048, lidx_main_v29 (ix3 b r e) k = ix3 b r k := fun k => funext fun a => by
    match a with | ⟨0, _⟩ => rfl | ⟨1, _⟩ => rfl | ⟨2, _⟩ => rfl
  have hr : ∀ k : Fin 2048, ridx_main_v29 (ix3 b r e) k = ix3 b k e := fun k => funext fun a => by
    match a with | ⟨0, _⟩ => rfl | ⟨1, _⟩ => rfl | ⟨2, _⟩ => rfl
  have hq : ∀ k : Fin 2048, idx_main_v21 (idx_main_v22 (ix3 b r k)) = ix2 b r := fun k => funext fun a => by
    match a with | ⟨0, _⟩ => rfl | ⟨1, _⟩ => rfl
  have hq' : ∀ k : Fin 2048, idx_main_v26 (idx_main_v27 (ix3 b r k)) = ix2 b r := fun k => funext fun a => by
    match a with | ⟨0, _⟩ => rfl | ⟨1, _⟩ => rfl
  rw [G_ix3, val_main_v29_apply]
  simp only [hl, hr, val_main_v28_apply, val_main_v27_apply, val_main_v26_apply, hq', val_main_v25_ix2,
    val_main_v24_apply, val_main_v23_apply, val_main_v22_apply, val_main_v21_apply, hq, val_main_v17_ix3,
    val_main_v20_ix2, val_main_v11_ix3, Ideal.subf_def, Ideal.hostUnary_exp_def, Ideal.hostDivf_def]
  rfl

/-- The reference's result term, as the run names it, is `G` of the arguments' launch contents. -/
theorem res_main_v29_eq_G (m : (ℓ : Loc nD τ sig) → Buf (Elt Ideal) ℓ) (c : Dev nD) :
    Cert.ReferenceIdeal.Value.res_main_v29 m c
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [val_main_v29_eq]
  exact val_main_v29_eq_G _ _ _ _ _ _ _ _ _ _

end Cert.ReferenceIdeal.RefValue

end
-- ==== Proof.lean ====
/-
  Scaled dot-product attention with its three input projections, computed tile by tile with a running maximum,
  against the plain formula softmax((q·Wqᵀ + bq)(k·Wkᵀ + bk)ᵀ / 32 + mask)·(v·Wvᵀ + bv).

  The kernel program is two projection regions (keys, values) and one attention region that projects each query tile
  itself. Its run is followed boundary by boundary: every argument array ends as launched, and the result buffer
  holds what the attention region's output blocks were written back to. At the extended reals a change of float
  format is the identity and 1/32 is exact; with finite inputs every score is a real number, and then the two-tile
  recurrence — maximum, rescaled normaliser, rescaled weighted sum, final quotient — is the softmax of all the scores
  applied to all the value rows, whatever finite value the running maximum starts from. The reference's run is read
  off its operations one at a time and is the same function of the arguments.
-/
import proofs.«170906_j52518860096512_2_alg».proof.Defs
import proofs.«170906_j52518860096512_2_alg».proof.Proof.Gen.Kernel
import proofs.«170906_j52518860096512_2_alg».proof.Proof.Gen.KernelIdeal
import proofs.«170906_j52518860096512_2_alg».proof.Proof.Gen.ReferenceIdeal
import proofs.«170906_j52518860096512_2_alg».proof.Proof.Gen.Pre_finite_inputs
import proofs.«170906_j52518860096512_2_alg».proof.Proof.Gen.ReferenceIdeal.Run
import proofs.«170906_j52518860096512_2_alg».proof.Proof.Gen.ReferenceIdeal.Read
import proofs.«170906_j52518860096512_2_alg».proof.Proof.Run
import proofs.«170906_j52518860096512_2_alg».proof.Proof.KRun
import proofs.«170906_j52518860096512_2_alg».proof.Proof.FlashValue
import proofs.«170906_j52518860096512_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ =>
  (θ_run Cert.Kernel.defs _ _).mono (fun _ h c => (h c).2) (Cert.Kernel.Hand.run_result (F := Bits) m ρ)

/-- So does the kernel read at the extended reals. -/
theorem frame_ki : Cert.frame_KernelIdeal := fun m ρ _ =>
  (θ_run Cert.KernelIdeal.defs _ _).mono (fun _ h c => (h c).2) (Cert.KernelIdeal.Hand.run_result (F := Ideal) m ρ)

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the attention formula of the arguments in their result buffers. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.HandValue.kernel_value m ρ c hpre), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_main_v29_eq_G, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
